-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S128x64 .f32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : FVec F S256x128 .f32) (main_arg2 : FVec F S128 .f32) (main_arg3 : FVec F S128x64 .f32) (main_arg4 : FVec F S64 .f32) (main_arg5 : FVec F S128x64 .f32) (main_arg6 : FVec F S64 .f32) (main_arg7 : IVec S2x640000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S740000x128 : Shape := ⟨2, ![740000, 128]⟩
abbrev S1x128 : Shape := ⟨2, ![1, 128]⟩
abbrev S128x128 : Shape := ⟨2, ![128, 128]⟩
abbrev S100000x64 : Shape := ⟨2, ![100000, 64]⟩

abbrev nBuf : Space → Nat
  | .hbm => 65
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S2x640000, .i32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S740000, .i32⟩
  | .hbm, ⟨33, _⟩ => ⟨S740000, .i1⟩
  | .hbm, ⟨34, _⟩ => ⟨S_, .i32⟩
  | .hbm, ⟨35, _⟩ => ⟨S740000, .i32⟩
  | .hbm, ⟨36, _⟩ => ⟨S740000, .i32⟩
  | .hbm, ⟨37, _⟩ => ⟨S740000, .i32⟩
  | .hbm, ⟨38, _⟩ => ⟨S740000x1, .i32⟩
  | .hbm, ⟨39, _⟩ => ⟨S740000x128, .f32⟩
  | .hbm, ⟨40, _⟩ => ⟨S_, .f32⟩
  | .hbm, ⟨41, _⟩ => ⟨S100000x128, .f32⟩
  | .hbm, ⟨42, _⟩ => ⟨S740000x1, .i32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S740000, .i32⟩
  | .hbm, ⟨48, _⟩ => ⟨S740000, .i1⟩
  | .hbm, ⟨49, _⟩ => ⟨S_, .i32⟩
  | .hbm, ⟨50, _⟩ => ⟨S740000, .i32⟩
  | .hbm, ⟨51, _⟩ => ⟨S740000, .i32⟩
  | .hbm, ⟨52, _⟩ => ⟨S740000, .i32⟩
  | .hbm, ⟨53, _⟩ => ⟨S740000x1, .i32⟩
  | .hbm, ⟨54, _⟩ => ⟨S740000x128, .f32⟩
  | .hbm, ⟨55, _⟩ => ⟨S_, .f32⟩
  | .hbm, ⟨56, _⟩ => ⟨S100000x128, .f32⟩
  | .hbm, ⟨57, _⟩ => ⟨S740000x1, .i32⟩
  | .hbm, ⟨58, _⟩ => ⟨S100000x128, .f32⟩
  | .hbm, ⟨59, _⟩ => ⟨S128x128, .f32⟩
  | .hbm, ⟨60, _⟩ => ⟨S128, .f32⟩
  | .hbm, ⟨61, _⟩ => ⟨S1x128, .f32⟩
  | .hbm, ⟨62, _⟩ => ⟨S100000x128, .f32⟩
  | .hbm, ⟨63, _⟩ => ⟨S100000x64, .f32⟩
  | .hbm, ⟨64, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S128x64_S128x64_S128x128_d1 : Shape.Concatenates [S128x64, S128x64] S128x128 1
  concatenates_S64_S64_S128_d0 : Shape.Concatenates [S64, S64] S128 0
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S100000x128_S100000x64_0_0 : S100000x128.Slices ![0, 0] S100000x64
  slices_S100000x128_S100000x64_0_64 : S100000x128.Slices ![0, 64] S100000x64
  scatter_S100000_S740000x1_S740000_n_0_0_1_wf : ScatterDims.WF S100000 S740000x1 S740000 [] [0] [0] 1
  dot_S5000x256_S256x128_S5000x128_1_0_0_1_n_n_wf : DotDims.WF S5000x256 S256x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x128 : Shape := ⟨2, ![100000, 128]⟩
abbrev S740000x128 : Shape := ⟨2, ![740000, 128]⟩
abbrev S1x128 : Shape := ⟨2, ![1, 128]⟩
abbrev S100000x64 : Shape := ⟨2, ![100000, 64]⟩
abbrev S740000x64 : Shape := ⟨2, ![740000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S2x640000, .i32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S100000x128, .f32⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x128, .f32⟩
  | .hbm, ⟨58, _⟩ => ⟨S740000x1, .f32⟩
  | .hbm, ⟨59, _⟩ => ⟨S740000x128, .f32⟩
  | .hbm, ⟨60, _⟩ => ⟨S740000x128, .f32⟩
  | .hbm, ⟨61, _⟩ => ⟨S_, .f32⟩
  | .hbm, ⟨62, _⟩ => ⟨S100000x128, .f32⟩
  | .hbm, ⟨63, _⟩ => ⟨S740000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S740000, .i32⟩
  | .hbm, ⟨74, _⟩ => ⟨S740000, .i1⟩
  | .hbm, ⟨75, _⟩ => ⟨S_, .i32⟩
  | .hbm, ⟨76, _⟩ => ⟨S740000, .i32⟩
  | .hbm, ⟨77, _⟩ => ⟨S740000, .i32⟩
  | .hbm, ⟨78, _⟩ => ⟨S740000, .i32⟩
  | .hbm, ⟨79, _⟩ => ⟨S740000x1, .i32⟩
  | .hbm, ⟨80, _⟩ => ⟨S740000x64, .f32⟩
  | .hbm, ⟨81, _⟩ => ⟨S740000x1, .f32⟩
  | .hbm, ⟨82, _⟩ => ⟨S740000x64, .f32⟩
  | .hbm, ⟨83, _⟩ => ⟨S740000x64, .f32⟩
  | .hbm, ⟨84, _⟩ => ⟨S_, .f32⟩
  | .hbm, ⟨85, _⟩ => ⟨S100000x64, .f32⟩
  | .hbm, ⟨86, _⟩ => ⟨S740000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S740000, .i32⟩
  | .hbm, ⟨94, _⟩ => ⟨S740000, .i1⟩
  | .hbm, ⟨95, _⟩ => ⟨S_, .i32⟩
  | .hbm, ⟨96, _⟩ => ⟨S740000, .i32⟩
  | .hbm, ⟨97, _⟩ => ⟨S740000, .i32⟩
  | .hbm, ⟨98, _⟩ => ⟨S740000, .i32⟩
  | .hbm, ⟨99, _⟩ => ⟨S740000x1, .i32⟩
  | .hbm, ⟨100, _⟩ => ⟨S740000x64, .f32⟩
  | .hbm, ⟨101, _⟩ => ⟨S740000x1, .f32⟩
  | .hbm, ⟨102, _⟩ => ⟨S740000x64, .f32⟩
  | .hbm, ⟨103, _⟩ => ⟨S740000x64, .f32⟩
  | .hbm, ⟨104, _⟩ => ⟨S_, .f32⟩
  | .hbm, ⟨105, _⟩ => ⟨S100000x64, .f32⟩
  | .hbm, ⟨106, _⟩ => ⟨S740000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x256_S256x128_S100000x128_1_0_0_1_n_n_wf : DotDims.WF S100000x256 S256x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x64_S100000x64_1_0_0_1_n_n_wf : DotDims.WF S100000x128 S128x64 S100000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf

class Facts : Prop extends Facts₀ where

variable [Facts]
-- ==== Proof.LibGatherTable.lean ====
/-
  A TABLE GATHERED BY ONE INDEX PER ENTRY, READ AT AN INDEX.  `x[idx]` of a table `x : [N, C]` at indices
  `idx : [E, 1]` is the array `[E, C]` whose row `e` is the table's row `idx[e, 0]`; the transposed form takes the
  columns of a table `x : [C, N]` into an array `[C, E]`.  In both the index is read as a signed integer and clamped
  into `[0, N − 1]`: a negative index reads row 0, an index past the end reads the last row.  The extents are
  arbitrary naturals and the elements of any type; nothing here depends on a program.
-/
import Idealize.ShloMosaic.PureOps.ShapeOps
import Idealize.ShloMosaic.Lib.ValueIdx

noncomputable section

namespace Idealize.ShloMosaic.GatherTable

open Idealize.ShloMosaic Idealize.ShloMosaic.ValueIdx

variable {α : Type}

/-- The position in a table of `N` entries that an index word names: read as a signed integer, a negative value
    goes to 0 and a value past the end to `N − 1`. -/
def clampIdx {w : Nat} (N : Nat) (hN : 0 < N) (i : BitVec w) : Fin N :=
  ⟨min i.toInt.toNat (N - 1), by omega⟩

/-! ## Rows of `[N, C]` -/

/-- The dimension numbers of a row gather: the index vector (length one, on the indices' axis 1) names operand axis 0,
    which is collapsed; the result's axis 1 is the offset axis and runs along operand axis 1, whole. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at the row `idx[e, 0]` (signed, clamped) and the column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N C E wf) x idx (ix2 e c) = x (ix2 (clampIdx N hN (idx (ix2 e (0 : Fin 1)))) c) := by
  unfold Host.gather
  congr 1
  funext a
  refine Fin.ext ?_
  match a with
  | ⟨0, _⟩ =>
    show (rowsDims N C E wf).start (ix2 e c) idx 0 + (rowsDims N C E wf).batchCoord (ix2 e c) 0
      + (rowsDims N C E wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e c) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e c) idx 1 + (rowsDims N C E wf).batchCoord (ix2 e c) 1
      + (rowsDims N C E wf).offCoord (ix2 e c) 1 = c.val
    have hst : (rowsDims N C E wf).start (ix2 e c) idx 1 = 0 := by
      unfold GatherDims.start
      rw [dif_neg]
      exact (show (1 : Fin 2) ∉ ([0] : List (Fin 2)) by decide)
    have hoff : (rowsDims N C E wf).offCoord (ix2 e c) 1 = c.val := by
      unfold GatherDims.offCoord
      rw [dif_pos]
      · rfl
      · exact (show (1 : Fin 2) ∈ (List.finRange 2).filter (fun a => a ∉ ([0] : List (Fin 2))) by decide)
    rw [GatherDims.batchCoord_eq_zero _ _ _ List.not_mem_nil, hst, hoff]
    omega

/-! ## Columns of `[C, N]` -/

/-- The dimension numbers of a column gather: the index vector names operand axis 1, which is collapsed; the result's
    axis 0 is the offset axis and runs along operand axis 0, whole. -/
abbrev colsDims (N C E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- THE COLUMN GATHER READ AT `(c, e)`: the table at the row `c` and the column `idx[e, 0]` (signed, clamped). -/
theorem gather_cols_apply {N C E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (c : Fin C) (e : Fin E) :
    Host.gather (colsDims N C E wf) x idx (ix2 c e) = x (ix2 c (clampIdx N hN (idx (ix2 e (0 : Fin 1))))) := by
  unfold Host.gather
  congr 1
  funext a
  refine Fin.ext ?_
  match a with
  | ⟨0, _⟩ =>
    show (colsDims N C E wf).start (ix2 c e) idx 0 + (colsDims N C E wf).batchCoord (ix2 c e) 0
      + (colsDims N C E wf).offCoord (ix2 c e) 0 = c.val
    have hst : (colsDims N C E wf).start (ix2 c e) idx 0 = 0 := by
      unfold GatherDims.start
      rw [dif_neg]
      exact (show (0 : Fin 2) ∉ ([1] : List (Fin 2)) by decide)
    have hoff : (colsDims N C E wf).offCoord (ix2 c e) 0 = c.val := by
      unfold GatherDims.offCoord
      rw [dif_pos]
      · rfl
      · exact (show (0 : Fin 2) ∈ (List.finRange 2).filter (fun a => a ∉ ([1] : List (Fin 2))) by decide)
    rw [GatherDims.batchCoord_eq_zero _ _ _ List.not_mem_nil, hst, hoff]
    omega
  | ⟨1, _⟩ =>
    show (colsDims N C E wf).start (ix2 c e) idx 1 + (colsDims N C E wf).batchCoord (ix2 c e) 1
      + (colsDims N C E wf).offCoord (ix2 c e) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C E wf).startIndexMap from List.mem_singleton.mpr rfl)]
    have hsi : (colsDims N C E wf).siIdx (ix2 c e) ⟨List.idxOf (1 : Fin 2) (colsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.GatherTable

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibHostRows.lean ====
import Idealize.ShloMosaic.Lib.Pipeline.Value
import Idealize.ShloMosaic.Lib.ValueIdx
import Idealize.ShloMosaic.Lib.IdealHost
import Idealize.ShloMosaic.PureOps.Ideal.Laws

/-!
# A vector broadcast down the rows, and a column sum, read at an index

`jnp` broadcasts a vector of `C` entries against an `R × C` matrix in two steps, `[C] → [1, C] → [R, C]`;
read at `(r, c)` the result is the vector's entry `c` (`rowBroadcast_apply`).  A host sum of an `R × C`
matrix over its rows, read at `c` over the extended reals, is the initial value plus the sum over `r` of
the entries `(r, c)` (`colSum_apply`).  The extents are arbitrary naturals.
-/

noncomputable section

open scoped BigOperators

namespace Cert.LibHostRows

open Idealize.ShloMosaic Idealize.ShloMosaic.ValueIdx

/-- A vector broadcast down the rows of a matrix, read at an index: the vector at the column. -/
theorem rowBroadcast_apply {α : Type} {R C : ℕ}
    (h1 : (⟨1, ![C]⟩ : Shape).BroadcastsInDim ⟨2, ![1, C]⟩ ![1])
    (h2 : (⟨2, ![1, C]⟩ : Shape).BroadcastsInDim ⟨2, ![R, C]⟩ ![0, 1])
    (y : (⟨1, ![C]⟩ : Shape).Idx → α) (i : (⟨2, ![R, C]⟩ : Shape).Idx) :
    broadcastInDim ⟨2, ![R, C]⟩ ![0, 1] h2 (broadcastInDim ⟨2, ![1, C]⟩ ![1] h1 y) i = y (ix1 (i 1)) := by
  have hc : (i 1).val < C := (i 1).isLt
  rw [broadcastInDim_apply _ h2 _ i (ix2 ⟨0, Nat.one_pos⟩ (i 1)) (fun a => match a with
      | ⟨0, _⟩ => by show (0 : ℕ) = if (1 : ℕ) = 1 then 0 else (i 0).val; rw [if_pos rfl]
      | ⟨1, _⟩ => by
        show (i 1).val = if C = 1 then 0 else (i 1).val
        split
        · omega
        · rfl),
    broadcastInDim_apply _ h1 y _ (ix1 (i 1)) (fun a => match a with
      | ⟨0, _⟩ => by
        show (i 1).val = if C = 1 then 0 else (i 1).val
        split
        · omega
        · rfl)]

/-- The host's sum of a matrix over its rows, read at a column over the extended reals. -/
theorem colSum_apply {R C : ℕ} {φ : FTy} {u : Shape}
    (hr : (⟨2, ![R, C]⟩ : Shape).ReducesTo [0] ⟨1, ![C]⟩) (hR : (⟨2, ![R, C]⟩ : Shape).Reduces [0] ⟨1, ![C]⟩)
    (hu : 0 < u.numel) (X : FVec Ideal ⟨2, ![R, C]⟩ φ) (c : u.Idx → Ideal φ) (j : (⟨1, ![C]⟩ : Shape).Idx) :
    Host.reduceAdd X c hr hu j = c (Shape.Idx.first hu) + ∑ r : Fin R, X (ix2 r (j 0)) := by
  rw [hostReduceAdd_apply, Ideal.hostReduceAdd_single hr hR]
  refine congrArg (_ + ·) (Finset.sum_congr rfl fun k _ => ?_)
  exact congrArg X (funext fun a => Fin.ext (by match a with | ⟨0, _⟩ => rfl | ⟨1, _⟩ => rfl))

end Cert.LibHostRows

end
-- ==== Proof.LibDenseLayers.lean ====
/-
  Dense layers over the extended reals, as functions of whole arrays, and the host operations that compute them.
  The extents n, k, c are arbitrary naturals; nothing here depends on a program.

  * `mm x w` is the matrix product: entry (r, q) is the sum over j of x (r, j) · w (j, q).
  * `addBias x b` adds the vector b to every row of x; `biasRelu x b` is its positive part, max (x + b) 0.
  * `addBiasRow`, `biasReluRow` take the bias as a 1 × c row; the row that is the reshape of a vector acts as the
    vector does (`addBiasRow_cast`, `biasReluRow_cast`).

  On the host a matrix product is a `dot_general` contracting axis 1 of the left operand with axis 0 of the right
  (`hostDot_eq_mm`), a bias is broadcast in two steps [c] → [1, c] → [n, c] and added (`hostAddBias_eq`), and the
  positive part is a maximum with the zero splat (`hostBiasRelu_eq`, `zeroSplat_apply`).  Each lemma reads one of
  these at an index and finds the layer function there.  No law of the extended reals beyond the meaning of the
  operations is used: the sums keep their order and nothing is distributed.
-/
import Idealize.ShloMosaic.Lib.Pipeline.Value
import Idealize.ShloMosaic.Lib.ValueIdx
import Idealize.ShloMosaic.PureOps.Ideal.Laws
import proofs.«142820_j71021579206869_2_alg».proof.Proof.LibHostDot
import proofs.«142820_j71021579206869_2_alg».proof.Proof.LibRowOps
import proofs.«142820_j71021579206869_2_alg».proof.Proof.LibHostRows

noncomputable section

open scoped BigOperators

namespace Cert.Layers

open Idealize.ShloMosaic Idealize.ShloMosaic.ValueIdx

variable {n k c : ℕ}

/-- The matrix product of an n×k by a k×c matrix. -/
def mm (x : FVec Ideal ⟨2, ![n, k]⟩ .f32) (w : FVec Ideal ⟨2, ![k, c]⟩ .f32) : FVec Ideal ⟨2, ![n, c]⟩ .f32 :=
  fun i => ∑ j : Fin k, x (ix2 (i 0) j) * w (ix2 j (i 1))

/-- A vector added to every row of a matrix. -/
def addBias (x : FVec Ideal ⟨2, ![n, c]⟩ .f32) (b : FVec Ideal ⟨1, ![c]⟩ .f32) : FVec Ideal ⟨2, ![n, c]⟩ .f32 :=
  fun i => x i + b (ix1 (i 1))

/-- The positive part of a matrix plus a vector on every row. -/
def biasRelu (x : FVec Ideal ⟨2, ![n, c]⟩ .f32) (b : FVec Ideal ⟨1, ![c]⟩ .f32) : FVec Ideal ⟨2, ![n, c]⟩ .f32 :=
  fun i => max (x i + b (ix1 (i 1))) 0

theorem mm_apply (x : FVec Ideal ⟨2, ![n, k]⟩ .f32) (w : FVec Ideal ⟨2, ![k, c]⟩ .f32) (r : Fin n) (q : Fin c) :
    mm x w (ix2 r q) = ∑ j : Fin k, x (ix2 r j) * w (ix2 j q) := rfl

/-- The host's `dot_general` of two matrices, contracting the inner axis, is the matrix product. -/
theorem hostDot_eq_mm (d : DotDims ⟨2, ![n, k]⟩ ⟨2, ![k, c]⟩ ⟨2, ![n, c]⟩)
    (wf : DotDims.WF ⟨2, ![n, k]⟩ ⟨2, ![k, c]⟩ ⟨2, ![n, c]⟩ [1] [0] [0] [1] [] [])
    (hd : d = ⟨[1], [0], [0], [1], [], [], wf⟩) (prec : Option ContractPrecision)
    (x : FVec Ideal ⟨2, ![n, k]⟩ .f32) (w : FVec Ideal ⟨2, ![k, c]⟩ .f32) :
    Host.dotGeneral d prec x w = mm x w := by
  funext i
  rw [eq_ix2 i]
  exact Cert.LibHostDot.dotGeneral_plain_apply' d wf hd prec x w (i 0) (i 1)

/-- The zero splat broadcast from a scalar reads 0 everywhere. -/
theorem zeroSplat_apply {s : Shape} (h0 : (⟨0, ![]⟩ : Shape).BroadcastsInDim s ![]) (i : s.Idx) :
    broadcastInDim s ![] h0 (constant (F := Ideal) ⟨0, ![]⟩ .f32 0x00000000#32) i = 0 := by
  rw [broadcastInDim_apply ![] h0 _ i ix0 (fun a => a.elim0), constant_apply, Ideal.ofBits_zero_f32]

/-- The host's bias: the vector broadcast to a row and then down the rows, added to the matrix. -/
theorem hostAddBias_eq (h1 : (⟨1, ![c]⟩ : Shape).BroadcastsInDim ⟨2, ![1, c]⟩ ![1])
    (h2 : (⟨2, ![1, c]⟩ : Shape).BroadcastsInDim ⟨2, ![n, c]⟩ ![0, 1])
    (x : FVec Ideal ⟨2, ![n, c]⟩ .f32) (b : FVec Ideal ⟨1, ![c]⟩ .f32) :
    addf x (broadcastInDim ⟨2, ![n, c]⟩ ![0, 1] h2 (broadcastInDim ⟨2, ![1, c]⟩ ![1] h1 b)) = addBias x b := by
  funext i
  rw [addf_apply, Cert.LibHostRows.rowBroadcast_apply h1 h2 b i]
  rfl

/-- The host's bias followed by its maximum with the zero splat is the positive part. -/
theorem hostBiasRelu_eq (h1 : (⟨1, ![c]⟩ : Shape).BroadcastsInDim ⟨2, ![1, c]⟩ ![1])
    (h2 : (⟨2, ![1, c]⟩ : Shape).BroadcastsInDim ⟨2, ![n, c]⟩ ![0, 1])
    (h0 : (⟨0, ![]⟩ : Shape).BroadcastsInDim ⟨2, ![n, c]⟩ ![])
    (x : FVec Ideal ⟨2, ![n, c]⟩ .f32) (b : FVec Ideal ⟨1, ![c]⟩ .f32) :
    maximumf (addf x (broadcastInDim ⟨2, ![n, c]⟩ ![0, 1] h2 (broadcastInDim ⟨2, ![1, c]⟩ ![1] h1 b)))
        (broadcastInDim ⟨2, ![n, c]⟩ ![] h0 (constant (F := Ideal) ⟨0, ![]⟩ .f32 0x00000000#32))
      = biasRelu x b := by
  funext i
  rw [maximumf_apply, zeroSplat_apply h0 i, hostAddBias_eq h1 h2 x b]
  rfl

/-! ## The bias given as a row

  A kernel receives the bias as the 1 × c reshape of the vector and broadcasts that row down the block's rows. -/

/-- A row added to every row of a matrix. -/
def addBiasRow (x : FVec Ideal ⟨2, ![n, c]⟩ .f32) (b : FVec Ideal ⟨2, ![1, c]⟩ .f32) : FVec Ideal ⟨2, ![n, c]⟩ .f32 :=
  fun i => x i + b (ix2 (0 : Fin 1) (i 1))

/-- The positive part of a matrix plus a row on every row. -/
def biasReluRow (x : FVec Ideal ⟨2, ![n, c]⟩ .f32) (b : FVec Ideal ⟨2, ![1, c]⟩ .f32) : FVec Ideal ⟨2, ![n, c]⟩ .f32 :=
  fun i => max (x i + b (ix2 (0 : Fin 1) (i 1))) 0

theorem addBiasRow_apply (x : FVec Ideal ⟨2, ![n, c]⟩ .f32) (b : FVec Ideal ⟨2, ![1, c]⟩ .f32) (r : Fin n) (q : Fin c) :
    addBiasRow x b (ix2 r q) = x (ix2 r q) + b (ix2 (0 : Fin 1) q) := rfl

theorem biasReluRow_apply (x : FVec Ideal ⟨2, ![n, c]⟩ .f32) (b : FVec Ideal ⟨2, ![1, c]⟩ .f32) (r : Fin n) (q : Fin c) :
    biasReluRow x b (ix2 r q) = max (x (ix2 r q) + b (ix2 (0 : Fin 1) q)) 0 := rfl

/-- The row that is the reshape of a vector adds as the vector does. -/
theorem addBiasRow_cast (h : (⟨1, ![c]⟩ : Shape).ShapeCasts ⟨2, ![1, c]⟩)
    (x : FVec Ideal ⟨2, ![n, c]⟩ .f32) (b : FVec Ideal ⟨1, ![c]⟩ .f32) :
    addBiasRow x (shapeCast ⟨2, ![1, c]⟩ b h) = addBias x b := by
  funext i
  obtain ⟨r, q, rfl⟩ : ∃ (r : Fin n) (q : Fin c), i = ix2 r q := ⟨i 0, i 1, eq_ix2 i⟩
  show x (ix2 r q) + shapeCast ⟨2, ![1, c]⟩ b h (ix2 (0 : Fin 1) q) = x (ix2 r q) + b (ix1 q)
  rw [Cert.KernelBody.shapeCast_row_apply]

theorem biasReluRow_cast (h : (⟨1, ![c]⟩ : Shape).ShapeCasts ⟨2, ![1, c]⟩)
    (x : FVec Ideal ⟨2, ![n, c]⟩ .f32) (b : FVec Ideal ⟨1, ![c]⟩ .f32) :
    biasReluRow x (shapeCast ⟨2, ![1, c]⟩ b h) = biasRelu x b := by
  funext i
  obtain ⟨r, q, rfl⟩ : ∃ (r : Fin n) (q : Fin c), i = ix2 r q := ⟨i 0, i 1, eq_ix2 i⟩
  show max (x (ix2 r q) + shapeCast ⟨2, ![1, c]⟩ b h (ix2 (0 : Fin 1) q)) 0 = max (x (ix2 r q) + b (ix1 q)) 0
  rw [Cert.KernelBody.shapeCast_row_apply]

end Cert.Layers

end
-- ==== Proof.Spec.lean ====
/-
  The message-passing encoder as functions of whole arrays over the extended reals, with arbitrary extents; nothing
  here depends on a program.

  Notation: x is a table of node rows, d a column holding one scale per node, "the edges into n" are the edges e whose
  destination word reads, as a signed integer, n; the source word of an edge is read signed and clamped into the table.

  * scaledProduct x w d   : entry (r, q) is (sum over j of x (r, j) · w (j, q)) · d (r, 0).
  * scaledRelu a d b      : entry (r, q) is max (a (r, q) · d (r, 0) + b (0, q)) 0 · d (r, 0).
  * scaledDense a d w b   : entry (r, q) is (sum over j of (a (r, j) · d (r, 0)) · w (j, q)) + b (0, q).
  * edgeNorm dv ig idn e  : dv at edge e's source times dv at the (clamped) word idn holds for e.
  * conv h nrm ig is      : entry (n, q) is zero plus the sum over the edges e into n of h (source of e, q) · nrm e.
-/
import Idealize.ShloMosaic.PureOps.Ideal
import Idealize.ShloMosaic.Lib.ValueIdx
import proofs.«142820_j71021579206869_2_alg».proof.Proof.LibGatherTable
import proofs.«142820_j71021579206869_2_alg».proof.Proof.LibDenseLayers

noncomputable section

open scoped BigOperators

namespace Cert.Gcn

open Idealize.ShloMosaic Idealize.ShloMosaic.ValueIdx Idealize.ShloMosaic.GatherTable Cert.Layers

variable {n k c : ℕ}

/-- The product x·w with every row scaled by that row's entry of the column d. -/
def scaledProduct (x : FVec Ideal ⟨2, ![n, k]⟩ .f32) (w : FVec Ideal ⟨2, ![k, c]⟩ .f32)
    (d : FVec Ideal ⟨2, ![n, 1]⟩ .f32) : FVec Ideal ⟨2, ![n, c]⟩ .f32 :=
  fun i => mm x w i * d (ix2 (i 0) (0 : Fin 1))

theorem scaledProduct_apply (x : FVec Ideal ⟨2, ![n, k]⟩ .f32) (w : FVec Ideal ⟨2, ![k, c]⟩ .f32)
    (d : FVec Ideal ⟨2, ![n, 1]⟩ .f32) (r : Fin n) (q : Fin c) :
    scaledProduct x w d (ix2 r q) = (∑ j : Fin k, x (ix2 r j) * w (ix2 j q)) * d (ix2 r (0 : Fin 1)) := rfl

/-- Rows scaled, a row added, the positive part taken, rows scaled again. -/
def scaledRelu (a : FVec Ideal ⟨2, ![n, c]⟩ .f32) (d : FVec Ideal ⟨2, ![n, 1]⟩ .f32)
    (b : FVec Ideal ⟨2, ![1, c]⟩ .f32) : FVec Ideal ⟨2, ![n, c]⟩ .f32 :=
  fun i => max (a i * d (ix2 (i 0) (0 : Fin 1)) + b (ix2 (0 : Fin 1) (i 1))) 0 * d (ix2 (i 0) (0 : Fin 1))

theorem scaledRelu_apply (a : FVec Ideal ⟨2, ![n, c]⟩ .f32) (d : FVec Ideal ⟨2, ![n, 1]⟩ .f32)
    (b : FVec Ideal ⟨2, ![1, c]⟩ .f32) (r : Fin n) (q : Fin c) :
    scaledRelu a d b (ix2 r q)
      = max (a (ix2 r q) * d (ix2 r (0 : Fin 1)) + b (ix2 (0 : Fin 1) q)) 0 * d (ix2 r (0 : Fin 1)) := rfl

/-- Rows scaled, then the product with w, plus a row. -/
def scaledDense (a : FVec Ideal ⟨2, ![n, k]⟩ .f32) (d : FVec Ideal ⟨2, ![n, 1]⟩ .f32)
    (w : FVec Ideal ⟨2, ![k, c]⟩ .f32) (b : FVec Ideal ⟨2, ![1, c]⟩ .f32) : FVec Ideal ⟨2, ![n, c]⟩ .f32 :=
  fun i => (∑ j : Fin k, (a (ix2 (i 0) j) * d (ix2 (i 0) (0 : Fin 1))) * w (ix2 j (i 1))) + b (ix2 (0 : Fin 1) (i 1))

theorem scaledDense_apply (a : FVec Ideal ⟨2, ![n, k]⟩ .f32) (d : FVec Ideal ⟨2, ![n, 1]⟩ .f32)
    (w : FVec Ideal ⟨2, ![k, c]⟩ .f32) (b : FVec Ideal ⟨2, ![1, c]⟩ .f32) (r : Fin n) (q : Fin c) :
    scaledDense a d w b (ix2 r q)
      = (∑ j : Fin k, (a (ix2 r j) * d (ix2 r (0 : Fin 1))) * w (ix2 j q)) + b (ix2 (0 : Fin 1) q) := rfl

/-- The weight of an edge: the node scale at its source times the node scale at the word idn holds for it. -/
def edgeNorm {E : ℕ} (hN : 0 < n) (dv : FVec Ideal ⟨1, ![n]⟩ .f32) (ig idn : IVec ⟨2, ![E, 1]⟩ 32) : Fin E → EReal :=
  fun e => dv (ix1 (clampIdx n hN (ig (ix2 e (0 : Fin 1))))) * dv (ix1 (clampIdx n hN (idn (ix2 e (0 : Fin 1)))))

/-- Weighted message passing from zero: the rows of h at the edges' sources, each times its edge's weight, summed
    into the edges' destinations. -/
def conv {E M : ℕ} (hN : 0 < n) (h : FVec Ideal ⟨2, ![n, c]⟩ .f32) (nrm : Fin E → EReal)
    (ig is : IVec ⟨2, ![E, 1]⟩ 32) : FVec Ideal ⟨2, ![M, c]⟩ .f32 :=
  fun i => 0 + ∑ e ∈ Finset.univ.filter (fun e : Fin E => (is (ix2 e (0 : Fin 1))).toInt = ((i 0).val : ℤ)),
    h (ix2 (clampIdx n hN (ig (ix2 e (0 : Fin 1)))) (i 1)) * nrm e

theorem conv_apply {E M : ℕ} (hN : 0 < n) (h : FVec Ideal ⟨2, ![n, c]⟩ .f32) (nrm : Fin E → EReal)
    (ig is : IVec ⟨2, ![E, 1]⟩ 32) (r : Fin M) (q : Fin c) :
    conv (M := M) hN h nrm ig is (ix2 r q)
      = 0 + ∑ e ∈ Finset.univ.filter (fun e : Fin E => (is (ix2 e (0 : Fin 1))).toInt = (r.val : ℤ)),
          h (ix2 (clampIdx n hN (ig (ix2 e (0 : Fin 1)))) q) * nrm e := rfl

end Cert.Gcn

end
-- ==== Proof.Words.lean ====
/-
  The index words and the node scale that both programs compute from the edge list, as functions of the edge list.

  The edge list holds two rows of E = 640000 words: the sources and the destinations.  Each row is followed by the node
  numbers 0 … N − 1 (N = 100000): one self loop per node.  A word used to read a table has N added when it is negative
  (`wrapNeg`); a word used as a destination is taken as it is.  The in-degree of a node counts the destination words
  equal to it, and the node scale is the reciprocal square root of the in-degree where that is positive and 0 elsewhere.
-/
import proofs.«142820_j71021579206869_2_alg».proof.Proof.Gen.ReferenceIdeal
import Idealize.ShloMosaic.PureOps.Ideal
import proofs.«142820_j71021579206869_2_alg».proof.Proof.Spec

noncomputable section

namespace Cert.Words

open Idealize.ShloMosaic Cert.ReferenceIdeal Cert.ReferenceIdeal.Gen Cert.Layers Cert.Gcn

/-- The source words, then the node numbers. -/
def srcWords (a7 : IVec S2x640000 32) : IVec S740000 32 :=
  concatenate S740000 0 [⟨S640000, (shapeCast _ (extractStridedSlice S1x640000 ![0, 0] a7 slices_S2x640000_S1x640000_0_0) shapeCasts_S1x640000_S640000)⟩, ⟨S100000, (iotaInDim S100000 32 0)⟩] concatenates_S640000_S100000_S740000_d0

/-- The destination words, then the node numbers. -/
def dstWords (a7 : IVec S2x640000 32) : IVec S740000 32 :=
  concatenate S740000 0 [⟨S640000, (shapeCast _ (extractStridedSlice S1x640000 ![1, 0] a7 slices_S2x640000_S1x640000_1_0) shapeCasts_S1x640000_S640000)⟩, ⟨S100000, (iotaInDim S100000 32 0)⟩] concatenates_S640000_S100000_S740000_d0

/-- A negative word has N added; any other word is kept. -/
def wrapNeg (w : IVec S740000 32) : IVec S740000 32 :=
  select (cmpi .slt w (broadcastInDim S740000 ![] bcast_S_S740000 (constantI S_ 32 0#32))) (addi w (broadcastInDim S740000 ![] bcast_S_S740000 (constantI S_ 32 100000#32))) w

/-- The words as a column, one index vector of length one per edge. -/
def col (w : IVec S740000 32) : IVec S740000x1 32 :=
  broadcastInDim S740000x1 ![0] bcast_S740000_S740000x1_0 w

/-- The in-degree: a one added, from zero, at every destination word that names a node. -/
def degree (a7 : IVec S2x640000 32) : FVec Ideal S100000 .f32 :=
  Host.scatterAdd (F := Ideal) scatter_S100000_S740000x1_S740000_n_0_0_1 (broadcastInDim S100000 ![] bcast_S_S100000 (constant (F := Ideal) S_ .f32 0x00000000#32)) (col (dstWords a7)) (broadcastInDim S740000 ![] bcast_S_S740000 (constant (F := Ideal) S_ .f32 0x3F800000#32))

/-- The node scale: the reciprocal square root of a positive in-degree, 0 elsewhere. -/
def nodeScale (a7 : IVec S2x640000 32) : FVec Ideal S100000 .f32 :=
  select (cmpf (F := Ideal) .ogt (degree a7) (broadcastInDim S100000 ![] bcast_S_S100000 (constant (F := Ideal) S_ .f32 0x00000000#32))) (Host.rsqrt (F := Ideal) (degree a7)) (broadcastInDim S100000 ![] bcast_S_S100000 (id (constant (F := Ideal) S_ .f32 0x00000000#32)))

/-- There is at least one node. -/
theorem hN : 0 < 100000 := by decide

/-- The source words, wrapped, as a column: what the tables are read at. -/
def isrc (a7 : IVec S2x640000 32) : IVec S740000x1 32 := col (wrapNeg (srcWords a7))

/-- The destination words as a column: where the messages are summed. -/
def idst (a7 : IVec S2x640000 32) : IVec S740000x1 32 := col (dstWords a7)

/-- The destination words, wrapped, as a column: what the node scale is read at for the edge weight. -/
def idstWrapped (a7 : IVec S2x640000 32) : IVec S740000x1 32 := col (wrapNeg (dstWords a7))

/-- The weight of each edge: the node scale at its source times the node scale at its destination. -/
def edgeWeight (a7 : IVec S2x640000 32) : Fin 740000 → EReal :=
  edgeNorm hN (nodeScale a7) (isrc a7) (idstWrapped a7)

/-- The reference's hidden layer: weighted message passing of x·W1, plus b1, positive part. -/
def refHidden (x : FVec Ideal S100000x256 .f32) (W1 : FVec Ideal S256x128 .f32) (b1 : FVec Ideal S128 .f32)
    (a7 : IVec S2x640000 32) : FVec Ideal S100000x128 .f32 :=
  biasRelu (conv (M := 100000) hN (mm x W1) (edgeWeight a7) (isrc a7) (idst a7)) b1

/-- One of the reference's two results: weighted message passing of hidden·W, plus b. -/
def refOut (x : FVec Ideal S100000x256 .f32) (W1 : FVec Ideal S256x128 .f32) (b1 : FVec Ideal S128 .f32)
    (W : FVec Ideal S128x64 .f32) (b : FVec Ideal S64 .f32) (a7 : IVec S2x640000 32) : FVec Ideal S100000x64 .f32 :=
  addBias (conv (M := 100000) hN (mm (refHidden x W1 b1 a7) W) (edgeWeight a7) (isrc a7) (idst a7)) b

end Cert.Words

end
-- ==== Proof.LibScatterRows.lean ====
/-
  A ROW SCATTER-ADD READ AT AN INDEX.  What `x.at[idx].add(u)` of a table `x : [N, C]`, one row index per update row
  `idx : [E, 1]` and update rows `u : [E, C]` means on the extended reals: element `(n, c)` of the result is
  `x[n, c]` plus the sum of `u[e, c]` over the update rows `e` whose row index, read as a signed integer, is `n`.
  An update row whose index is negative or at least `N` lands nowhere and is dropped.  The extents are arbitrary
  naturals; nothing here depends on a program.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- The dimension numbers of a row scatter: the index vector (of length one, on the indices' axis 1) names operand
    axis 0, which is inserted; the updates' axis 1 is the window axis and runs along operand axis 1. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update element `(e, c)` reads its row index: `(e, 0)`. -/
abbrev rowIdx {E C : Nat} (j : (⟨2, ![E, C]⟩ : Shape).Idx) : (⟨2, ![E, 1]⟩ : Shape).Idx :=
  ix2 (⟨(j 0).val, idx2_lt0 j⟩ : Fin E) (0 : Fin 1)

section
variable {N C E w : Nat} (wf : ScatterDims.WF ⟨2, ![N, C]⟩ ⟨2, ![E, 1]⟩ ⟨2, ![E, C]⟩ [1] [0] [0] 1)

/-- On the row axis the window starts at the row index, read signed. -/
theorem start_row (j : (⟨2, ![E, C]⟩ : Shape).Idx) (idx : IVec ⟨2, ![E, 1]⟩ w) :
    (rowDims N C E wf).start j idx 0 = (idx (rowIdx j)).toInt := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

/-- On the column axis it starts at zero. -/
theorem start_col (j : (⟨2, ![E, C]⟩ : Shape).Idx) (idx : IVec ⟨2, ![E, 1]⟩ w) :
    (rowDims N C E wf).start j idx 1 = 0 := by
  unfold ScatterDims.start
  rw [dif_neg (show (1 : Fin 2) ∉ ([0] : List (Fin 2)) by decide)]

/-- The window has no extent along the rows … -/
theorem window_row (j : (⟨2, ![E, C]⟩ : Shape).Idx) : (rowDims N C E wf).window j 0 = 0 := by
  unfold ScatterDims.window
  rw [dif_neg]
  exact (show (0 : Fin 2) ∉ (List.finRange 2).filter (fun a => a ∉ ([0] : List (Fin 2))) by decide)

/-- … and along the columns it is the update's column. -/
theorem window_col (j : (⟨2, ![E, C]⟩ : Shape).Idx) : (rowDims N C E wf).window j 1 = (j 1).val := by
  unfold ScatterDims.window
  rw [dif_pos]
  · rfl
  · exact (show (1 : Fin 2) ∈ (List.finRange 2).filter (fun a => a ∉ ([0] : List (Fin 2))) by decide)

/-- An update element lands on operand element `i` exactly when its row index, read signed, is `i`'s row and its
    column is `i`'s column. -/
theorem resultIdx?_eq_some_iff (j : (⟨2, ![E, C]⟩ : Shape).Idx) (idx : IVec ⟨2, ![E, 1]⟩ w)
    (i : (⟨2, ![N, C]⟩ : Shape).Idx) :
    (rowDims N C E wf).resultIdx? j idx = some i ↔
      (idx (rowIdx j)).toInt = ((i 0).val : ℤ) ∧ (j 1).val = (i 1).val := by
  have hi0 : (i 0).val < N := idx2_lt0 i
  have hi1 : (i 1).val < C := idx2_lt1 i
  constructor
  · intro hsome
    unfold ScatterDims.resultIdx? at hsome
    split at hsome
    · rename_i h
      have e := Option.some.inj hsome
      have e0 := congrArg Fin.val (congrFun e 0)
      have e1 := congrArg Fin.val (congrFun e 1)
      have h0 := h 0
      have h1 := h 1
      simp only [start_row, start_col, window_row, window_col] at e0 e1 h0 h1
      constructor <;> omega
    · exact absurd hsome (by simp)
  · rintro ⟨e0, e1⟩
    have h : ∀ a, 0 ≤ (rowDims N C E wf).start j idx a + (rowDims N C E wf).window j a ∧
        (rowDims N C E wf).start j idx a + (rowDims N C E wf).window j a < (⟨2, ![N, C]⟩ : Shape).size a := by
      intro a
      match a with
      | ⟨0, _⟩ =>
        show 0 ≤ (rowDims N C E wf).start j idx 0 + (rowDims N C E wf).window j 0 ∧
          (rowDims N C E wf).start j idx 0 + (rowDims N C E wf).window j 0 < (N : ℤ)
        rw [start_row, window_row]; omega
      | ⟨1, _⟩ =>
        show 0 ≤ (rowDims N C E wf).start j idx 1 + (rowDims N C E wf).window j 1 ∧
          (rowDims N C E wf).start j idx 1 + (rowDims N C E wf).window j 1 < (C : ℤ)
        rw [start_col, window_col]; omega
    unfold ScatterDims.resultIdx?
    rw [dif_pos h]
    congr 1
    funext a
    refine Fin.ext ?_
    match a with
    | ⟨0, _⟩ =>
      show ((rowDims N C E wf).start j idx 0 + (rowDims N C E wf).window j 0).toNat = (i 0).val
      rw [start_row, window_row]; omega
    | ⟨1, _⟩ =>
      show ((rowDims N C E wf).start j idx 1 + (rowDims N C E wf).window j 1).toNat = (i 1).val
      rw [start_col, window_col]; omega

/-- THE ROW SCATTER-ADD READ AT `(n, c)`, on the extended reals: the operand's element plus the sum, over the update
    rows `e` whose row index read signed is `n`, of the update's element `(e, c)`.  The update elements that land on
    `(n, c)` are exactly the `(e, c)` with such an `e`, one for each. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowDims N C E wf) x idx upd (ix2 n c) =
      x (ix2 n c) + ∑ e ∈ Finset.univ.filter (fun e : Fin E => (idx (ix2 e (0 : Fin 1))).toInt = (n.val : ℤ)),
        upd (ix2 e c) := by
  show Ideal.hostScatterAdd (rowDims N C E wf) x idx upd (ix2 n c) = _
  unfold Ideal.hostScatterAdd
  refine congrArg (x (ix2 n c) + ·) ?_
  have key : ∀ j : (⟨2, ![E, C]⟩ : Shape).Idx, (rowDims N C E wf).resultIdx? j idx = some (ix2 n c) ↔
      (idx (rowIdx j)).toInt = (n.val : ℤ) ∧ (j 1).val = c.val :=
    fun j => resultIdx?_eq_some_iff wf j idx (ix2 n c)
  have back : ∀ j : (⟨2, ![E, C]⟩ : Shape).Idx, (j 1).val = c.val →
      ix2 (⟨(j 0).val, idx2_lt0 j⟩ : Fin E) c = j := by
    intro j hj
    have hc : j 1 = c := Fin.ext hj
    rw [← hc]
    exact (eq_ix2 j).symm
  refine Finset.sum_bij' (fun j _ => (⟨(j 0).val, idx2_lt0 j⟩ : Fin E)) (fun e _ => ix2 e c) ?_ ?_ ?_ ?_ ?_
  · intro j hj
    rw [Finset.mem_filter] at hj ⊢
    exact ⟨Finset.mem_univ _, ((key j).mp hj.2).1⟩
  · intro e he
    rw [Finset.mem_filter] at he ⊢
    exact ⟨Finset.mem_univ _, (key (ix2 e c)).mpr ⟨he.2, rfl⟩⟩
  · intro j hj
    rw [Finset.mem_filter] at hj
    exact back j ((key j).mp hj.2).2
  · intro e _
    rfl
  · intro j hj
    rw [Finset.mem_filter] at hj
    exact congrArg upd (back j ((key j).mp hj.2).2).symm

end

end Idealize.ShloMosaic.ScatterRows

end
-- ==== Proof.LibGatherScatter.lean ====
/-
  Reading a host gather and a host accumulating scatter at an index, for the two index layouts that `x[idx]` and
  `segment_sum` lower to when the operand is a flat array [N] or a column [N, 1] and the indices are a column [E, 1].

  * A gather along axis 0 reads the operand at the start index, taken as a signed integer and clamped into [0, N - 1].
  * An accumulating scatter at the exact (ideal) instance leaves at element `i` the old element plus the sum of the
    updates whose index word, read as a signed integer and NOT clamped, is exactly `i`; an update whose index falls
    outside [0, N) lands nowhere.
  * A sum over a concatenated range [0, E + N) splits as the sum over [0, E) plus the sum over the shifted [0, N).
-/
import Idealize.ShloMosaic.PureOps.Ideal
import Idealize.ShloMosaic.Lib.ValueIdx
import Idealize.ShloMosaic.Lib.Pipeline.Value

noncomputable section

open scoped BigOperators

namespace Idealize.ShloMosaic.GatherScatterIdx

open Idealize.ShloMosaic Idealize.ShloMosaic.ValueIdx

/-! ## Rank-1 index sets and sums over them -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a column index set [n, 1] is the sum over the row coordinate. -/
theorem sum_idxCol {M : Type*} [AddCommMonoid M] {n : Nat} (f : (⟨2, ![n, 1]⟩ : Shape).Idx → M) :
    ∑ i, f i = ∑ a : Fin n, f (ix2 a (0 : Fin 1)) := by
  rw [sum_idx2]
  refine Finset.sum_congr rfl fun a _ => ?_
  exact Fin.sum_univ_one _

/-- A sum over [0, T) with T = E + N is the sum over [0, E) plus the sum over E + [0, N). -/
theorem sum_fin_split {M : Type*} [AddCommMonoid M] {E N T : Nat} (hT : E + N = T) (f : Fin T → M) :
    ∑ t, f t = (∑ e : Fin E, f ⟨e.val, by omega⟩) + ∑ n : Fin N, f ⟨E + n.val, by omega⟩ := by
  subst hT
  rw [Fin.sum_univ_add]
  rfl

/-! ## The gather of a flat array at a column of indices -/

section Gather
variable {α : Type}

/-- The dimension numbers of `x[idx]` for `x : [N]`, `idx : [E, 1]`, result `[E]`. -/
abbrev rowGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gather is the operand at index word `idx[e, 0]`, read signed and clamped into [0, N - 1]. -/
theorem gather_row_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (rowGather N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (rowGather N E wf).start j idx 0 + (rowGather N E wf).batchCoord j 0 + (rowGather N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather N E wf).startIndexMap from List.mem_singleton.mpr rfl)]
  have hsi : (rowGather N E wf).siIdx j ⟨List.idxOf (0 : Fin 1) (rowGather N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a column `x : [N, 1]`, `idx : [E, 1]`, result `[E, 1]`. -/
abbrev colGather (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of the gathered column is the operand's row at index word `idx[e, 0]`, read signed and clamped. -/
theorem gather_col_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (colGather N E wf) x idx j
      = x (ix2 (⟨min (idx (ix2 (j 0) (0 : Fin 1))).toInt.toNat (N - 1), by omega⟩ : Fin N) (0 : Fin 1)) := by
  unfold Host.gather
  congr 1
  funext a
  match a with
  | ⟨0, _⟩ =>
    refine Fin.ext ?_
    show (colGather N E wf).start j idx 0 + (colGather N E wf).batchCoord j 0 + (colGather N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGather N E wf).startIndexMap from List.mem_singleton.mpr rfl)]
    have hsi : (colGather N E wf).siIdx j ⟨List.idxOf (0 : Fin 2) (colGather N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (_ : Fin 1) = _
    exact Subsingleton.elim _ _

end Gather

/-! ## The accumulating scatter into a flat array, and into a column, at a column of indices -/

section Scatter

/-- The dimension numbers of `segment_sum` into `x : [N]` at `idx : [E, 1]` with updates `[E]`. -/
abbrev rowScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `i` exactly when its index word, read signed, is `i`. -/
theorem resultIdx_row_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (rowScatter N E wf).resultIdx? j idx = some i ↔ (idx (ix2 (j 0) (0 : Fin 1))).toInt = ((i 0).val : Int) := by
  have hst : ∀ a, (rowScatter N E wf).start j idx a + ((rowScatter N E wf).window j a : Int)
      = (idx (ix2 (j 0) (0 : Fin 1))).toInt := by
    intro a
    obtain rfl : a = 0 := Subsingleton.elim _ _
    have hw : (rowScatter N E wf).window j 0 = 0 := by
      unfold ScatterDims.window
      rw [dif_neg (by simp [ScatterDims.sKept, Shape.kept])]
    have hs : (rowScatter N E wf).start j idx 0 = (idx (ix2 (j 0) (0 : Fin 1))).toInt := by
      unfold ScatterDims.start
      rw [dif_pos (show (0 : Fin 1) ∈ (rowScatter N E wf).scatterDimsToOperandDims from List.mem_singleton.mpr rfl)]
      have hsi : (rowScatter N E wf).siIdx j ⟨List.idxOf (0 : Fin 1) (rowScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  unfold ScatterDims.resultIdx?
  by_cases h : ∀ a, 0 ≤ (rowScatter N E wf).start j idx a + ((rowScatter N E wf).window j a : Int) ∧
      (rowScatter N E wf).start j idx a + ((rowScatter N E wf).window j a : Int) < ((⟨1, ![N]⟩ : Shape).size a : Int)
  · rw [dif_pos h]
    constructor
    · intro e
      have e0 : ((rowScatter N E wf).start j idx 0 + ((rowScatter N E wf).window j 0 : Int)).toNat = (i 0).val :=
        congrArg (fun f : (⟨1, ![N]⟩ : Shape).Idx => (f 0).val) (Option.some.inj e)
      have h0 := (h 0).1
      rw [hst 0] at e0 h0
      omega
    · intro e
      refine congrArg some ?_
      funext a
      obtain rfl : a = 0 := Subsingleton.elim _ _
      refine Fin.ext ?_
      show ((rowScatter N E wf).start j idx 0 + ((rowScatter N E wf).window j 0 : Int)).toNat = (i 0).val
      rw [hst 0, e]; simp
  · rw [dif_neg h]
    constructor
    · intro e; cases e
    · intro e
      exfalso; apply h
      intro a
      rw [hst a, e]
      obtain rfl : a = 0 := Subsingleton.elim _ _
      exact ⟨by positivity, by exact_mod_cast (i 0).isLt⟩

/-- At the exact instance element `i` of the scatter is the old element plus the sum of the updates whose index word
    is `i`. -/
theorem scatterAdd_row_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (i : (⟨1, ![N]⟩ : Shape).Idx) :
    Host.scatterAdd (F := Ideal) (rowScatter N E wf) x idx upd i
      = x i + ∑ e : Fin E, if (idx (ix2 e (0 : Fin 1))).toInt = ((i 0).val : Int) then upd (ix1 e) else 0 := by
  show x i + ∑ j ∈ Finset.univ.filter (fun j => (rowScatter N E wf).resultIdx? j idx = some i), upd j = _
  refine congrArg (x i + ·) ?_
  rw [Finset.sum_filter, sum_idx1]
  refine Finset.sum_congr rfl fun e _ => ?_
  exact if_congr (resultIdx_row_iff wf (ix1 e) idx i) rfl rfl

/-- The dimension numbers of `segment_sum` into a column `x : [N, 1]` at `idx : [E, 1]` with updates `[E, 1]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when its index word, read signed, is `i`. -/
theorem resultIdx_col_iff {N E w : Nat} (wf : ScatterDims.WF ⟨2, ![N, 1]⟩ ⟨2, ![E, 1]⟩ ⟨2, ![E, 1]⟩ [1] [0] [0] 1)
    (j : (⟨2, ![E, 1]⟩ : Shape).Idx) (idx : IVec ⟨2, ![E, 1]⟩ w) (i : (⟨2, ![N, 1]⟩ : Shape).Idx) :
    (colScatter N E wf).resultIdx? j idx = some i ↔ (idx (ix2 (j 0) (0 : Fin 1))).toInt = ((i 0).val : Int) := by
  have hst0 : (colScatter N E wf).start j idx 0 + ((colScatter N E wf).window j 0 : Int)
      = (idx (ix2 (j 0) (0 : Fin 1))).toInt := by
    have hw : (colScatter N E wf).window j 0 = 0 := by
      unfold ScatterDims.window
      rw [dif_neg (by simp [ScatterDims.sKept, Shape.kept])]
    have hs : (colScatter N E wf).start j idx 0 = (idx (ix2 (j 0) (0 : Fin 1))).toInt := by
      unfold ScatterDims.start
      rw [dif_pos (show (0 : Fin 2) ∈ (colScatter N E wf).scatterDimsToOperandDims from List.mem_singleton.mpr rfl)]
      have hsi : (colScatter N E wf).siIdx j ⟨List.idxOf (0 : Fin 2) (colScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  have hst1 : (colScatter N E wf).start j idx 1 + ((colScatter N E wf).window j 1 : Int) = 0 := by
    have hw : (colScatter N E wf).window j 1 = 0 := by
      unfold ScatterDims.window
      rw [dif_pos (by simp [ScatterDims.sKept, Shape.kept])]
      have := (j 1).isLt
      show (j 1).val = 0
      have h1 : (j 1).val < 1 := this
      omega
    have hs : (colScatter N E wf).start j idx 1 = 0 := by
      unfold ScatterDims.start
      rw [dif_neg (fun h => absurd (congrArg Fin.val (List.mem_singleton.mp h)) (by simp))]
    rw [hw, hs]; simp
  have hi1 : (i 1).val = 0 := by
    have h1 : (i 1).val < 1 := (i 1).isLt
    omega
  unfold ScatterDims.resultIdx?
  by_cases h : ∀ a, 0 ≤ (colScatter N E wf).start j idx a + ((colScatter N E wf).window j a : Int) ∧
      (colScatter N E wf).start j idx a + ((colScatter N E wf).window j a : Int) < ((⟨2, ![N, 1]⟩ : Shape).size a : Int)
  · rw [dif_pos h]
    constructor
    · intro e
      have e0 : ((colScatter N E wf).start j idx 0 + ((colScatter N E wf).window j 0 : Int)).toNat = (i 0).val :=
        congrArg (fun f : (⟨2, ![N, 1]⟩ : Shape).Idx => (f 0).val) (Option.some.inj e)
      have h0 := (h 0).1
      rw [hst0] at e0 h0
      omega
    · intro e
      refine congrArg some ?_
      funext a
      refine Fin.ext ?_
      match a with
      | ⟨0, _⟩ =>
        show ((colScatter N E wf).start j idx 0 + ((colScatter N E wf).window j 0 : Int)).toNat = (i 0).val
        rw [hst0, e]; simp
      | ⟨1, _⟩ =>
        show ((colScatter N E wf).start j idx 1 + ((colScatter N E wf).window j 1 : Int)).toNat = (i 1).val
        rw [hst1, hi1]; rfl
  · rw [dif_neg h]
    constructor
    · intro e; cases e
    · intro e
      exfalso; apply h
      intro a
      match a with
      | ⟨0, _⟩ =>
        show 0 ≤ (colScatter N E wf).start j idx 0 + ((colScatter N E wf).window j 0 : Int) ∧
          (colScatter N E wf).start j idx 0 + ((colScatter N E wf).window j 0 : Int) < ((⟨2, ![N, 1]⟩ : Shape).size 0 : Int)
        rw [hst0, e]
        exact ⟨by positivity, by exact_mod_cast (i 0).isLt⟩
      | ⟨1, _⟩ =>
        show 0 ≤ (colScatter N E wf).start j idx 1 + ((colScatter N E wf).window j 1 : Int) ∧
          (colScatter N E wf).start j idx 1 + ((colScatter N E wf).window j 1 : Int) < ((⟨2, ![N, 1]⟩ : Shape).size 1 : Int)
        rw [hst1]
        exact ⟨le_refl _, Int.natCast_pos.mpr Nat.one_pos⟩

/-- At the exact instance row `i` of the scattered column is the old row plus the sum of the update rows whose index
    word is `i`. -/
theorem scatterAdd_col_apply {N E w : Nat} (wf : ScatterDims.WF ⟨2, ![N, 1]⟩ ⟨2, ![E, 1]⟩ ⟨2, ![E, 1]⟩ [1] [0] [0] 1)
    (x : FVec Ideal ⟨2, ![N, 1]⟩ .f32) (idx : IVec ⟨2, ![E, 1]⟩ w) (upd : FVec Ideal ⟨2, ![E, 1]⟩ .f32)
    (i : (⟨2, ![N, 1]⟩ : Shape).Idx) :
    Host.scatterAdd (F := Ideal) (colScatter N E wf) x idx upd i
      = x i + ∑ e : Fin E, if (idx (ix2 e (0 : Fin 1))).toInt = ((i 0).val : Int) then upd (ix2 e (0 : Fin 1)) else 0 := by
  show x i + ∑ j ∈ Finset.univ.filter (fun j => (colScatter N E wf).resultIdx? j idx = some i), upd j = _
  refine congrArg (x i + ·) ?_
  rw [Finset.sum_filter, sum_idxCol]
  refine Finset.sum_congr rfl fun e _ => ?_
  exact if_congr (resultIdx_col_iff wf (ix2 e (0 : Fin 1)) idx i) rfl rfl

end Scatter

end Idealize.ShloMosaic.GatherScatterIdx

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibColForms.lean ====
/-
  A length-`n` vector made into a column [n, 1] in two ways — by a reshape, or by a broadcast that places the
  vector's axis on axis 0 of the column — is the same column: entry (r, 0) of either is the vector's entry r.
-/
import Idealize.ShloMosaic.Lib.Pipeline.Value
import Idealize.ShloMosaic.Lib.ValueIdx
import proofs.«142820_j71021579206869_2_alg».proof.Proof.LibKeepdims

noncomputable section

namespace Cert.LibColForms

open Idealize.ShloMosaic Idealize.ShloMosaic.ValueIdx

variable {α : Type} {n : ℕ}

/-- The column broadcast of a vector read at (r, 0) is the vector's entry r. -/
theorem broadcastInDim_col_apply (x : (⟨1, ![n]⟩ : Shape).Idx → α) (dims : Fin 1 → Fin 2) (hd : dims 0 = 0)
    (hb : (⟨1, ![n]⟩ : Shape).BroadcastsInDim ⟨2, ![n, 1]⟩ dims) (r : Fin n) :
    broadcastInDim ⟨2, ![n, 1]⟩ dims hb x (ix2 r (0 : Fin 1)) = x (ix1 r) :=
  broadcastInDim_apply dims hb x (ix2 r (0 : Fin 1)) (ix1 r) (fun a => by
    match a with
    | ⟨0, _⟩ =>
      show r.val = if n = 1 then 0 else ((ix2 r (0 : Fin 1)) (dims 0)).val
      rw [hd]
      show r.val = if n = 1 then 0 else r.val
      have := r.isLt
      split <;> omega)

/-- The reshape of a vector to a column is its column broadcast. -/
theorem shapeCast_col_eq_broadcastInDim (x : (⟨1, ![n]⟩ : Shape).Idx → α)
    (h : (⟨1, ![n]⟩ : Shape).ShapeCasts ⟨2, ![n, 1]⟩) (dims : Fin 1 → Fin 2) (hd : dims 0 = 0)
    (hb : (⟨1, ![n]⟩ : Shape).BroadcastsInDim ⟨2, ![n, 1]⟩ dims) :
    shapeCast ⟨2, ![n, 1]⟩ x h = broadcastInDim ⟨2, ![n, 1]⟩ dims hb x := by
  funext j
  obtain ⟨r, z, rfl⟩ : ∃ (r : Fin n) (z : Fin 1), j = ix2 r z := ⟨j 0, j 1, eq_ix2 j⟩
  obtain rfl : z = 0 := Subsingleton.elim _ _
  rw [Cert.LibKeepdims.shapeCast_col_apply, broadcastInDim_col_apply x dims hd hb r]

end Cert.LibColForms

end
-- ==== Proof.RefValue.lean ====
/-
  The reference program's two results as the encoder's whole-array functions of its arguments.

  The host spells one weighted message-passing layer as: gather the rows of the table at the source words, multiply
  each gathered row by its edge's weight (the weight vector made a column and then broadcast along the row), and
  scatter-add the products from the zero array at the destination words.  Read at (n, q) this is zero plus the sum
  over the edges into n of the table's entry (source, q) times the edge's weight: the function `conv`.  The edge
  weight is the product of two gathers of the node scale, at the source words and at the wrapped destination
  words: the function `edgeNorm`.  With the matrix products, the bias and the positive part read as the dense-layer
  functions, each result is `refOut` of the arguments.
-/
import proofs.«142820_j71021579206869_2_alg».proof.Proof.RefRun
import proofs.«142820_j71021579206869_2_alg».proof.Proof.Words
import proofs.«142820_j71021579206869_2_alg».proof.Proof.LibDenseLayers
import proofs.«142820_j71021579206869_2_alg».proof.Proof.LibGatherTable
import proofs.«142820_j71021579206869_2_alg».proof.Proof.LibScatterRows
import proofs.«142820_j71021579206869_2_alg».proof.Proof.LibGatherScatter
import proofs.«142820_j71021579206869_2_alg».proof.Proof.LibColForms
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.ValueP Cert.Words Cert.Gcn Cert.Layers
open Idealize.ShloMosaic Idealize.ShloMosaic.ValueIdx Idealize.SL.Sem
open Idealize.ShloMosaic.GatherTable Idealize.ShloMosaic.ScatterRows Idealize.ShloMosaic.GatherScatterIdx

/-! ## One layer over variables -/

/-- A vector made a column and the column broadcast along the rows, read at (e, q): the vector's entry e. -/
theorem colBroadcast_apply {α : Type} {E C : ℕ}
    (h1 : (⟨1, ![E]⟩ : Shape).BroadcastsInDim ⟨2, ![E, 1]⟩ ![0])
    (h2 : (⟨2, ![E, 1]⟩ : Shape).BroadcastsInDim ⟨2, ![E, C]⟩ ![0, 1])
    (nv : (⟨1, ![E]⟩ : Shape).Idx → α) (e : Fin E) (q : Fin C) :
    broadcastInDim ⟨2, ![E, C]⟩ ![0, 1] h2 (broadcastInDim ⟨2, ![E, 1]⟩ ![0] h1 nv) (ix2 e q) = nv (ix1 e) := by
  rw [broadcastInDim_apply _ h2 _ (ix2 e q) (ix2 e (0 : Fin 1)) (fun a => match a with
      | ⟨0, _⟩ => by
        show e.val = if E = 1 then 0 else e.val
        have := e.isLt
        split <;> omega
      | ⟨1, _⟩ => by
        show (0 : ℕ) = if (1 : ℕ) = 1 then 0 else q.val
        rw [if_pos rfl])]
  exact Cert.LibColForms.broadcastInDim_col_apply nv ![0] rfl h1 e

/-- The host's weighted message passing: the table's rows gathered at the source words, each multiplied by its
    edge's weight, scatter-added from zero at the destination words. -/
theorem hostConv_eq {N M C E : ℕ} (hN : 0 < N)
    (dg : GatherDims ⟨2, ![N, C]⟩ ⟨2, ![E, 1]⟩ ⟨2, ![E, C]⟩)
    (wfg : GatherDims.WF ⟨2, ![N, C]⟩ ⟨2, ![E, 1]⟩ ⟨2, ![E, C]⟩ [1] [0] [] [0] [] 1 ![1, C])
    (hdg : dg = rowsDims N C E wfg)
    (ds : ScatterDims ⟨2, ![M, C]⟩ ⟨2, ![E, 1]⟩ ⟨2, ![E, C]⟩)
    (wfs : ScatterDims.WF ⟨2, ![M, C]⟩ ⟨2, ![E, 1]⟩ ⟨2, ![E, C]⟩ [1] [0] [0] 1)
    (hds : ds = rowDims M C E wfs)
    (h0 : (⟨0, ![]⟩ : Shape).BroadcastsInDim ⟨2, ![M, C]⟩ ![])
    (h1 : (⟨1, ![E]⟩ : Shape).BroadcastsInDim ⟨2, ![E, 1]⟩ ![0])
    (h2 : (⟨2, ![E, 1]⟩ : Shape).BroadcastsInDim ⟨2, ![E, C]⟩ ![0, 1])
    (h : FVec Ideal ⟨2, ![N, C]⟩ .f32) (nv : FVec Ideal ⟨1, ![E]⟩ .f32) (ig is : IVec ⟨2, ![E, 1]⟩ 32) :
    Host.scatterAdd ds (broadcastInDim ⟨2, ![M, C]⟩ ![] h0 (constant (F := Ideal) ⟨0, ![]⟩ .f32 0x00000000#32)) is
        (mulf (Host.gather dg h ig)
          (broadcastInDim ⟨2, ![E, C]⟩ ![0, 1] h2 (broadcastInDim ⟨2, ![E, 1]⟩ ![0] h1 nv)))
      = conv (M := M) hN h (fun e => nv (ix1 e)) ig is := by
  subst hdg hds
  funext i
  obtain ⟨n, q, rfl⟩ : ∃ (n : Fin M) (q : Fin C), i = ix2 n q := ⟨i 0, i 1, eq_ix2 i⟩
  rw [scatterAdd_rows_apply wfs, zeroSplat_apply h0, conv_apply]
  refine congrArg (0 + ·) (Finset.sum_congr rfl fun e _ => ?_)
  rw [mulf_apply, gather_rows_apply hN wfg h ig e q, colBroadcast_apply h1 h2 nv e q]

/-- The host's edge weight: the node scale gathered at the source words times the node scale gathered at the
    wrapped destination words. -/
theorem hostEdgeNorm_eq {N E : ℕ} (hN : 0 < N)
    (d1 : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1])
    (hd : d1 = rowGather N E wf)
    (dv : FVec Ideal ⟨1, ![N]⟩ .f32) (ig idn : IVec ⟨2, ![E, 1]⟩ 32) :
    (fun e : Fin E => mulf (Host.gather d1 dv ig) (Host.gather d1 dv idn) (ix1 e)) = edgeNorm hN dv ig idn := by
  subst hd
  funext e
  rw [mulf_apply, gather_row_apply hN wf dv ig (ix1 e), gather_row_apply hN wf dv idn (ix1 e)]
  rfl

/-! ## The program's layers -/

/-- The edge weights as the host computes them, a vector over the edges: the node scale gathered at the source
    words times the node scale gathered at the wrapped destination words. -/
def edgeVec (a7 : IVec S2x640000 32) : FVec Ideal S740000 .f32 :=
  mulf (Host.gather gather_S100000_S740000x1_S740000_n_0_n_n_0_1_1 (nodeScale a7) (isrc a7))
    (Host.gather gather_S100000_S740000x1_S740000_n_0_n_n_0_1_1 (nodeScale a7) (idstWrapped a7))

/-- Entry by entry that vector is the edge weight. -/
theorem edgeVec_eq (a7 : IVec S2x640000 32) : (fun e : Fin 740000 => edgeVec a7 (ix1 e)) = edgeWeight a7 :=
  hostEdgeNorm_eq hN gather_S100000_S740000x1_S740000_n_0_n_n_0_1_1
    gather_S100000_S740000x1_S740000_n_0_n_n_0_1_1_wf rfl (nodeScale a7) (isrc a7) (idstWrapped a7)

/-- The host's two layers, over the index columns and the edge-weight vector named once, are `refOut`. -/
theorem out_eq (x : FVec Ideal S100000x256 .f32) (W1 : FVec Ideal S256x128 .f32) (b1 : FVec Ideal S128 .f32)
    (W : FVec Ideal S128x64 .f32) (b : FVec Ideal S64 .f32) (a7 : IVec S2x640000 32) :
    addf (Host.scatterAdd (F := Ideal) scatter_S100000x64_S740000x1_S740000x64_1_0_0_1
        (broadcastInDim S100000x64 ![] bcast_S_S100000x64 (constant (F := Ideal) S_ .f32 0x00000000#32))
        (idst a7)
        (mulf (Host.gather gather_S100000x64_S740000x1_S740000x64_1_0_n_n_0_1_164
            (Host.dotGeneral (F := Ideal) dot_S100000x128_S128x64_S100000x64_1_0_0_1_n_n none
              (maximumf (addf (Host.scatterAdd (F := Ideal) scatter_S100000x128_S740000x1_S740000x128_1_0_0_1
                  (broadcastInDim S100000x128 ![] bcast_S_S100000x128 (constant (F := Ideal) S_ .f32 0x00000000#32))
                  (idst a7)
                  (mulf (Host.gather gather_S100000x128_S740000x1_S740000x128_1_0_n_n_0_1_1128
                      (Host.dotGeneral (F := Ideal) dot_S100000x256_S256x128_S100000x128_1_0_0_1_n_n none x W1)
                      (isrc a7))
                    (broadcastInDim S740000x128 ![0, 1] bcast_S740000x1_S740000x128_0_1
                      (broadcastInDim S740000x1 ![0] bcast_S740000_S740000x1_0 (edgeVec a7)))))
                (broadcastInDim S100000x128 ![0, 1] bcast_S1x128_S100000x128_0_1
                  (broadcastInDim S1x128 ![1] bcast_S128_S1x128_1 b1)))
                (broadcastInDim S100000x128 ![] bcast_S_S100000x128 (constant (F := Ideal) S_ .f32 0x00000000#32)))
              W)
            (isrc a7))
          (broadcastInDim S740000x64 ![0, 1] bcast_S740000x1_S740000x64_0_1
            (broadcastInDim S740000x1 ![0] bcast_S740000_S740000x1_0 (edgeVec a7)))))
      (broadcastInDim S100000x64 ![0, 1] bcast_S1x64_S100000x64_0_1 (broadcastInDim S1x64 ![1] bcast_S64_S1x64_1 b))
    = refOut x W1 b1 W b a7 := by
  unfold refOut refHidden
  rw [hostDot_eq_mm dot_S100000x256_S256x128_S100000x128_1_0_0_1_n_n
      dot_S100000x256_S256x128_S100000x128_1_0_0_1_n_n_wf rfl none x W1,
    hostConv_eq hN gather_S100000x128_S740000x1_S740000x128_1_0_n_n_0_1_1128
      gather_S100000x128_S740000x1_S740000x128_1_0_n_n_0_1_1128_wf rfl
      scatter_S100000x128_S740000x1_S740000x128_1_0_0_1 scatter_S100000x128_S740000x1_S740000x128_1_0_0_1_wf rfl
      bcast_S_S100000x128 bcast_S740000_S740000x1_0 bcast_S740000x1_S740000x128_0_1
      (mm x W1) (edgeVec a7) (isrc a7) (idst a7),
    edgeVec_eq a7,
    hostBiasRelu_eq bcast_S128_S1x128_1 bcast_S1x128_S100000x128_0_1 bcast_S_S100000x128 _ b1,
    hostDot_eq_mm dot_S100000x128_S128x64_S100000x64_1_0_0_1_n_n
      dot_S100000x128_S128x64_S100000x64_1_0_0_1_n_n_wf rfl none _ W,
    hostConv_eq hN gather_S100000x64_S740000x1_S740000x64_1_0_n_n_0_1_164
      gather_S100000x64_S740000x1_S740000x64_1_0_n_n_0_1_164_wf rfl
      scatter_S100000x64_S740000x1_S740000x64_1_0_0_1 scatter_S100000x64_S740000x1_S740000x64_1_0_0_1_wf rfl
      bcast_S_S100000x64 bcast_S740000_S740000x1_0 bcast_S740000x1_S740000x64_0_1
      _ (edgeVec a7) (isrc a7) (idst a7),
    edgeVec_eq a7,
    hostAddBias_eq bcast_S64_S1x64_1 bcast_S1x64_S100000x64_0_1 _ b]

/-! ## The two results -/

/-- The first result is `refOut` of the features, the first layer's weights and bias, the first head's weights and
    bias, and the edge list. -/
theorem res_out0_eq (m : (ℓ : Loc nD τ sig) → Buf (Elt Ideal) ℓ) (c : Dev nD) :
    res_out0 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg7)) := by
  show res_main_v64 (F := Ideal) m c = _
  unfold res_main_v64
  exact out_eq (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg7))

/-- The second result is `refOut` with the second head's weights and bias. -/
theorem res_out1_eq (m : (ℓ : Loc nD τ sig) → Buf (Elt Ideal) ℓ) (c : Dev nD) :
    res_out1 (F := Ideal) m c
      = refOut (m ((c.tc : Thread nD τ).loc main_arg0)) (m ((c.tc : Thread nD τ).loc main_arg1))
          (m ((c.tc : Thread nD τ).loc main_arg2)) (m ((c.tc : Thread nD τ).loc main_arg5))
          (m ((c.tc : Thread nD τ).loc main_arg6)) (m ((c.tc : Thread nD τ).loc main_arg7)) := by
  show res_main_v81 (F := Ideal) m c = _
  unfold res_main_v81
  exact out_eq (m ((c.tc : Thread nD τ).loc main_arg0)) (m ((c.tc : Thread nD τ).loc main_arg1))
    (m ((c.tc : Thread nD τ).loc main_arg2)) (m ((c.tc : Thread nD τ).loc main_arg5))
    (m ((c.tc : Thread nD τ).loc main_arg6)) (m ((c.tc : Thread nD τ).loc main_arg7))

end Cert.ReferenceIdeal.RefValue

end
-- ==== Proof.KernelRun.lean ====
/-
  The idealized kernel program's run with its two results named.  Every weakly fair execution of @main ends, nothing
  faulting, with each unscoped buffer at the contents the fold through @main's segments leaves (`Gen.W9`: host
  operations applied in order, each region's arrays at what its write-backs leave); read at the two result buffers and
  at the arguments this is the statement below.  What those contents ARE, as functions of the arguments, is the next
  module's business.
-/
import proofs.«142820_j71021579206869_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the two results end at the final contents of their buffers, the arguments as launched. -/
theorem run_results : θ_run defs (onTc (τ := τ) (main (F := F))) ⟨m, fun _ => 0, ρ⟩ (fun r => ∀ c : Dev nD,
      r.2.mem ((c.tc : Thread nD τ).loc main_v43) = W9 m ρ c (Proc.devRef .tc main_v43)
      ∧ r.2.mem ((c.tc : Thread nD τ).loc main_v44) = W9 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v43 (by decide)),
       h c _ (mem_uc main_v44 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.FoldEntry.lean ====
/-
  The idealized kernel program's buffers at the entry and at the exit of its first region, as functions of the arguments.

  Before the first region the host computes, from the edge list alone, the two word arrays (sources and destinations, each
  followed by the node numbers), the in-degree, and the node scale (the reciprocal square root of a positive in-degree, 0
  elsewhere), which it reshapes to a column.  None of these buffers, and no argument, is written again.  The first region
  leaves in its result array the product x·W1 with every row scaled by the node scale (its value is taken here as a
  hypothesis `h0`, proved in another module) and leaves every other buffer as it found it.
-/
import proofs.«142820_j71021579206869_2_alg».proof.Proof.Gen.KernelIdeal.Frame
import proofs.«142820_j71021579206869_2_alg».proof.Proof.Spec
import proofs.«142820_j71021579206869_2_alg».proof.Proof.Words
import Idealize.ShloMosaic.Lib.StableHlo.Run

set_option maxRecDepth 16384

noncomputable section

namespace Cert.KernelIdeal.FoldEntry

open Cert.KernelIdeal Cert.KernelIdeal.Gen
open Idealize.ShloMosaic Idealize.ShloMosaic.TcCoe Idealize.ShloMosaic.StableHlo Idealize.SL.Sem
open Cert.Gcn Cert.Words

variable (m : (ℓ : Loc nD τ sig) → Buf (Elt Ideal) ℓ) (ρ : Dev nD → PrngReg) (c : Dev nD)

/-- The edge list as launched. -/
abbrev edges : IVec S2x640000 32 := m ((c.tc : Thread nD τ).loc main_arg7)

/-- The node scale as a column. -/
def dcol : FVec Ideal S100000x1 .f32 := shapeCast S100000x1 (nodeScale (edges m c)) shapeCasts_S100000_S100000x1

/-! ## After the first stretch of host operations -/

set_option maxHeartbeats 4000000 in
/-- Where the in-degree is positive. -/
theorem W1_v12 : W1 m ρ c (Proc.devRef .tc main_v12)
    = cmpf (F := Ideal) .ogt (degree (edges m c)) (broadcastInDim S100000 ![] bcast_S_S100000 (constant (F := Ideal) S_ .f32 0x00000000#32)) := by
  dsimp only [W1, hostOps0]
  after_results
  rfl

set_option maxHeartbeats 4000000 in
/-- The reciprocal square root of the in-degree. -/
theorem W1_v13 : W1 m ρ c (Proc.devRef .tc main_v13) = Host.rsqrt (F := Ideal) (degree (edges m c)) := by
  dsimp only [W1, hostOps0]
  after_results
  rfl

set_option maxHeartbeats 4000000 in
/-- The zero the node scale takes where the in-degree is not positive. -/
theorem W1_cst2 : W1 m ρ c (Proc.devRef .tc main_cst_2) = constant (F := Ideal) S_ .f32 0x00000000#32 := by
  dsimp only [W1, hostOps0]
  after_results

/-! ## The selection, over any contents -/

set_option maxHeartbeats 4000000 in
/-- The three operations of the selection leave in its result buffer the first operand where the condition holds and
    the splat of the scalar elsewhere, whatever the contents before them. -/
theorem where_stretch (Vv : Valuation τ sig (Elt Ideal)) :
    StableHlo.after (hostOps0_1 (F := Ideal)) Vv (Proc.devRef .tc main_v14)
      = select (Vv (Proc.devRef .tc main_v12)) (Vv (Proc.devRef .tc main_v13))
          (broadcastInDim S100000 ![] bcast_S_S100000 (id (Vv (Proc.devRef .tc main_cst_2)))) := by
  dsimp only [hostOps0_1]
  after_results
  rfl

/-- The same with the three operands named. -/
theorem where_stretch_of (Vv : Valuation τ sig (Elt Ideal)) (p : IVec S100000 1) (a : FVec Ideal S100000 .f32)
    (z : FVec Ideal S_ .f32) (hp : Vv (Proc.devRef .tc main_v12) = p) (ha : Vv (Proc.devRef .tc main_v13) = a)
    (hz : Vv (Proc.devRef .tc main_cst_2) = z) :
    StableHlo.after (hostOps0_1 (F := Ideal)) Vv (Proc.devRef .tc main_v14)
      = select p a (broadcastInDim S100000 ![] bcast_S_S100000 (id z)) := by
  subst hp ha hz
  exact where_stretch Vv

/-- The node scale. -/
theorem W2_v14 : W2 m ρ c (Proc.devRef .tc main_v14) = nodeScale (edges m c) :=
  where_stretch_of (W1 m ρ c) _ _ _ (W1_v12 m ρ c) (W1_v13 m ρ c) (W1_cst2 m ρ c)

/-! ## At the first region's entry -/

/-- The reshape to a column, over any contents. -/
theorem column_stretch (Vv : Valuation τ sig (Elt Ideal)) :
    StableHlo.after (hostOps0_2 (F := Ideal)) Vv (Proc.devRef .tc main_v15)
      = shapeCast S100000x1 (Vv (Proc.devRef .tc main_v14)) shapeCasts_S100000_S100000x1 := by
  dsimp only [hostOps0_2]
  after_results
  rfl

/-- The node scale as a column. -/
theorem W3_v15 : W3 m ρ c (Proc.devRef .tc main_v15) = dcol m c :=
  (column_stretch (W2 m ρ c)).trans
    (congrArg (fun v => shapeCast S100000x1 v shapeCasts_S100000_S100000x1) (W2_v14 m ρ c))

set_option maxHeartbeats 4000000 in
/-- The source words. -/
theorem W3_v3 : W3 m ρ c (Proc.devRef .tc main_v3) = srcWords (edges m c) := by
  dsimp only [W3, W2, W1, hostOps0, hostOps0_1, hostOps0_2]
  after_results
  rfl

set_option maxHeartbeats 4000000 in
/-- The destination words. -/
theorem W3_v6 : W3 m ρ c (Proc.devRef .tc main_v6) = dstWords (edges m c) := by
  dsimp only [W3, W2, W1, hostOps0, hostOps0_1, hostOps0_2]
  after_results
  rfl

set_option maxHeartbeats 4000000 in
/-- Argument 0 is as launched. -/
theorem W3_arg0 : W3 m ρ c (Proc.devRef .tc main_arg0) = m ((c.tc : Thread nD τ).loc main_arg0) := by
  dsimp only [W3, W2, W1, hostOps0, hostOps0_1, hostOps0_2]
  after_results

set_option maxHeartbeats 4000000 in
/-- Argument 1 is as launched. -/
theorem W3_arg1 : W3 m ρ c (Proc.devRef .tc main_arg1) = m ((c.tc : Thread nD τ).loc main_arg1) := by
  dsimp only [W3, W2, W1, hostOps0, hostOps0_1, hostOps0_2]
  after_results

set_option maxHeartbeats 4000000 in
/-- Argument 2 is as launched. -/
theorem W3_arg2 : W3 m ρ c (Proc.devRef .tc main_arg2) = m ((c.tc : Thread nD τ).loc main_arg2) := by
  dsimp only [W3, W2, W1, hostOps0, hostOps0_1, hostOps0_2]
  after_results

set_option maxHeartbeats 4000000 in
/-- Argument 3 is as launched. -/
theorem W3_arg3 : W3 m ρ c (Proc.devRef .tc main_arg3) = m ((c.tc : Thread nD τ).loc main_arg3) := by
  dsimp only [W3, W2, W1, hostOps0, hostOps0_1, hostOps0_2]
  after_results

set_option maxHeartbeats 4000000 in
/-- Argument 4 is as launched. -/
theorem W3_arg4 : W3 m ρ c (Proc.devRef .tc main_arg4) = m ((c.tc : Thread nD τ).loc main_arg4) := by
  dsimp only [W3, W2, W1, hostOps0, hostOps0_1, hostOps0_2]
  after_results

set_option maxHeartbeats 4000000 in
/-- Argument 5 is as launched. -/
theorem W3_arg5 : W3 m ρ c (Proc.devRef .tc main_arg5) = m ((c.tc : Thread nD τ).loc main_arg5) := by
  dsimp only [W3, W2, W1, hostOps0, hostOps0_1, hostOps0_2]
  after_results

set_option maxHeartbeats 4000000 in
/-- Argument 6 is as launched. -/
theorem W3_arg6 : W3 m ρ c (Proc.devRef .tc main_arg6) = m ((c.tc : Thread nD τ).loc main_arg6) := by
  dsimp only [W3, W2, W1, hostOps0, hostOps0_1, hostOps0_2]
  after_results

/-! ## At the first region's exit

The region's value is taken as the hypothesis `h0`: its result array is the product of its first two input arrays with
every row scaled by the third. -/

/-- The node scale as a column is an input of the region: unchanged. -/
theorem W4_v15 : W4 m ρ c (Proc.devRef .tc main_v15) = dcol m c :=
  (W4_arr m ρ c 2).trans ((((dat0 (V3 m ρ) c).arrAt_in 2 rfl _).trans (A_eq0 (V3 m ρ) c 2)).trans (W3_v15 m ρ c))

/-- The source words: no window of the region. -/
theorem W4_v3 : W4 m ρ c (Proc.devRef .tc main_v3) = srcWords (edges m c) :=
  (W4_of_ne m ρ c main_v3 (by decide)).trans (W3_v3 m ρ c)

/-- The destination words: no window of the region. -/
theorem W4_v6 : W4 m ρ c (Proc.devRef .tc main_v6) = dstWords (edges m c) :=
  (W4_of_ne m ρ c main_v6 (by decide)).trans (W3_v6 m ρ c)

/-- Argument 2: no window of the region. -/
theorem W4_arg2 : W4 m ρ c (Proc.devRef .tc main_arg2) = m ((c.tc : Thread nD τ).loc main_arg2) :=
  (W4_of_ne m ρ c main_arg2 (by decide)).trans (W3_arg2 m ρ c)

/-- Argument 3: no window of the region. -/
theorem W4_arg3 : W4 m ρ c (Proc.devRef .tc main_arg3) = m ((c.tc : Thread nD τ).loc main_arg3) :=
  (W4_of_ne m ρ c main_arg3 (by decide)).trans (W3_arg3 m ρ c)

/-- Argument 4: no window of the region. -/
theorem W4_arg4 : W4 m ρ c (Proc.devRef .tc main_arg4) = m ((c.tc : Thread nD τ).loc main_arg4) :=
  (W4_of_ne m ρ c main_arg4 (by decide)).trans (W3_arg4 m ρ c)

/-- Argument 5: no window of the region. -/
theorem W4_arg5 : W4 m ρ c (Proc.devRef .tc main_arg5) = m ((c.tc : Thread nD τ).loc main_arg5) :=
  (W4_of_ne m ρ c main_arg5 (by decide)).trans (W3_arg5 m ρ c)

/-- Argument 6: no window of the region. -/
theorem W4_arg6 : W4 m ρ c (Proc.devRef .tc main_arg6) = m ((c.tc : Thread nD τ).loc main_arg6) :=
  (W4_of_ne m ρ c main_arg6 (by decide)).trans (W3_arg6 m ρ c)

/-- The region's result: x·W1 with every row scaled by the node scale. -/
theorem W4_v16
    (h0 : ∀ (V : (c : Dev nD) → (b : Ref sig .tc) → Buf (Elt Ideal) ((c : Thread nD τ).loc b)) (c : Dev nD),
      (dat0 (F := Ideal) V c).arrAt 3 cfg0.N
        = scaledProduct (V c main_arg0 : S100000x256.Idx → EReal) (V c main_arg1 : S256x128.Idx → EReal)
            (V c main_v15 : S100000x1.Idx → EReal)) :
    W4 m ρ c (Proc.devRef .tc main_v16)
      = scaledProduct (m ((c.tc : Thread nD τ).loc main_arg0) : S100000x256.Idx → EReal)
          (m ((c.tc : Thread nD τ).loc main_arg1) : S256x128.Idx → EReal) (dcol m c) := by
  refine (W4_arr m ρ c 3).trans ((h0 (V3 m ρ) c).trans ?_)
  have e0 : (V3 m ρ c main_arg0 : S100000x256.Idx → EReal) = m ((c.tc : Thread nD τ).loc main_arg0) := W3_arg0 m ρ c
  have e1 : (V3 m ρ c main_arg1 : S256x128.Idx → EReal) = m ((c.tc : Thread nD τ).loc main_arg1) := W3_arg1 m ρ c
  have e2 : (V3 m ρ c main_v15 : S100000x1.Idx → EReal) = dcol m c := W3_v15 m ρ c
  rw [e0, e1, e2]

end Cert.KernelIdeal.FoldEntry

end
-- ==== Proof.LibSegmentSpec.lean ====
/-
  The two layers of the message-passing step as functions of whole arrays over the extended reals, with arbitrary
  extents; nothing here depends on a program.

  * `segSum hN x ig is` is a segment sum of gathered rows: row `n` of the result is the sum, over the edges `e` whose
    destination word `is[e]` read as a signed integer is `n`, of the row of the table `x` that the source word `ig[e]`
    names (read signed and clamped into the table), added to zero.  An edge whose destination is negative or past the
    end contributes nowhere.
  * `fusedRow x w s wr b` is the second dense layer with its last input column kept apart: entry (r, q) is the positive
    part of (sum over j of x (r, j) · w (j, q)) + s (r, 0) · wr (0, q) + b (0, q).
-/
import Idealize.ShloMosaic.PureOps.Ideal
import Idealize.ShloMosaic.Lib.ValueIdx
import proofs.«142820_j71021579206869_2_alg».proof.Proof.LibGatherTable
import proofs.«142820_j71021579206869_2_alg».proof.Proof.LibDenseLayers

noncomputable section

open scoped BigOperators

namespace Cert.Spec

open Idealize.ShloMosaic Idealize.ShloMosaic.ValueIdx Idealize.ShloMosaic.GatherTable

/-- The segment sum of gathered rows, from zero. -/
def segSum {N M C E : ℕ} (hN : 0 < N) (x : FVec Ideal ⟨2, ![N, C]⟩ .f32) (ig is : IVec ⟨2, ![E, 1]⟩ 32) :
    FVec Ideal ⟨2, ![M, C]⟩ .f32 :=
  fun i => 0 + ∑ e ∈ Finset.univ.filter (fun e : Fin E => (is (ix2 e (0 : Fin 1))).toInt = ((i 0).val : ℤ)),
    x (ix2 (clampIdx N hN (ig (ix2 e (0 : Fin 1)))) (i 1))

theorem segSum_apply {N M C E : ℕ} (hN : 0 < N) (x : FVec Ideal ⟨2, ![N, C]⟩ .f32) (ig is : IVec ⟨2, ![E, 1]⟩ 32)
    (n : Fin M) (q : Fin C) :
    segSum (M := M) hN x ig is (ix2 n q) =
      0 + ∑ e ∈ Finset.univ.filter (fun e : Fin E => (is (ix2 e (0 : Fin 1))).toInt = (n.val : ℤ)),
        x (ix2 (clampIdx N hN (ig (ix2 e (0 : Fin 1)))) q) := rfl

/-- The second dense layer with the last input column kept apart. -/
def fusedRow {n k c : ℕ} (x : FVec Ideal ⟨2, ![n, k]⟩ .f32) (w : FVec Ideal ⟨2, ![k, c]⟩ .f32)
    (s : FVec Ideal ⟨2, ![n, 1]⟩ .f32) (wr b : FVec Ideal ⟨2, ![1, c]⟩ .f32) : FVec Ideal ⟨2, ![n, c]⟩ .f32 :=
  fun i => max ((Cert.Layers.mm x w i + s (ix2 (i 0) (0 : Fin 1)) * wr (ix2 (0 : Fin 1) (i 1))) + b (ix2 (0 : Fin 1) (i 1))) 0

theorem fusedRow_apply {n k c : ℕ} (x : FVec Ideal ⟨2, ![n, k]⟩ .f32) (w : FVec Ideal ⟨2, ![k, c]⟩ .f32)
    (s : FVec Ideal ⟨2, ![n, 1]⟩ .f32) (wr b : FVec Ideal ⟨2, ![1, c]⟩ .f32) (r : Fin n) (q : Fin c) :
    fusedRow x w s wr b (ix2 r q) =
      max (((∑ j : Fin k, x (ix2 r j) * w (ix2 j q)) + s (ix2 r (0 : Fin 1)) * wr (ix2 (0 : Fin 1) q)) + b (ix2 (0 : Fin 1) q)) 0 := rfl

end Cert.Spec

end
-- ==== Proof.LibSegmentSum.lean ====
/-
  Segment sums of gathered rows on the host, and the one law that joins the two programs, over the extended reals with
  arbitrary extents; nothing here depends on a program.

  * A row gather followed by a row scatter-add into the zero array is the segment sum `Cert.Spec.segSum`
    (`host_segSum`): entry (n, q) is zero plus the sum over the edges whose destination is n of the table's entry in
    the source row and column q.
  * A segment sum works column by column: if column q of one table is column q' of another, so are the segment sums'
    (`segSum_congr_col`).  So the segment sum of a table with one more column appended is, on the old columns, the
    old table's segment sum, and on the new column, the appended column's.
  * A matrix product over K + 1 inner coordinates is the product over the first K plus the last coordinate's term
    (a finite sum split off its last term: only the associativity of addition is used, which holds on the extended
    reals without any finiteness).  Hence the dense layer applied to the widened segment sum with the whole weight
    matrix is the dense layer applied to the two segment sums apart, with the weight matrix's first K rows and its
    last row (`bridge`).
-/
import Idealize.ShloMosaic.PureOps.Ideal
import Idealize.ShloMosaic.PureOps.Ideal.Laws
import Idealize.ShloMosaic.Lib.ValueIdx
import Idealize.ShloMosaic.Lib.Pipeline.Value
import proofs.«142820_j71021579206869_2_alg».proof.Proof.LibGatherTable
import proofs.«142820_j71021579206869_2_alg».proof.Proof.LibScatterRows
import proofs.«142820_j71021579206869_2_alg».proof.Proof.LibDenseLayers
import proofs.«142820_j71021579206869_2_alg».proof.Proof.LibSegmentSpec

noncomputable section

open scoped BigOperators

namespace Cert.Segments

open Idealize.ShloMosaic Idealize.ShloMosaic.ValueIdx Idealize.ShloMosaic.GatherTable Idealize.ShloMosaic.ScatterRows
open Cert.Spec Cert.Layers

/-- A row gather scattered-and-added into the zero array is the segment sum of the gathered rows. -/
theorem host_segSum {N M C E : ℕ} (hN : 0 < N)
    (dg : GatherDims ⟨2, ![N, C]⟩ ⟨2, ![E, 1]⟩ ⟨2, ![E, C]⟩)
    (wfg : GatherDims.WF ⟨2, ![N, C]⟩ ⟨2, ![E, 1]⟩ ⟨2, ![E, C]⟩ [1] [0] [] [0] [] 1 ![1, C])
    (hdg : dg = rowsDims N C E wfg)
    (ds : ScatterDims ⟨2, ![M, C]⟩ ⟨2, ![E, 1]⟩ ⟨2, ![E, C]⟩)
    (wfs : ScatterDims.WF ⟨2, ![M, C]⟩ ⟨2, ![E, 1]⟩ ⟨2, ![E, C]⟩ [1] [0] [0] 1)
    (hds : ds = rowDims M C E wfs)
    (h0 : (⟨0, ![]⟩ : Shape).BroadcastsInDim ⟨2, ![M, C]⟩ ![])
    (x : FVec Ideal ⟨2, ![N, C]⟩ .f32) (ig is : IVec ⟨2, ![E, 1]⟩ 32) :
    Host.scatterAdd ds (broadcastInDim ⟨2, ![M, C]⟩ ![] h0 (constant (F := Ideal) ⟨0, ![]⟩ .f32 0x00000000#32)) is
        (Host.gather dg x ig)
      = segSum hN x ig is := by
  subst hdg hds
  funext i
  obtain ⟨n, q, rfl⟩ : ∃ (n : Fin M) (q : Fin C), i = ix2 n q := ⟨i 0, i 1, eq_ix2 i⟩
  rw [scatterAdd_rows_apply wfs, zeroSplat_apply h0, segSum_apply]
  refine congrArg (0 + ·) (Finset.sum_congr rfl fun e _ => ?_)
  exact gather_rows_apply hN wfg x ig e q

/-- Segment sums work column by column. -/
theorem segSum_congr_col {N M C C' E : ℕ} (hN : 0 < N) (x : FVec Ideal ⟨2, ![N, C]⟩ .f32)
    (x' : FVec Ideal ⟨2, ![N, C']⟩ .f32) (ig is : IVec ⟨2, ![E, 1]⟩ 32) (q : Fin C) (q' : Fin C')
    (h : ∀ r : Fin N, x (ix2 r q) = x' (ix2 r q')) (n : Fin M) :
    segSum (M := M) hN x ig is (ix2 n q) = segSum (M := M) hN x' ig is (ix2 n q') := by
  rw [segSum_apply, segSum_apply]
  exact congrArg (0 + ·) (Finset.sum_congr rfl fun e _ => h _)

/-- The dense layer over K + 1 input columns, applied to a segment sum whose table is a K-column table with one
    column appended, is the layer with the appended column's term kept apart. -/
theorem bridge {N M K C E : ℕ} (hN : 0 < N)
    (x : FVec Ideal ⟨2, ![N, K]⟩ .f32) (y : FVec Ideal ⟨2, ![N, 1]⟩ .f32) (t : FVec Ideal ⟨2, ![N, K + 1]⟩ .f32)
    (ht_l : ∀ (r : Fin N) (j : Fin K), t (ix2 r j.castSucc) = x (ix2 r j))
    (ht_r : ∀ r : Fin N, t (ix2 r (Fin.last K)) = y (ix2 r (0 : Fin 1)))
    (Wf : FVec Ideal ⟨2, ![K + 1, C]⟩ .f32) (Wm : FVec Ideal ⟨2, ![K, C]⟩ .f32) (wr : FVec Ideal ⟨2, ![1, C]⟩ .f32)
    (hWm : ∀ (j : Fin K) (q : Fin C), Wm (ix2 j q) = Wf (ix2 j.castSucc q))
    (hwr : ∀ q : Fin C, wr (ix2 (0 : Fin 1) q) = Wf (ix2 (Fin.last K) q))
    (b : FVec Ideal ⟨1, ![C]⟩ .f32) (brow : FVec Ideal ⟨2, ![1, C]⟩ .f32)
    (hb : ∀ q : Fin C, brow (ix2 (0 : Fin 1) q) = b (ix1 q))
    (ig is : IVec ⟨2, ![E, 1]⟩ 32) :
    biasRelu (mm (segSum (M := M) hN t ig is) Wf) b
      = fusedRow (segSum (M := M) hN x ig is) Wm (segSum (M := M) hN y ig is) wr brow := by
  funext i
  obtain ⟨r, q, rfl⟩ : ∃ (r : Fin M) (q : Fin C), i = ix2 r q := ⟨i 0, i 1, eq_ix2 i⟩
  rw [fusedRow_apply]
  show max (mm (segSum (M := M) hN t ig is) Wf (ix2 r q) + b (ix1 q)) 0 = _
  rw [mm_apply, Fin.sum_univ_castSucc, hb q, hwr q,
    segSum_congr_col hN t y ig is (Fin.last K) (0 : Fin 1) ht_r r]
  refine congrArg (fun z => max ((z + _) + _) 0) (Finset.sum_congr rfl fun j _ => ?_)
  rw [hWm j q, segSum_congr_col hN t x ig is j.castSucc j (fun r' => ht_l r' j) r]

end Cert.Segments

end
-- ==== Proof.FoldTail.lean ====
/-
  The program from the first region's exit to its return, with the first region's exit contents as variables.

  After the first region the program runs: a host stretch (the first message-passing sum: the rows of the first
  region's result gathered at the edges' wrapped source words and summed into the edges' destinations, from zero; the
  first bias reshaped to a row), the second region (rows scaled, bias row added, positive part, rows scaled), a
  second host stretch (the second message-passing sum, of the second region's result; the two output weight matrices
  side by side and the two output biases end to end, as a row), the last region (a dense layer of the row-scaled
  rows), and the two column halves of its result, which are the program's results. Each lemma below gives one buffer
  at one boundary as a function of the buffers at the boundary before; a buffer no operation writes and no region
  has as an output is carried unchanged.
-/
import proofs.«142820_j71021579206869_2_alg».proof.Proof.Gen.KernelIdeal.Frame
import proofs.«142820_j71021579206869_2_alg».proof.Proof.Spec
import proofs.«142820_j71021579206869_2_alg».proof.Proof.Words
import proofs.«142820_j71021579206869_2_alg».proof.Proof.LibSegmentSum
import Idealize.ShloMosaic.Lib.StableHlo.Run
import Idealize.ShloMosaic.Lib.ValueIdx

set_option maxRecDepth 16384

noncomputable section

namespace Cert.KernelIdeal.FoldTail

open Cert.KernelIdeal Cert.KernelIdeal.Gen Idealize.ShloMosaic Idealize.ShloMosaic.TcCoe Idealize.ShloMosaic.StableHlo Idealize.SL.Sem Cert.Gcn Cert.Spec Cert.Words

variable (m : (ℓ : Loc nD τ sig) → Buf (Elt Ideal) ℓ) (ρ : Dev nD → PrngReg) (c : Dev nD)

/-! ## The host stretch between the first two regions -/

/-- A buffer that no operation of the host stretch between the first two regions writes keeps its contents. -/
theorem stretch1_keeps (V : Valuation τ sig (Elt Ideal)) (b : Ref sig .tc)
    (hb : b ∉ [main_c, main_v17, main_v18, main_c_3, main_v19, main_v20, main_v21, main_v22, main_v23, main_cst_4,
      main_v24, main_v25, main_v26, main_v27]) :
    StableHlo.after (hostOps1 (F := Ideal)) V (Proc.devRef .tc b) = V (Proc.devRef .tc b) :=
  StableHlo.after_of_writes_sub hostOps1 V (by
    simp only [hostOps1, List.Forall, nullary_writes, unary_writes, binary_writes, ternary_writes, reshape_writes,
      Finset.singleton_subset_iff, List.mem_toFinset, List.map_cons, List.map_nil, List.mem_cons, true_or, or_true,
      and_self]) hb

set_option maxHeartbeats 4000000 in
/-- At the second region's entry, the first message-passing sum: the segment sum, over the edges into each node, of
    the rows of region 0's result at the edges' (wrapped) sources. -/
theorem entry1_messages (hs : FVec Ideal S100000x128 .f32) (sw dw : IVec S740000 32)
    (e16 : W4 m ρ c (Proc.devRef .tc main_v16) = hs) (e3 : W4 m ρ c (Proc.devRef .tc main_v3) = sw)
    (e6 : W4 m ρ c (Proc.devRef .tc main_v6) = dw) :
    W5 m ρ c (Proc.devRef .tc main_v26) = segSum (M := 100000) hN hs (col (wrapNeg sw)) (col dw) := by
  dsimp only [W5, hostOps1]
  after_results
  rw [e16, e3, e6]
  exact Cert.Segments.host_segSum hN _ gather_S100000x128_S740000x1_S740000x128_1_0_n_n_0_1_1128_wf rfl _
    scatter_S100000x128_S740000x1_S740000x128_1_0_0_1_wf rfl _ hs _ _

set_option maxHeartbeats 4000000 in
/-- At the second region's entry, the first bias as a row. -/
theorem entry1_bias (b1 : FVec Ideal S128 .f32) (ea2 : W4 m ρ c (Proc.devRef .tc main_arg2) = b1) :
    W5 m ρ c (Proc.devRef .tc main_v27) = shapeCast S1x128 b1 shapeCasts_S128_S1x128 := by
  dsimp only [W5, hostOps1]
  after_results
  rw [ea2]
  rfl

/-! ## The second region -/

/-- At the second region's exit its result: rows scaled, the bias row added, the positive part, rows scaled again. -/
theorem exit1_hidden
    (h1 : ∀ (V : (c : Dev nD) → (b : Ref sig .tc) → Buf (Elt Ideal) ((c : Thread nD τ).loc b)) (c : Dev nD),
      (dat1 (F := Ideal) V c).arrAt 3 cfg1.N = scaledRelu (V c main_v26 : S100000x128.Idx → EReal)
        (V c main_v15 : S100000x1.Idx → EReal) (V c main_v27 : S1x128.Idx → EReal))
    (a : FVec Ideal S100000x128 .f32) (d : FVec Ideal S100000x1 .f32) (brow : FVec Ideal S1x128 .f32)
    (e26 : W5 m ρ c (Proc.devRef .tc main_v26) = a) (e15 : W5 m ρ c (Proc.devRef .tc main_v15) = d)
    (e27 : W5 m ρ c (Proc.devRef .tc main_v27) = brow) :
    W6 m ρ c (Proc.devRef .tc main_v28) = scaledRelu a d brow := by
  refine ((W6_arr m ρ c 3).trans (h1 (V5 m ρ) c)).trans ?_
  show scaledRelu (W5 m ρ c (Proc.devRef .tc main_v26) : S100000x128.Idx → EReal)
    (W5 m ρ c (Proc.devRef .tc main_v15) : S100000x1.Idx → EReal)
    (W5 m ρ c (Proc.devRef .tc main_v27) : S1x128.Idx → EReal) = _
  rw [e26, e15, e27]

/-- The scale column, an input of the second region, is as it was at the region's exit. -/
theorem exit1_scale (d : FVec Ideal S100000x1 .f32) (e15 : W5 m ρ c (Proc.devRef .tc main_v15) = d) :
    W6 m ρ c (Proc.devRef .tc main_v15) = d :=
  ((W6_arr m ρ c 1).trans (((dat1 (V5 m ρ) c).arrAt_in 1 rfl _).trans (A_eq1 (V5 m ρ) c 1))).trans e15

/-! ## The host stretch between the last two regions -/

/-- A buffer that no operation of the host stretch between the last two regions writes keeps its contents. -/
theorem stretch2_keeps (V : Valuation τ sig (Elt Ideal)) (b : Ref sig .tc)
    (hb : b ∉ [main_c_5, main_v29, main_v30, main_c_6, main_v31, main_v32, main_v33, main_v34, main_v35, main_cst_7,
      main_v36, main_v37, main_v38, main_v39, main_v40, main_v41]) :
    StableHlo.after (hostOps2 (F := Ideal)) V (Proc.devRef .tc b) = V (Proc.devRef .tc b) :=
  StableHlo.after_of_writes_sub hostOps2 V (by
    simp only [hostOps2, List.Forall, nullary_writes, unary_writes, binary_writes, ternary_writes, reshape_writes,
      Finset.singleton_subset_iff, List.mem_toFinset, List.map_cons, List.map_nil, List.mem_cons, true_or, or_true,
      and_self]) hb

set_option maxHeartbeats 4000000 in
/-- At the last region's entry, the second message-passing sum: the segment sum of the rows of the second region's
    result. -/
theorem entry2_messages (hid : FVec Ideal S100000x128 .f32) (sw dw : IVec S740000 32)
    (e28 : W6 m ρ c (Proc.devRef .tc main_v28) = hid) (e3 : W6 m ρ c (Proc.devRef .tc main_v3) = sw)
    (e6 : W6 m ρ c (Proc.devRef .tc main_v6) = dw) :
    W7 m ρ c (Proc.devRef .tc main_v38) = segSum (M := 100000) hN hid (col (wrapNeg sw)) (col dw) := by
  dsimp only [W7, hostOps2]
  after_results
  rw [e28, e3, e6]
  exact Cert.Segments.host_segSum hN _ gather_S100000x128_S740000x1_S740000x128_1_0_n_n_0_1_1128_wf rfl _
    scatter_S100000x128_S740000x1_S740000x128_1_0_0_1_wf rfl _ hid _ _

set_option maxHeartbeats 4000000 in
/-- At the last region's entry, the two weight matrices side by side. -/
theorem entry2_weights (wmu wls : FVec Ideal S128x64 .f32)
    (ea3 : W6 m ρ c (Proc.devRef .tc main_arg3) = wmu) (ea5 : W6 m ρ c (Proc.devRef .tc main_arg5) = wls) :
    W7 m ρ c (Proc.devRef .tc main_v39)
      = concatenate S128x128 1 [⟨S128x64, wmu⟩, ⟨S128x64, wls⟩] concatenates_S128x64_S128x64_S128x128_d1 := by
  dsimp only [W7, hostOps2]
  after_results
  rw [ea3, ea5]

set_option maxHeartbeats 4000000 in
/-- At the last region's entry, the two biases end to end, as a row. -/
theorem entry2_bias (bmu bls : FVec Ideal S64 .f32)
    (ea4 : W6 m ρ c (Proc.devRef .tc main_arg4) = bmu) (ea6 : W6 m ρ c (Proc.devRef .tc main_arg6) = bls) :
    W7 m ρ c (Proc.devRef .tc main_v41)
      = shapeCast S1x128 (concatenate S128 0 [⟨S64, bmu⟩, ⟨S64, bls⟩] concatenates_S64_S64_S128_d0) shapeCasts_S128_S1x128 := by
  dsimp only [W7, hostOps2]
  after_results
  rw [ea4, ea6]
  rfl

/-! ## The last region and the two results -/

/-- At the last region's exit its result: the dense layer of the row-scaled rows. -/
theorem exit2_out
    (h2 : ∀ (V : (c : Dev nD) → (b : Ref sig .tc) → Buf (Elt Ideal) ((c : Thread nD τ).loc b)) (c : Dev nD),
      (dat2 (F := Ideal) V c).arrAt 4 cfg2.N = scaledDense (V c main_v38 : S100000x128.Idx → EReal)
        (V c main_v15 : S100000x1.Idx → EReal) (V c main_v39 : S128x128.Idx → EReal) (V c main_v41 : S1x128.Idx → EReal))
    (a : FVec Ideal S100000x128 .f32) (d : FVec Ideal S100000x1 .f32) (w : FVec Ideal S128x128 .f32)
    (brow : FVec Ideal S1x128 .f32)
    (e38 : W7 m ρ c (Proc.devRef .tc main_v38) = a) (e15 : W7 m ρ c (Proc.devRef .tc main_v15) = d)
    (e39 : W7 m ρ c (Proc.devRef .tc main_v39) = w) (e41 : W7 m ρ c (Proc.devRef .tc main_v41) = brow) :
    W8 m ρ c (Proc.devRef .tc main_v42) = scaledDense a d w brow := by
  refine ((W8_arr m ρ c 4).trans (h2 (V7 m ρ) c)).trans ?_
  show scaledDense (W7 m ρ c (Proc.devRef .tc main_v38) : S100000x128.Idx → EReal)
    (W7 m ρ c (Proc.devRef .tc main_v15) : S100000x1.Idx → EReal)
    (W7 m ρ c (Proc.devRef .tc main_v39) : S128x128.Idx → EReal)
    (W7 m ρ c (Proc.devRef .tc main_v41) : S1x128.Idx → EReal) = _
  rw [e38, e15, e39, e41]

/-- The two results are the left and the right half of the columns of the last region's result. -/
theorem halves (o : FVec Ideal S100000x128 .f32) (e42 : W8 m ρ c (Proc.devRef .tc main_v42) = o) :
    W9 m ρ c (Proc.devRef .tc main_v43) = extractStridedSlice S100000x64 ![0, 0] o slices_S100000x128_S100000x64_0_0
    ∧ W9 m ρ c (Proc.devRef .tc main_v44) = extractStridedSlice S100000x64 ![0, 64] o slices_S100000x128_S100000x64_0_64 := by
  constructor
  · dsimp only [W9, hostOps3]
    after_results
    rw [e42]
  · dsimp only [W9, hostOps3]
    after_results
    rw [e42]

/-! ## From region 0's exit to the return -/

/-- The result array of the last region from region 0's result hs, the scale column d, the word arrays sw dw and the weights. -/
def tailOut (hs : FVec Ideal S100000x128 .f32) (d : FVec Ideal S100000x1 .f32) (sw dw : IVec S740000 32)
    (b1 : FVec Ideal S128 .f32) (wmu : FVec Ideal S128x64 .f32) (bmu : FVec Ideal S64 .f32)
    (wls : FVec Ideal S128x64 .f32) (bls : FVec Ideal S64 .f32) : FVec Ideal S100000x128 .f32 :=
  scaledDense
    (segSum (M := 100000) hN
      (scaledRelu (segSum (M := 100000) hN hs (col (wrapNeg sw)) (col dw)) d (shapeCast S1x128 b1 shapeCasts_S128_S1x128))
      (col (wrapNeg sw)) (col dw))
    d
    (concatenate S128x128 1 [⟨S128x64, wmu⟩, ⟨S128x64, wls⟩] concatenates_S128x64_S128x64_S128x128_d1)
    (shapeCast S1x128 (concatenate S128 0 [⟨S64, bmu⟩, ⟨S64, bls⟩] concatenates_S64_S64_S128_d0) shapeCasts_S128_S1x128)

/-- THE TWO RESULTS from region 0's exit: with the values of the last two regions given as functions of their input
    arrays, the program's two results are the two column halves of the dense layer of the second message-passing sum,
    whose rows are the hidden layer computed from the first message-passing sum of region 0's result. -/
theorem results_of_exit0
    (h1 : ∀ (V : (c : Dev nD) → (b : Ref sig .tc) → Buf (Elt Ideal) ((c : Thread nD τ).loc b)) (c : Dev nD),
      (dat1 (F := Ideal) V c).arrAt 3 cfg1.N = scaledRelu (V c main_v26 : S100000x128.Idx → EReal)
        (V c main_v15 : S100000x1.Idx → EReal) (V c main_v27 : S1x128.Idx → EReal))
    (h2 : ∀ (V : (c : Dev nD) → (b : Ref sig .tc) → Buf (Elt Ideal) ((c : Thread nD τ).loc b)) (c : Dev nD),
      (dat2 (F := Ideal) V c).arrAt 4 cfg2.N = scaledDense (V c main_v38 : S100000x128.Idx → EReal)
        (V c main_v15 : S100000x1.Idx → EReal) (V c main_v39 : S128x128.Idx → EReal) (V c main_v41 : S1x128.Idx → EReal))
    (hs : FVec Ideal S100000x128 .f32) (d : FVec Ideal S100000x1 .f32) (sw dw : IVec S740000 32)
    (b1 : FVec Ideal S128 .f32) (wmu : FVec Ideal S128x64 .f32) (bmu : FVec Ideal S64 .f32)
    (wls : FVec Ideal S128x64 .f32) (bls : FVec Ideal S64 .f32)
    (e16 : W4 m ρ c (Proc.devRef .tc main_v16) = hs) (e15 : W4 m ρ c (Proc.devRef .tc main_v15) = d)
    (e3 : W4 m ρ c (Proc.devRef .tc main_v3) = sw) (e6 : W4 m ρ c (Proc.devRef .tc main_v6) = dw)
    (ea2 : W4 m ρ c (Proc.devRef .tc main_arg2) = b1) (ea3 : W4 m ρ c (Proc.devRef .tc main_arg3) = wmu)
    (ea4 : W4 m ρ c (Proc.devRef .tc main_arg4) = bmu) (ea5 : W4 m ρ c (Proc.devRef .tc main_arg5) = wls)
    (ea6 : W4 m ρ c (Proc.devRef .tc main_arg6) = bls) :
    W9 m ρ c (Proc.devRef .tc main_v43)
        = extractStridedSlice S100000x64 ![0, 0] (tailOut hs d sw dw b1 wmu bmu wls bls) slices_S100000x128_S100000x64_0_0
    ∧ W9 m ρ c (Proc.devRef .tc main_v44)
        = extractStridedSlice S100000x64 ![0, 64] (tailOut hs d sw dw b1 wmu bmu wls bls) slices_S100000x128_S100000x64_0_64 := by
  -- the second region's entry
  have a26 := entry1_messages m ρ c hs sw dw e16 e3 e6
  have a27 := entry1_bias m ρ c b1 ea2
  have a15 : W5 m ρ c (Proc.devRef .tc main_v15) = d := (stretch1_keeps (W4 m ρ c) main_v15 (by decide)).trans e15
  -- the second region's exit
  have b28 := exit1_hidden m ρ c h1 _ _ _ a26 a15 a27
  have b15 := exit1_scale m ρ c d a15
  have b3 : W6 m ρ c (Proc.devRef .tc main_v3) = sw :=
    (W6_of_ne m ρ c main_v3 (by decide)).trans ((stretch1_keeps (W4 m ρ c) main_v3 (by decide)).trans e3)
  have b6 : W6 m ρ c (Proc.devRef .tc main_v6) = dw :=
    (W6_of_ne m ρ c main_v6 (by decide)).trans ((stretch1_keeps (W4 m ρ c) main_v6 (by decide)).trans e6)
  have ba3 : W6 m ρ c (Proc.devRef .tc main_arg3) = wmu :=
    (W6_of_ne m ρ c main_arg3 (by decide)).trans ((stretch1_keeps (W4 m ρ c) main_arg3 (by decide)).trans ea3)
  have ba4 : W6 m ρ c (Proc.devRef .tc main_arg4) = bmu :=
    (W6_of_ne m ρ c main_arg4 (by decide)).trans ((stretch1_keeps (W4 m ρ c) main_arg4 (by decide)).trans ea4)
  have ba5 : W6 m ρ c (Proc.devRef .tc main_arg5) = wls :=
    (W6_of_ne m ρ c main_arg5 (by decide)).trans ((stretch1_keeps (W4 m ρ c) main_arg5 (by decide)).trans ea5)
  have ba6 : W6 m ρ c (Proc.devRef .tc main_arg6) = bls :=
    (W6_of_ne m ρ c main_arg6 (by decide)).trans ((stretch1_keeps (W4 m ρ c) main_arg6 (by decide)).trans ea6)
  -- the last region's entry
  have c38 := entry2_messages m ρ c _ sw dw b28 b3 b6
  have c39 := entry2_weights m ρ c wmu wls ba3 ba5
  have c41 := entry2_bias m ρ c bmu bls ba4 ba6
  have c15 : W7 m ρ c (Proc.devRef .tc main_v15) = d := (stretch2_keeps (W6 m ρ c) main_v15 (by decide)).trans b15
  -- the last region's exit, and the two halves
  have d42 : W8 m ρ c (Proc.devRef .tc main_v42) = tailOut hs d sw dw b1 wmu bmu wls bls := by
    unfold tailOut
    exact exit2_out m ρ c h2 _ _ _ _ c38 c15 c39 c41
  exact halves m ρ c _ d42

end Cert.KernelIdeal.FoldTail

end
-- ==== Proof.LibEntryReads.lean ====
/-
  Rank-2 vectors over the extended reals, read entry by entry.

  `Reads v f` says that entry `(p, q)` of the vector `v` is `f p q`. The lemmas carry this through the vector
  operations, for any extents: a pointwise operation (sum, difference, product, logistic function, hyperbolic
  tangent) reads its operands at the same entry; a change of float format and a cast to the same shape keep every
  entry; a row [1, m] broadcast down the rows reads `(0, q)`, a single entry [1, 1] broadcast to a column reads it
  everywhere, a column [n, 1] broadcast along the rows reads `(p, 0)`; the sum of each row kept as a column [n, 1]
  is the sum of the row's entries; and a matrix product [n, k] × [k, m] accumulated into zero is the sum over the
  contracted coordinate of the products of the entries. A value built from such operations is read by composing
  the lemmas in term mode against the goal, which supplies the shapes' side conditions.
-/
import proofs.«142820_j71021579206869_2_alg».proof.Proof.LibKeepdims
import proofs.«142820_j71021579206869_2_alg».proof.Proof.LibRowOps

noncomputable section

namespace Cert.LibEntryReads

open Idealize.ShloMosaic Idealize.ShloMosaic.ValueIdx

/-- Entry `(p, q)` of `v` is `f p q`, for every row `p` and column `q`. -/
def Reads {n m : ℕ} (v : (⟨2, ![n, m]⟩ : Shape).Idx → EReal) (f : Fin n → Fin m → EReal) : Prop :=
  ∀ p q, v (ix2 p q) = f p q

section ops

variable {n m : ℕ} {φ : FTy}

/-- A vector holds its own entries. -/
theorem reads_self (v : (⟨2, ![n, m]⟩ : Shape).Idx → EReal) : Reads v (fun p q => v (ix2 p q)) := fun _ _ => rfl

/-- A splat holds its scalar everywhere. -/
theorem reads_splat (c : EReal) : Reads (broadcast (⟨2, ![n, m]⟩ : Shape) c) (fun _ _ => c) := fun _ _ => rfl

theorem reads_addf {a b : FVec Ideal ⟨2, ![n, m]⟩ φ} {f g : Fin n → Fin m → EReal} (ha : Reads a f) (hb : Reads b g) :
    Reads (addf a b) (fun p q => f p q + g p q) := fun p q => by
  show a (ix2 p q) + b (ix2 p q) = _
  rw [ha p q, hb p q]

theorem reads_subf {a b : FVec Ideal ⟨2, ![n, m]⟩ φ} {f g : Fin n → Fin m → EReal} (ha : Reads a f) (hb : Reads b g) :
    Reads (subf a b) (fun p q => f p q - g p q) := fun p q => by
  show a (ix2 p q) - b (ix2 p q) = _
  rw [ha p q, hb p q]

theorem reads_mulf {a b : FVec Ideal ⟨2, ![n, m]⟩ φ} {f g : Fin n → Fin m → EReal} (ha : Reads a f) (hb : Reads b g) :
    Reads (mulf a b) (fun p q => f p q * g p q) := fun p q => by
  show a (ix2 p q) * b (ix2 p q) = _
  rw [ha p q, hb p q]

theorem reads_logistic {a : FVec Ideal ⟨2, ![n, m]⟩ φ} {f : Fin n → Fin m → EReal} (ha : Reads a f) :
    Reads (logistic a) (fun p q => Ideal.logistic (f p q)) := fun p q => by
  show Ideal.logistic (a (ix2 p q)) = _
  rw [ha p q]

theorem reads_tanh {a : FVec Ideal ⟨2, ![n, m]⟩ φ} {f : Fin n → Fin m → EReal} (ha : Reads a f) :
    Reads (tanh a) (fun p q => Ideal.tanh (f p q)) := fun p q => by
  show Ideal.tanh (a (ix2 p q)) = _
  rw [ha p q]

/-- A change of float format keeps every entry. -/
theorem reads_truncf {ψ : FTy} {a : FVec Ideal ⟨2, ![n, m]⟩ φ} {f : Fin n → Fin m → EReal} (h : ψ.bits < φ.bits)
    (ha : Reads a f) : Reads (truncf ψ a h) f := fun p q => by
  show a (ix2 p q) = _
  exact ha p q

/-- A cast to the same shape keeps every entry. -/
theorem reads_cast_self {v : (⟨2, ![n, m]⟩ : Shape).Idx → EReal} {f : Fin n → Fin m → EReal}
    (h : (⟨2, ![n, m]⟩ : Shape).ShapeCasts ⟨2, ![n, m]⟩) (hv : Reads v f) : Reads (shapeCast ⟨2, ![n, m]⟩ v h) f := by
  rw [shapeCast_self]; exact hv

/-- A row broadcast down `a` rows holds the row's entry of the same column. -/
theorem reads_rowbcast {a : ℕ} {x : (⟨2, ![1, m]⟩ : Shape).Idx → EReal} {f : Fin 1 → Fin m → EReal}
    (h : (⟨2, ![1, m]⟩ : Shape).Broadcasts ⟨2, ![a, m]⟩) (hx : Reads x f) :
    Reads (broadcastTo ⟨2, ![a, m]⟩ x h) (fun _ q => f 0 q) := fun p q =>
  (Cert.KernelBody.broadcastTo_row_apply x h p q).trans (hx 0 q)

/-- A single entry broadcast to a column holds that entry everywhere. -/
theorem reads_unitbcast {a : ℕ} {x : (⟨2, ![1, 1]⟩ : Shape).Idx → EReal} {f : Fin 1 → Fin 1 → EReal}
    (h : (⟨2, ![1, 1]⟩ : Shape).Broadcasts ⟨2, ![a, 1]⟩) (hx : Reads x f) :
    Reads (broadcastTo ⟨2, ![a, 1]⟩ x h) (fun _ _ => f 0 0) := fun p q => by
  obtain rfl : q = 0 := Subsingleton.elim _ _
  exact (Cert.KernelBody.broadcastTo_row_apply x h p 0).trans (hx 0 0)

/-- A column broadcast along `b` columns holds the column's entry of the same row. -/
theorem reads_colbcast {b : ℕ} {v : (⟨2, ![n, 1]⟩ : Shape).Idx → EReal} {f : Fin n → Fin 1 → EReal}
    (h : (⟨2, ![n, 1]⟩ : Shape).Broadcasts ⟨2, ![n, b]⟩) (hv : Reads v f) :
    Reads (broadcastTo ⟨2, ![n, b]⟩ v h) (fun p _ => f p 0) := fun p q =>
  (Cert.LibKeepdims.broadcastTo_col_apply v h p q).trans (hv p 0)

/-- The sum of each row, kept as a column, holds the row's sum. -/
theorem reads_rowsum {v : FVec Ideal ⟨2, ![n, m]⟩ φ} {f : Fin n → Fin m → EReal} (acc : BitVec φ.bits)
    (h : (⟨2, ![n, m]⟩ : Shape).Reduces [1] ⟨1, ![n]⟩) (hφ : FKind.Formats φ) (hacc : acc = FKind.add.neutral φ hφ)
    (hs : (⟨1, ![n]⟩ : Shape).ShapeCasts ⟨2, ![n, 1]⟩) (hv : Reads v f) :
    Reads (shapeCast ⟨2, ![n, 1]⟩ (multiReduction .add [1] ⟨1, ![n]⟩ v acc h hφ hacc) hs) (fun p _ => ∑ k, f p k) :=
  fun p q => by
    obtain rfl : q = 0 := Subsingleton.elim _ _
    refine (Cert.LibKeepdims.shapeCast_col_apply _ hs p).trans ?_
    refine (Cert.LibKeepdims.rowsum_apply v acc h hφ hacc p).trans ?_
    exact Finset.sum_congr rfl fun k _ => hv p k

/-- A matrix product accumulated into zero holds the sums of products of entries. -/
theorem reads_matmul {k : ℕ} {φ₁ φ₂ : FTy}
    (w : DotDims.WF ⟨2, ![n, k]⟩ ⟨2, ![k, m]⟩ ⟨2, ![n, m]⟩ [1] [0] [0] [1] [] [])
    (prec : Option ContractPrecision) {A : FVec Ideal ⟨2, ![n, k]⟩ φ₁} {B : FVec Ideal ⟨2, ![k, m]⟩ φ₂}
    {f : Fin n → Fin k → EReal} {g : Fin k → Fin m → EReal} (hA : Reads A f) (hB : Reads B g) :
    Reads (matmul (⟨[1], [0], [0], [1], [], [], w⟩ : DotDims _ _ _) prec A B
        (constant (F := Ideal) ⟨2, ![n, m]⟩ .f32 0x00000000#32)) (fun p q => ∑ i, f p i * g i q) := fun p q =>
  (Cert.KernelBody.matmul_plain_zero_apply w prec A B p q).trans
    (Finset.sum_congr rfl fun i _ => by rw [hA p i, hB i q])

end ops

end Cert.LibEntryReads

end
-- ==== Proof.Region0.lean ====
/-
  The value of the first matrix-product region. The region's grid has 20 points; at point t the body multiplies rows
  5000·t … 5000·t + 4999 of the node table by the whole weight matrix and scales each product row by that row's entry
  of the scale column, and the result is written back as rows 5000·t … 5000·t + 4999 of the output. The 20 blocks
  tile the 100000 rows, so the output array ends as ONE function of the three input arrays: entry (r, q) is
  (sum over j of table (r, j) · weights (j, q)) · scale (r, 0).
-/
import proofs.«142820_j71021579206869_2_alg».proof.Proof.Gen.KernelIdeal.Frame
import proofs.«142820_j71021579206869_2_alg».proof.Proof.Spec
import proofs.«142820_j71021579206869_2_alg».proof.Proof.LibEntryReads
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibEntryReads

/-- Entry (p, q) of the block the body stores: the product of row p of the first block with column q of the
    second, times the scale the third block holds for row p. -/
theorem product_block_reads (x0 : Vec Ideal S5000x256 .f32) (x1 : Vec Ideal S256x128 .f32) (x2 : Vec Ideal S5000x1 .f32) :
    Reads (k0_pay1 (F := Ideal) x0 x1 x2)
      (fun p q => (∑ j : Fin 256, x0 (ix2 p j) * x1 (ix2 j q)) * x2 (ix2 p (0 : Fin 1))) := by
  unfold k0_pay1
  exact reads_mulf
    (reads_matmul _ none (reads_truncf _ (reads_self x0)) (reads_truncf _ (reads_self x1)))
    (reads_colbcast _ (reads_cast_self _ (reads_self x2)))

/-- The zero offsets of a whole-block access, as the constant function. -/
theorem zero_offsets : (![0, 0] : Fin 2 → Nat) = fun _ => 0 := funext fun a => by fin_cases a <;> rfl

/-- The block indices at a grid point, decided over the grid: the row-tiled windows (the table, the scales, the
    output) all sit at block row t and block column 0; the weights' window stays at block (0, 0). -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row p of the table's block at point t is row 5000·t + p of the table. -/
theorem table_block0 (c : Dev nD) (t : Fin cfg0.N) (p : Fin 5000) (j : Fin 256) (r : Fin 100000)
    (hr : r.val = t.val * 5000 + p.val) :
    (iblk0 V c 0 t : Vec Ideal S5000x256 .f32) (ix2 p j) = (V c main_arg0 : S100000x256.Idx → EReal) (ix2 r j) := by
  obtain ⟨e0, e1, -⟩ := block_indices0 t
  show (V c main_arg0 : S100000x256.Idx → EReal) (((cfg0.win 0).blk t).view.emb (ix2 p j)) = _
  refine congrArg (V c main_arg0 : S100000x256.Idx → EReal) ?_
  funext a; apply Fin.ext
  match a with
  | ⟨0, _⟩ => show win0_0.index t (0 : Fin 2) * 5000 + 1 * p.val = r.val; rw [e0, hr]; omega
  | ⟨1, _⟩ => show win0_0.index t (1 : Fin 2) * 256 + 1 * j.val = j.val; rw [e1]; omega

/-- The weights' block at any point is the whole weight matrix. -/
theorem weights_block0 (c : Dev nD) (t : Fin cfg0.N) (j : Fin 256) (q : Fin 128) :
    (iblk0 V c 1 t : Vec Ideal S256x128 .f32) (ix2 j q) = (V c main_arg1 : S256x128.Idx → EReal) (ix2 j q) := by
  obtain ⟨-, -, e2, e3, -⟩ := block_indices0 t
  show (V c main_arg1 : S256x128.Idx → EReal) (((cfg0.win 1).blk t).view.emb (ix2 j q)) = _
  refine congrArg (V c main_arg1 : S256x128.Idx → EReal) ?_
  funext a; apply Fin.ext
  match a with
  | ⟨0, _⟩ => show win0_1.index t (0 : Fin 2) * 256 + 1 * j.val = j.val; rw [e2]; omega
  | ⟨1, _⟩ => show win0_1.index t (1 : Fin 2) * 128 + 1 * q.val = q.val; rw [e3]; omega

/-- Row p of the scales' block at point t is row 5000·t + p of the scale column. -/
theorem scale_block0 (c : Dev nD) (t : Fin cfg0.N) (p : Fin 5000) (r : Fin 100000)
    (hr : r.val = t.val * 5000 + p.val) :
    (iblk0 V c 2 t : Vec Ideal S5000x1 .f32) (ix2 p (0 : Fin 1)) = (V c main_v15 : S100000x1.Idx → EReal) (ix2 r (0 : Fin 1)) := by
  obtain ⟨-, -, -, -, e4, e5, -⟩ := block_indices0 t
  show (V c main_v15 : S100000x1.Idx → EReal) (((cfg0.win 2).blk t).view.emb (ix2 p (0 : Fin 1))) = _
  refine congrArg (V c main_v15 : S100000x1.Idx → EReal) ?_
  funext a; apply Fin.ext
  match a with
  | ⟨0, _⟩ => show win0_2.index t (0 : Fin 2) * 5000 + 1 * p.val = r.val; rw [e4, hr]; omega
  | ⟨1, _⟩ => show win0_2.index t (1 : Fin 2) * 1 + 1 * 0 = 0; rw [e5]

/-- Entry (p, q) of the output's block at point t sits at row 5000·t + p, column q of the output array. -/
theorem out_block0 (t : Fin cfg0.N) (p : Fin 5000) (q : Fin 128) (r : Fin 100000)
    (hr : r.val = t.val * 5000 + p.val) :
    (((cfg0.win 3).blk t).view.emb (ix2 p q) : S100000x128.Idx) = ix2 r q := by
  obtain ⟨-, -, -, -, -, -, e6, e7⟩ := block_indices0 t
  funext a; apply Fin.ext
  match a with
  | ⟨0, _⟩ => show win0_3.index t (0 : Fin 2) * 5000 + 1 * p.val = r.val; rw [e6, hr]; omega
  | ⟨1, _⟩ => show win0_3.index t (1 : Fin 2) * 128 + 1 * q.val = q.val; rw [e7]; omega

/-- What point t writes back is block t of the scaled product of the arrays the region finds. -/
theorem flushed0_eq (c : Dev nD) (t : Fin cfg0.N) :
    (dat0 (F := Ideal) V c).flushed 3 t = ((cfg0.win 3).blk t).view.read (Elt Ideal)
      (Cert.Gcn.scaledProduct (V c main_arg0 : S100000x256.Idx → EReal) (V c main_arg1 : S256x128.Idx → EReal) (V c main_v15 : S100000x1.Idx → EReal)) := by
  show (cfg0.win 3).cut (grid0.coords t) ((dat0 V c).after 3 t) = _
  rw [after0_3]
  unfold out0_3
  rw [View.canon_unit_zero zero_offsets]
  simp only [View.ld_unit_zero (S := S5000x256) zero_offsets, View.ld_unit_zero (S := S256x128) zero_offsets, View.ld_unit_zero (S := S5000x1) zero_offsets]
  funext j
  obtain ⟨p, q, rfl⟩ : ∃ (p : Fin 5000) (q : Fin 128), j = ix2 p q := ⟨j 0, j 1, eq_ix2 j⟩
  have hN : cfg0.N = 20 := N_0
  have hlt : t.val * 5000 + p.val < 100000 := by have := t.isLt; have := p.isLt; omega
  show k0_pay1 (F := Ideal) (iblk0 V c 0 t) (iblk0 V c 1 t) (iblk0 V c 2 t) (ix2 p q)
    = Cert.Gcn.scaledProduct (V c main_arg0 : S100000x256.Idx → EReal) (V c main_arg1 : S256x128.Idx → EReal) (V c main_v15 : S100000x1.Idx → EReal)
        (((cfg0.win 3).blk t).view.emb (ix2 p q))
  rw [out_block0 t p q ⟨t.val * 5000 + p.val, hlt⟩ rfl, Cert.Gcn.scaledProduct_apply]
  refine (product_block_reads _ _ _ p q).trans ?_
  beta_reduce
  rw [scale_block0 V c t p ⟨t.val * 5000 + p.val, hlt⟩ rfl]
  refine congrArg (· * _) (Finset.sum_congr rfl fun k _ => ?_)
  rw [table_block0 V c t p k ⟨t.val * 5000 + p.val, hlt⟩ rfl, weights_block0 V c t k q]

/-- An index of the output array is in point t's block iff each coordinate is in the block's range on its axis. -/
theorem mem_block0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every row r of the output array is in the block of the point r / 5000, which writes its block back. -/
theorem covered0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e6, e7⟩ := block_indices0 ⟨(i 0).val / 5000, ht⟩
  refine ⟨⟨(i 0).val / 5000, ht⟩, flush0_3 _, ?_⟩
  rw [mem_block0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e7]; omega

/-- REGION 0: after the run the output array is the product of the table with the weights, every row scaled by
    that row's entry of the scale column — as one function of the arrays the region finds. -/
theorem region0_value (V : (c : Dev nD) → (b : Ref sig .tc) → Buf (Elt Ideal) ((c : Thread nD τ).loc b)) (c : Dev nD) :
    (dat0 (F := Ideal) V c).arrAt 3 cfg0.N
      = Cert.Gcn.scaledProduct (V c main_arg0 : S100000x256.Idx → EReal) (V c main_arg1 : S256x128.Idx → EReal) (V c main_v15 : S100000x1.Idx → EReal) :=
  (dat0 (F := Ideal) V c).arrAt_eq_of_cover 3 _ (fun t _ => flushed0_eq V c t) covered0

end Cert.KernelIdeal.RegionValue

end
-- ==== Proof.Region1.lean ====
/-
  Region 1 of the kernel: rows scaled, a row added, the positive part taken, rows scaled again.

  The region runs over 20 grid points. Point t reads rows 5000·t … 5000·t + 4999 of the table a (all 128 columns) and
  of the scale column d, and the whole row b, and writes the same rows of the output. Entry (p, q) of what it writes is
  max (a-block (p, q) · d-block (p, 0) + b (0, q)) 0 · d-block (p, 0): the body's arithmetic read entry by entry. Row r
  of the output lies in the block of point r / 5000 and in no other, every point writes its block back, and the 20
  blocks cover the 100000 rows; so the output array after the region is, entry by entry, the whole-array function
  scaledRelu a d b of the arrays the region finds on entry.
-/
import proofs.«142820_j71021579206869_2_alg».proof.Proof.Gen.KernelIdeal.Frame
import proofs.«142820_j71021579206869_2_alg».proof.Proof.Spec
import proofs.«142820_j71021579206869_2_alg».proof.Proof.LibEntryReads
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibEntryReads

/-! ## The body's arithmetic, entry by entry -/

/-- The pointwise maximum of two vectors holds, at every entry, the larger of the two entries. -/
theorem reads_maximumf {n m : ℕ} {φ : FTy} {a b : FVec Ideal ⟨2, ![n, m]⟩ φ} {f g : Fin n → Fin m → EReal}
    (ha : Reads a f) (hb : Reads b g) : Reads (maximumf a b) (fun p q => max (f p q) (g p q)) := fun p q => by
  show max (a (ix2 p q)) (b (ix2 p q)) = _
  rw [ha p q, hb p q]

/-- Entry (p, q) of what the body stores, from the blocks it loads: x0 a block of 5000 rows of the table, x1 and x3 the
    same rows of the scale column (the body loads that block twice), x2 the added row. The entry is
    max (x0 (p, q) · x1 (p, 0) + x2 (0, q)) 0 · x3 (p, 0). -/
theorem payload_entry (x0 : Vec Ideal S5000x128 .f32) (x1 : Vec Ideal S5000x1 .f32) (x2 : Vec Ideal S1x128 .f32)
    (x3 : Vec Ideal S5000x1 .f32) (p : Fin 5000) (q : Fin 128) :
    k1_pay1 x0 x1 x2 x3 (ix2 p q)
      = max (x0 (ix2 p q) * x1 (ix2 p (0 : Fin 1)) + x2 (ix2 (0 : Fin 1) q)) 0 * x3 (ix2 p (0 : Fin 1)) := by
  have h : Reads (k1_pay1 x0 x1 x2 x3) (fun p q =>
      max (x0 (ix2 p q) * x1 (ix2 p (0 : Fin 1)) + x2 (ix2 (0 : Fin 1) q)) (Scalar.ofBits (F := Ideal) .f32 0x00000000#32)
        * x3 (ix2 p (0 : Fin 1))) := by
    unfold k1_pay1
    exact reads_mulf
      (reads_maximumf
        (reads_addf
          (reads_mulf (reads_cast_self _ (reads_self x0)) (reads_colbcast _ (reads_cast_self _ (reads_self x1))))
          (reads_rowbcast _ (reads_cast_self _ (reads_self x2))))
        (reads_splat _))
      (reads_colbcast _ (reads_cast_self _ (reads_self x3)))
  refine (h p q).trans ?_
  show max _ (Ideal.ofBits .f32 0x00000000#32) * _ = _
  rw [Ideal.ofBits_zero_f32]

/-! ## One grid point -/

/-- What one grid point stores, entry by entry, when its blocks are the rows 5000·k … 5000·k + 4999 of the arrays a
    and d and the whole row b: entry (p, q) is entry (5000·k + p, q) of scaledRelu a d b. -/
theorem point_entry (a : FVec Ideal ⟨2, ![100000, 128]⟩ .f32) (d : FVec Ideal ⟨2, ![100000, 1]⟩ .f32)
    (b : FVec Ideal ⟨2, ![1, 128]⟩ .f32)
    (x0 : Vec Ideal S5000x128 .f32) (x1 : Vec Ideal S5000x1 .f32) (x2 : Vec Ideal S1x128 .f32)
    (k : ℕ) (hk : k < 20)
    (h0 : ∀ (p : Fin 5000) (q : Fin 128), x0 (ix2 p q) = a (ix2 (⟨k * 5000 + p.val, by omega⟩ : Fin 100000) q))
    (h1 : ∀ (p : Fin 5000), x1 (ix2 p (0 : Fin 1)) = d (ix2 (⟨k * 5000 + p.val, by omega⟩ : Fin 100000) (0 : Fin 1)))
    (h2 : ∀ (q : Fin 128), x2 (ix2 (0 : Fin 1) q) = b (ix2 (0 : Fin 1) q))
    (p : Fin 5000) (q : Fin 128) :
    k1_pay1 x0 x1 x2 x1 (ix2 p q)
      = Cert.Gcn.scaledRelu a d b (ix2 (⟨k * 5000 + p.val, by omega⟩ : Fin 100000) q) := by
  rw [payload_entry, Cert.Gcn.scaledRelu_apply, h0, h1, h2]

/-! ## From blocks to the array -/

/-- The zero offsets of a whole-block access. -/
theorem offsets_zero : (![0, 0] : Fin 2 → Nat) = fun _ => 0 := funext fun a => by fin_cases a <;> rfl

/-- The block indices over the 20 grid points: the table, the scale column and the output are tiled by rows, point t
    taking block (t, 0); the added row is one block, (0, 0), at every point. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is its block of scaledRelu of the arrays the region finds on entry: its input blocks
    are rows 5000·t … 5000·t + 4999 of the table and of the scale column and the whole added row, and its output block
    is the same rows of the output. -/
theorem flushed_eq (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal)
          (Cert.Gcn.scaledRelu (V c main_v26 : S100000x128.Idx → EReal) (V c main_v15 : S100000x1.Idx → EReal)
            (V c main_v27 : S1x128.Idx → EReal)) := by
  show (cfg1.win 3).cut (grid1.coords t) ((dat1 V c).after 3 t) = _
  rw [after1_3]
  unfold out1_3
  rw [View.canon_unit_zero offsets_zero]
  simp only [View.ld_unit_zero (S := S5000x128) offsets_zero, View.ld_unit_zero (S := S5000x1) offsets_zero,
    View.ld_unit_zero (S := S1x128) offsets_zero]
  obtain ⟨e00, e01, e10, e11, e20, e21, e30, e31⟩ := block_indices t
  have ht : t.val < 20 := lt_of_lt_of_eq t.isLt N_1
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 1 t) (ix2 p q)
    = Cert.Gcn.scaledRelu (V c main_v26 : S100000x128.Idx → EReal) (V c main_v15 : S100000x1.Idx → EReal)
        (V c main_v27 : S1x128.Idx → EReal) (((cfg1.win 3).blk t).view.emb (ix2 p q))
  refine (point_entry (V c main_v26) (V c main_v15) (V c main_v27) (iblk1 V c 0 t) (iblk1 V c 1 t) (iblk1 V c 2 t)
    t.val ht ?_ ?_ ?_ p q).trans ?_
  · intro p q
    show (V c main_v26 : S100000x128.Idx → EReal) (((cfg1.win 0).blk t).view.emb (ix2 p q)) = _
    refine congrArg _ ?_
    funext a; apply Fin.ext
    match a with
    | ⟨0, _⟩ => show win1_0.index t (0 : Fin 2) * 5000 + 1 * p.val = t.val * 5000 + p.val; rw [e00]; omega
    | ⟨1, _⟩ => show win1_0.index t (1 : Fin 2) * 128 + 1 * q.val = q.val; rw [e01]; omega
  · intro p
    show (V c main_v15 : S100000x1.Idx → EReal) (((cfg1.win 1).blk t).view.emb (ix2 p (0 : Fin 1))) = _
    refine congrArg _ ?_
    funext a; apply Fin.ext
    match a with
    | ⟨0, _⟩ => show win1_1.index t (0 : Fin 2) * 5000 + 1 * p.val = t.val * 5000 + p.val; rw [e10]; omega
    | ⟨1, _⟩ => show win1_1.index t (1 : Fin 2) * 1 + 1 * 0 = 0; rw [e11]
  · intro q
    show (V c main_v27 : S1x128.Idx → EReal) (((cfg1.win 2).blk t).view.emb (ix2 (0 : Fin 1) q)) = _
    refine congrArg _ ?_
    funext a; apply Fin.ext
    match a with
    | ⟨0, _⟩ => show win1_2.index t (0 : Fin 2) * 1 + 1 * 0 = 0; rw [e20]
    | ⟨1, _⟩ => show win1_2.index t (1 : Fin 2) * 128 + 1 * q.val = q.val; rw [e21]; omega
  · refine congrArg _ ?_
    funext a; apply Fin.ext
    match a with
    | ⟨0, _⟩ => show t.val * 5000 + p.val = win1_3.index t (0 : Fin 2) * 5000 + 1 * p.val; rw [e30]; omega
    | ⟨1, _⟩ => show q.val = win1_3.index t (1 : Fin 2) * 128 + 1 * q.val; rw [e31]; omega

/-- An index of the output array is in point t's block iff each of its coordinates is in the block's range. -/
theorem mem_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v28).slice (win1_3.rect t)).set ↔ _
  rw [View.set_slice_whole, Rect.mem_set_unit]
  exact Iff.rfl

/-- Every index of the output array lies in the block of a point that writes back: row r in that of point r / 5000. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, -, e30, e31⟩ := block_indices t
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 128 ≤ (i 1).val ∧ (i 1).val < win1_3.index t (1 : Fin 2) * 128 + 128
    rw [e31]; omega

/-- The output array of region 1 after the region is scaledRelu of the table, the scale column and the added row as the
    region finds them: every point writes its block of that function, and the blocks cover the array. -/
theorem region1_value (V : (c : Dev nD) → (b : Ref sig .tc) → Buf (Elt Ideal) ((c : Thread nD τ).loc b)) (c : Dev nD) :
    (dat1 (F := Ideal) V c).arrAt 3 cfg1.N
      = Cert.Gcn.scaledRelu (V c main_v26 : S100000x128.Idx → EReal) (V c main_v15 : S100000x1.Idx → EReal)
          (V c main_v27 : S1x128.Idx → EReal) :=
  (dat1 (F := Ideal) V c).arrAt_eq_of_cover 3 _ (fun t _ => flushed_eq V c t) covered

end Cert.KernelIdeal.RegionValue

end
-- ==== Proof.Region2.lean ====
/-
  The value of the second matrix-product region. The region's grid has 20 points; at point t the body scales rows
  5000·t … 5000·t + 4999 of its input by those rows' entries of the scale column, multiplies them by the whole weight
  matrix and adds the bias row, and the result is written back as rows 5000·t … 5000·t + 4999 of the output. The 20
  blocks tile the 100000 rows, so the output array ends as ONE function of the four input arrays: entry (r, q) is
  (sum over j of (rows (r, j) · scale (r, 0)) · weights (j, q)) + bias (0, q).
-/
import proofs.«142820_j71021579206869_2_alg».proof.Proof.Gen.KernelIdeal.Frame
import proofs.«142820_j71021579206869_2_alg».proof.Proof.Spec
import proofs.«142820_j71021579206869_2_alg».proof.Proof.LibEntryReads
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibEntryReads

/-- Entry (p, q) of the block the body stores: row p of the first block scaled by the second block's entry for row p,
    multiplied into column q of the third block, plus the fourth block's entry for column q. -/
theorem dense_block_reads (x0 : Vec Ideal S5000x128 .f32) (x1 : Vec Ideal S5000x1 .f32) (x2 : Vec Ideal S128x128 .f32)
    (x3 : Vec Ideal S1x128 .f32) :
    Reads (k2_pay1 (F := Ideal) x0 x1 x2 x3)
      (fun p q => (∑ j : Fin 128, (x0 (ix2 p j) * x1 (ix2 p (0 : Fin 1))) * x2 (ix2 j q)) + x3 (ix2 (0 : Fin 1) q)) := by
  unfold k2_pay1
  exact reads_addf
    (reads_matmul _ none
      (reads_truncf _ (reads_mulf (reads_cast_self _ (reads_self x0)) (reads_colbcast _ (reads_cast_self _ (reads_self x1)))))
      (reads_truncf _ (reads_cast_self _ (reads_self x2))))
    (reads_rowbcast _ (reads_cast_self _ (reads_self x3)))

/-- The zero offsets of a whole-block access, as the constant function. -/
theorem offsets_zero2 : (![0, 0] : Fin 2 → Nat) = fun _ => 0 := funext fun a => by fin_cases a <;> rfl

/-- The block indices at a grid point, decided over the grid: the row-tiled windows (the rows, the scales, the
    output) all sit at block row t and block column 0; the weights' and the bias row's windows stay at block (0, 0). -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- Row p of the rows' block at point t is row 5000·t + p of the array. -/
theorem rows_block2 (c : Dev nD) (t : Fin cfg2.N) (p : Fin 5000) (j : Fin 128) (r : Fin 100000)
    (hr : r.val = t.val * 5000 + p.val) :
    (iblk2 V c 0 t : Vec Ideal S5000x128 .f32) (ix2 p j) = (V c main_v38 : S100000x128.Idx → EReal) (ix2 r j) := by
  obtain ⟨e0, e1, -⟩ := block_indices2 t
  show (V c main_v38 : S100000x128.Idx → EReal) (((cfg2.win 0).blk t).view.emb (ix2 p j)) = _
  refine congrArg (V c main_v38 : S100000x128.Idx → EReal) ?_
  funext a; apply Fin.ext
  match a with
  | ⟨0, _⟩ => show win2_0.index t (0 : Fin 2) * 5000 + 1 * p.val = r.val; rw [e0, hr]; omega
  | ⟨1, _⟩ => show win2_0.index t (1 : Fin 2) * 128 + 1 * j.val = j.val; rw [e1]; omega

/-- Row p of the scales' block at point t is row 5000·t + p of the scale column. -/
theorem scale_block2 (c : Dev nD) (t : Fin cfg2.N) (p : Fin 5000) (r : Fin 100000)
    (hr : r.val = t.val * 5000 + p.val) :
    (iblk2 V c 1 t : Vec Ideal S5000x1 .f32) (ix2 p (0 : Fin 1)) = (V c main_v15 : S100000x1.Idx → EReal) (ix2 r (0 : Fin 1)) := by
  obtain ⟨-, -, e2, e3, -⟩ := block_indices2 t
  show (V c main_v15 : S100000x1.Idx → EReal) (((cfg2.win 1).blk t).view.emb (ix2 p (0 : Fin 1))) = _
  refine congrArg (V c main_v15 : S100000x1.Idx → EReal) ?_
  funext a; apply Fin.ext
  match a with
  | ⟨0, _⟩ => show win2_1.index t (0 : Fin 2) * 5000 + 1 * p.val = r.val; rw [e2, hr]; omega
  | ⟨1, _⟩ => show win2_1.index t (1 : Fin 2) * 1 + 1 * 0 = 0; rw [e3]

/-- The weights' block at any point is the whole weight matrix. -/
theorem weights_block2 (c : Dev nD) (t : Fin cfg2.N) (j : Fin 128) (q : Fin 128) :
    (iblk2 V c 2 t : Vec Ideal S128x128 .f32) (ix2 j q) = (V c main_v39 : S128x128.Idx → EReal) (ix2 j q) := by
  obtain ⟨-, -, -, -, e4, e5, -⟩ := block_indices2 t
  show (V c main_v39 : S128x128.Idx → EReal) (((cfg2.win 2).blk t).view.emb (ix2 j q)) = _
  refine congrArg (V c main_v39 : S128x128.Idx → EReal) ?_
  funext a; apply Fin.ext
  match a with
  | ⟨0, _⟩ => show win2_2.index t (0 : Fin 2) * 128 + 1 * j.val = j.val; rw [e4]; omega
  | ⟨1, _⟩ => show win2_2.index t (1 : Fin 2) * 128 + 1 * q.val = q.val; rw [e5]; omega

/-- The bias row's block at any point is the whole row. -/
theorem bias_block2 (c : Dev nD) (t : Fin cfg2.N) (q : Fin 128) :
    (iblk2 V c 3 t : Vec Ideal S1x128 .f32) (ix2 (0 : Fin 1) q) = (V c main_v41 : S1x128.Idx → EReal) (ix2 (0 : Fin 1) q) := by
  obtain ⟨-, -, -, -, -, -, e6, e7, -⟩ := block_indices2 t
  show (V c main_v41 : S1x128.Idx → EReal) (((cfg2.win 3).blk t).view.emb (ix2 (0 : Fin 1) q)) = _
  refine congrArg (V c main_v41 : S1x128.Idx → EReal) ?_
  funext a; apply Fin.ext
  match a with
  | ⟨0, _⟩ => show win2_3.index t (0 : Fin 2) * 1 + 1 * 0 = 0; rw [e6]
  | ⟨1, _⟩ => show win2_3.index t (1 : Fin 2) * 128 + 1 * q.val = q.val; rw [e7]; omega

/-- Entry (p, q) of the output's block at point t sits at row 5000·t + p, column q of the output array. -/
theorem out_block2 (t : Fin cfg2.N) (p : Fin 5000) (q : Fin 128) (r : Fin 100000)
    (hr : r.val = t.val * 5000 + p.val) :
    (((cfg2.win 4).blk t).view.emb (ix2 p q) : S100000x128.Idx) = ix2 r q := by
  obtain ⟨-, -, -, -, -, -, -, -, e8, e9⟩ := block_indices2 t
  funext a; apply Fin.ext
  match a with
  | ⟨0, _⟩ => show win2_4.index t (0 : Fin 2) * 5000 + 1 * p.val = r.val; rw [e8, hr]; omega
  | ⟨1, _⟩ => show win2_4.index t (1 : Fin 2) * 128 + 1 * q.val = q.val; rw [e9]; omega

/-- What point t writes back is block t of the scaled dense layer of the arrays the region finds. -/
theorem flushed2_eq (c : Dev nD) (t : Fin cfg2.N) :
    (dat2 (F := Ideal) V c).flushed 4 t = ((cfg2.win 4).blk t).view.read (Elt Ideal)
      (Cert.Gcn.scaledDense (V c main_v38 : S100000x128.Idx → EReal) (V c main_v15 : S100000x1.Idx → EReal)
        (V c main_v39 : S128x128.Idx → EReal) (V c main_v41 : S1x128.Idx → EReal)) := by
  show (cfg2.win 4).cut (grid2.coords t) ((dat2 V c).after 4 t) = _
  rw [after2_4]
  unfold out2_4
  rw [View.canon_unit_zero offsets_zero2]
  simp only [View.ld_unit_zero (S := S5000x128) offsets_zero2, View.ld_unit_zero (S := S5000x1) offsets_zero2,
    View.ld_unit_zero (S := S128x128) offsets_zero2, View.ld_unit_zero (S := S1x128) offsets_zero2]
  funext j
  obtain ⟨p, q, rfl⟩ : ∃ (p : Fin 5000) (q : Fin 128), j = ix2 p q := ⟨j 0, j 1, eq_ix2 j⟩
  have hN : cfg2.N = 20 := N_2
  have hlt : t.val * 5000 + p.val < 100000 := by have := t.isLt; have := p.isLt; omega
  show k2_pay1 (F := Ideal) (iblk2 V c 0 t) (iblk2 V c 1 t) (iblk2 V c 2 t) (iblk2 V c 3 t) (ix2 p q)
    = Cert.Gcn.scaledDense (V c main_v38 : S100000x128.Idx → EReal) (V c main_v15 : S100000x1.Idx → EReal)
        (V c main_v39 : S128x128.Idx → EReal) (V c main_v41 : S1x128.Idx → EReal)
        (((cfg2.win 4).blk t).view.emb (ix2 p q))
  rw [out_block2 t p q ⟨t.val * 5000 + p.val, hlt⟩ rfl, Cert.Gcn.scaledDense_apply]
  refine (dense_block_reads _ _ _ _ p q).trans ?_
  beta_reduce
  rw [bias_block2 V c t q, scale_block2 V c t p ⟨t.val * 5000 + p.val, hlt⟩ rfl]
  refine congrArg (· + _) (Finset.sum_congr rfl fun k _ => ?_)
  rw [rows_block2 V c t p k ⟨t.val * 5000 + p.val, hlt⟩ rfl, weights_block2 V c t k q]

/-- An index of the output array is in point t's block iff each coordinate is in the block's range on its axis. -/
theorem mem_block2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v42).slice (win2_4.rect t)).set ↔ _
  rw [View.set_slice_whole, Rect.mem_set_unit]
  exact Iff.rfl

/-- Every row r of the output array is in the block of the point r / 5000, which writes its block back. -/
theorem covered2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, -, -, e8, e9⟩ := block_indices2 ⟨(i 0).val / 5000, ht⟩
  refine ⟨⟨(i 0).val / 5000, ht⟩, flush2_4 _, ?_⟩
  rw [mem_block2]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win2_4.index ⟨(i 0).val / 5000, ht⟩ (1 : Fin 2) * 128 ≤ (i 1).val
      ∧ (i 1).val < win2_4.index ⟨(i 0).val / 5000, ht⟩ (1 : Fin 2) * 128 + 128
    rw [e9]; omega

/-- REGION 2: after the run the output array is the dense layer of the row-scaled rows — every row scaled by that
    row's entry of the scale column, multiplied by the weights, plus the bias row — as one function of the arrays
    the region finds. -/
theorem region2_value (V : (c : Dev nD) → (b : Ref sig .tc) → Buf (Elt Ideal) ((c : Thread nD τ).loc b)) (c : Dev nD) :
    (dat2 (F := Ideal) V c).arrAt 4 cfg2.N
      = Cert.Gcn.scaledDense (V c main_v38 : S100000x128.Idx → EReal) (V c main_v15 : S100000x1.Idx → EReal)
          (V c main_v39 : S128x128.Idx → EReal) (V c main_v41 : S1x128.Idx → EReal) :=
  (dat2 (F := Ideal) V c).arrAt_eq_of_cover 4 _ (fun t _ => flushed2_eq V c t) covered2

end Cert.KernelIdeal.RegionValue

end
-- ==== Proof.LayoutReads.lean ====
/-
  The program's layout operations read at an index, over the extended reals.

  A table of 128 columns is split into a left half, columns 0 … 63, and a right half, columns 64 … 127. A slice of
  columns [0, 64) of a table with 128 columns holds at (r, q) the table's entry (r, q), a slice of columns [64, 128) its
  entry (r, 64 + q). Two tables of 64 columns set side by side make a table of 128 columns whose left half is the first
  and whose right half is the second; two vectors of length 64 set end to end, then laid as a row, make a row whose left
  half is the first and whose right half is the second. A vector laid as a row [1, n] or as a column [n, 1] keeps its
  entries in order.
-/
import proofs.«142820_j71021579206869_2_alg».proof.Proof.Gen.KernelIdeal
import proofs.«142820_j71021579206869_2_alg».proof.Proof.LibRowOps
import proofs.«142820_j71021579206869_2_alg».proof.Proof.LibKeepdims
import Idealize.ShloMosaic.Lib.ValueIdx
import Idealize.ShloMosaic.Lib.Pipeline.Value
import Idealize.ShloMosaic.Lib.ValueLayout

noncomputable section

namespace Cert.KernelIdeal.LayoutReads

open Cert.KernelIdeal Cert.KernelIdeal.Gen Idealize.ShloMosaic Idealize.ShloMosaic.ValueIdx

/-- Column q of the left half of 128 columns. -/
def lo (q : Fin 64) : Fin 128 := ⟨q.val, by omega⟩

/-- Column q of the right half. -/
def hi (q : Fin 64) : Fin 128 := ⟨64 + q.val, by omega⟩

/-- The slice of columns [0, 64) holds at (r, q) the table's entry (r, q). -/
theorem slice_lo (o : FVec Ideal S100000x128 .f32) (r : Fin 100000) (q : Fin 64) :
    extractStridedSlice S100000x64 ![0, 0] o slices_S100000x128_S100000x64_0_0 (ix2 r q) = o (ix2 r (lo q)) :=
  extractStridedSlice_apply _ o _ (ix2 r q) (ix2 r (lo q)) fun a => by
    match a with
    | ⟨0, _⟩ => show r.val = 0 + r.val; omega
    | ⟨1, _⟩ => show q.val = 0 + q.val; omega

/-- The slice of columns [64, 128) holds at (r, q) the table's entry (r, 64 + q). -/
theorem slice_hi (o : FVec Ideal S100000x128 .f32) (r : Fin 100000) (q : Fin 64) :
    extractStridedSlice S100000x64 ![0, 64] o slices_S100000x128_S100000x64_0_64 (ix2 r q) = o (ix2 r (hi q)) :=
  extractStridedSlice_apply _ o _ (ix2 r q) (ix2 r (hi q)) fun a => by
    match a with
    | ⟨0, _⟩ => show r.val = 0 + r.val; omega
    | ⟨1, _⟩ => show 64 + q.val = 64 + q.val; rfl

/-- Two tables of 64 columns side by side: the left half is the first table. -/
theorem wcat_lo (a b : FVec Ideal S128x64 .f32) (j : Fin 128) (q : Fin 64) :
    concatenate S128x128 1 [⟨S128x64, a⟩, ⟨S128x64, b⟩] concatenates_S128x64_S128x64_S128x128_d1 (ix2 j (lo q))
      = a (ix2 j q) :=
  concatenate_pair_apply_left _ a b _ (ix2 j (lo q)) rfl (ix2 j q) fun c => by
    match c with
    | ⟨0, _⟩ => rfl
    | ⟨1, _⟩ => rfl

/-- Two tables of 64 columns side by side: the right half is the second table. -/
theorem wcat_hi (a b : FVec Ideal S128x64 .f32) (j : Fin 128) (q : Fin 64) :
    concatenate S128x128 1 [⟨S128x64, a⟩, ⟨S128x64, b⟩] concatenates_S128x64_S128x64_S128x128_d1 (ix2 j (hi q))
      = b (ix2 j q) :=
  concatenate_pair_apply_right _ a b _ (ix2 j (hi q)) rfl rfl (ix2 j q)
    (fun c hc => by
      match c, hc with
      | ⟨0, _⟩, _ => rfl
      | ⟨1, _⟩, hc => exact absurd (Fin.ext rfl) hc)
    (by show q.val + 64 = 64 + q.val; omega)

/-- Two vectors of length 64 end to end, laid as a row: the left half is the first vector. -/
theorem bcat_lo (a b : FVec Ideal S64 .f32) (q : Fin 64) :
    shapeCast S1x128 (concatenate S128 0 [⟨S64, a⟩, ⟨S64, b⟩] concatenates_S64_S64_S128_d0) shapeCasts_S128_S1x128
        (ix2 (0 : Fin 1) (lo q)) = a (ix1 q) :=
  (Cert.KernelBody.shapeCast_row_apply _ _ (lo q)).trans
    (concatenate_pair_apply_left _ a b _ (ix1 (lo q)) rfl (ix1 q) fun c => by
      match c with
      | ⟨0, _⟩ => rfl)

/-- Two vectors of length 64 end to end, laid as a row: the right half is the second vector. -/
theorem bcat_hi (a b : FVec Ideal S64 .f32) (q : Fin 64) :
    shapeCast S1x128 (concatenate S128 0 [⟨S64, a⟩, ⟨S64, b⟩] concatenates_S64_S64_S128_d0) shapeCasts_S128_S1x128
        (ix2 (0 : Fin 1) (hi q)) = b (ix1 q) :=
  (Cert.KernelBody.shapeCast_row_apply _ _ (hi q)).trans
    (concatenate_pair_apply_right _ a b _ (ix1 (hi q)) rfl rfl (ix1 q)
      (fun c hc => by
        match c, hc with
        | ⟨0, _⟩, hc => exact absurd (Fin.ext rfl) hc)
      (by show q.val + 64 = 64 + q.val; omega))

/-- A vector of length 128 laid as a row keeps its entries in order. -/
theorem b1row (a : FVec Ideal S128 .f32) (q : Fin 128) :
    shapeCast S1x128 a shapeCasts_S128_S1x128 (ix2 (0 : Fin 1) q) = a (ix1 q) :=
  Cert.KernelBody.shapeCast_row_apply a _ q

/-- A vector of length 100000 laid as a column keeps its entries in order. -/
theorem dcol_read (d : FVec Ideal S100000 .f32) (r : Fin 100000) :
    shapeCast S100000x1 d shapeCasts_S100000_S100000x1 (ix2 r (0 : Fin 1)) = d (ix1 r) :=
  Cert.LibKeepdims.shapeCast_col_apply d _ r

end Cert.KernelIdeal.LayoutReads

end
-- ==== Proof.LibERealCoe.lean ====
import Mathlib.Data.EReal.Operations
import Mathlib.Data.Finset.Lattice.Fold
import Mathlib.Algebra.BigOperators.Group.Finset.Basic

/-!
# The coercion `ℝ → EReal` commutes with `max`, `min`, finite sums and finite suprema

The coercion is known to commute with `+`, `-`, `*` and negation (`EReal.coe_add`, `EReal.coe_sub`,
`EReal.coe_mul`, `EReal.coe_neg`).  This file adds the companions for `max`, `min`, `∑ i ∈ S`, `Finset.sup'` and `Finset.inf'` (namespace
`ERealCoe`), each stated with the real operation inside the coercion on the left.
-/

namespace ERealCoe

open Finset

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_finset_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [sum_insert ha, sum_insert ha, EReal.coe_add, ih]

theorem coe_sum {ι : Type*} [Fintype ι] (f : ι → ℝ) :
    ((∑ i, f i : ℝ) : EReal) = ∑ i, ((f i : ℝ) : EReal) :=
  coe_finset_sum univ f

theorem coe_sup' {ι : Type*} (S : Finset ι) (hS : S.Nonempty) (f : ι → ℝ) :
    ((S.sup' hS f : ℝ) : EReal) = S.sup' hS fun i => ((f i : ℝ) : EReal) :=
  apply_sup'_eq_sup'_comp hS (fun x : ℝ => (x : EReal)) coe_max

theorem coe_inf' {ι : Type*} (S : Finset ι) (hS : S.Nonempty) (f : ι → ℝ) :
    ((S.inf' hS f : ℝ) : EReal) = S.inf' hS fun i => ((f i : ℝ) : EReal) :=
  apply_inf'_eq_inf'_comp hS (fun x : ℝ => (x : EReal)) coe_min

end ERealCoe
-- ==== Proof.LibFinite.lean ====
import Idealize.ShloMosaic.PureOps.Ideal
import proofs.«142820_j71021579206869_2_alg».proof.Proof.LibERealCoe

/-!
# Extended reals that are real numbers

`IsReal x` says that the extended real `x` is (the coercion of) a real number, and `IsPosReal x`
that it is a positive real number.  The file proves that the two predicates are closed under the
operations of the ideal float instance that keep a finite computation finite: sums, differences,
products, negation, maxima and minima, finite sums, the quotient by a nonzero real, the exponential,
and the reciprocal square root of a positive real; and that the exponential of a value clamped between
two real bounds is a positive real whatever the clamped value is, the infinities included.
-/

namespace ERealFinite

open Idealize.ShloMosaic

/-- The extended real `x` is a real number. -/
def IsReal (x : EReal) : Prop := ∃ r : ℝ, x = (r : EReal)

/-- The extended real `x` is a positive real number. -/
def IsPosReal (x : EReal) : Prop := ∃ r : ℝ, 0 < r ∧ x = (r : EReal)

theorem isReal_coe (r : ℝ) : IsReal (r : EReal) := ⟨r, rfl⟩

theorem isReal_zero : IsReal 0 := ⟨0, rfl⟩

theorem isReal_one : IsReal 1 := ⟨1, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | top => exact absurd rfl ht
    | coe r => exact ⟨r, rfl⟩

theorem IsPosReal.isReal {x : EReal} (h : IsPosReal x) : IsReal x := by
  obtain ⟨r, _, rfl⟩ := h; exact ⟨r, rfl⟩

theorem IsPosReal.ne_zero {x : EReal} (h : IsPosReal x) : x ≠ 0 := by
  obtain ⟨r, hr, rfl⟩ := h
  exact fun h0 => hr.ne' (by exact_mod_cast h0)

theorem IsPosReal.pos {x : EReal} (h : IsPosReal x) : 0 < x := by
  obtain ⟨r, hr, rfl⟩ := h
  exact_mod_cast hr

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  obtain ⟨a, rfl⟩ := hx; obtain ⟨b, rfl⟩ := hy
  exact ⟨Max.max a b, (ERealCoe.coe_max a b).symm⟩

theorem IsReal.min {x y : EReal} (hx : IsReal x) (hy : IsReal y) : IsReal (min x y) := by
  obtain ⟨a, rfl⟩ := hx; obtain ⟨b, rfl⟩ := hy
  exact ⟨Min.min a b, (ERealCoe.coe_min a b).symm⟩

/-- A finite sum of real numbers is a real number. -/
theorem isReal_sum {ι : Type*} (S : Finset ι) (f : ι → EReal) (h : ∀ i ∈ S, IsReal (f i)) :
    IsReal (∑ i ∈ S, f i) := by
  classical
  induction S using Finset.induction_on with
  | empty => rw [Finset.sum_empty]; exact isReal_zero
  | insert a S ha ih =>
    rw [Finset.sum_insert ha]
    exact (h a (Finset.mem_insert_self a S)).add (ih fun i hi => h i (Finset.mem_insert_of_mem hi))

theorem isReal_sum_univ {ι : Type*} [Fintype ι] (f : ι → EReal) (h : ∀ i, IsReal (f i)) :
    IsReal (∑ i, f i) :=
  isReal_sum Finset.univ f fun i _ => h i

/-- The ideal quotient of two reals, the divisor not zero, is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  exact ⟨a / b, div_coe_coe a hb⟩

theorem IsReal.div_pos {x y : EReal} (hx : IsReal x) (hy : IsPosReal y) : IsReal (Ideal.div x y) :=
  hx.div hy.isReal hy.ne_zero

theorem IsReal.exp {x : EReal} (hx : IsReal x) : IsReal (Ideal.exp x) := by
  obtain ⟨a, rfl⟩ := hx
  exact ⟨Real.exp a, Ideal.exp_coe a⟩

theorem IsReal.exp_pos {x : EReal} (hx : IsReal x) : IsPosReal (Ideal.exp x) := by
  obtain ⟨a, rfl⟩ := hx
  exact ⟨Real.exp a, Real.exp_pos a, Ideal.exp_coe a⟩

/-- The reciprocal square root of a positive real is a positive real. -/
theorem IsPosReal.rsqrt {x : EReal} (hx : IsPosReal x) : IsPosReal (Ideal.rsqrt x) := by
  obtain ⟨r, hr, rfl⟩ := hx
  refine ⟨(Real.sqrt r)⁻¹, inv_pos.mpr (Real.sqrt_pos.mpr hr), ?_⟩
  rw [Ideal.rsqrt_coe, if_neg (not_lt.mpr hr.le), if_neg hr.ne']

/-- A value clamped between two real bounds is a real number, the infinities included. -/
theorem isReal_clamp (lo hi : ℝ) (s : EReal) : IsReal (Min.min (hi : EReal) (Max.max (lo : EReal) s)) := by
  induction s using EReal.rec with
  | bot => rw [max_eq_left bot_le]; exact (isReal_coe hi).min (isReal_coe lo)
  | top => rw [max_eq_right le_top, min_eq_left le_top]; exact isReal_coe hi
  | coe r => exact (isReal_coe hi).min ((isReal_coe lo).max (isReal_coe r))

/-- The exponential of a clamped value is a positive real, whatever the clamped value is. -/
theorem isPosReal_exp_clamp (lo hi : ℝ) (s : EReal) :
    IsPosReal (Ideal.exp (Min.min (hi : EReal) (Max.max (lo : EReal) s))) :=
  (isReal_clamp lo hi s).exp_pos

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-- A nonnegative real plus a positive real is a positive real. -/
theorem isPosReal_add_of_nonneg {a : ℝ} (ha : 0 ≤ a) {y : EReal} (hy : IsPosReal y) :
    IsPosReal ((a : EReal) + y) := by
  obtain ⟨b, hb, rfl⟩ := hy
  exact ⟨a + b, add_pos_of_nonneg_of_pos ha hb, (EReal.coe_add a b).symm⟩

/-- A sum of positive reals over a nonempty finite set is a positive real. -/
theorem isPosReal_sum {ι : Type*} (S : Finset ι) (hS : S.Nonempty) (f : ι → EReal)
    (h : ∀ i ∈ S, IsPosReal (f i)) : IsPosReal (∑ i ∈ S, f i) := by
  classical
  induction hS using Finset.Nonempty.cons_induction with
  | singleton a => rw [Finset.sum_singleton]; exact h a (Finset.mem_singleton_self a)
  | cons a S ha hS ih =>
    rw [Finset.sum_cons]
    exact (h a (Finset.mem_cons_self a S)).add (ih fun i hi => h i (Finset.mem_cons_of_mem hi))

end ERealFinite
-- ==== Proof.LibScatterAdd.lean ====
import Idealize.ShloMosaic.PureOps.Ideal
import proofs.«142820_j71021579206869_2_alg».proof.Proof.LibFinite

/-!
# An accumulating scatter over the extended reals keeps real numbers real

The host's accumulating scatter gives, at each operand index, the operand's entry plus the sum of the
updates that land there (`scatterAdd_apply`).  So with real operand entries and real updates every entry of
the result is real (`scatterAdd_isReal`); and where the operand's entry is zero, the updates are positive
reals and at least one update lands, the entry is a positive real (`scatterAdd_isPosReal`).  The shapes and
the dimension numbers are arbitrary.
-/

noncomputable section

open scoped BigOperators

namespace Cert.LibScatterAdd

open Idealize.ShloMosaic ERealFinite

variable {s si su : Shape} {φ : FTy} {w : ℕ}

/-- The accumulating scatter read at an index. -/
theorem scatterAdd_apply (d : ScatterDims s si su) (x : FVec Ideal s φ) (idx : IVec si w) (upd : FVec Ideal su φ)
    (i : s.Idx) :
    Host.scatterAdd d x idx upd i
      = x i + ∑ j ∈ Finset.univ.filter (fun j => d.resultIdx? j idx = some i), upd j := rfl

/-- Real operand entries and real updates give real entries. -/
theorem scatterAdd_isReal (d : ScatterDims s si su) (x : FVec Ideal s φ) (idx : IVec si w) (upd : FVec Ideal su φ)
    (hx : ∀ i, IsReal (x i)) (hu : ∀ j, IsReal (upd j)) (i : s.Idx) :
    IsReal (Host.scatterAdd d x idx upd i) := by
  rw [scatterAdd_apply]
  exact (hx i).add (isReal_sum _ _ fun j _ => hu j)

/-- A zero operand entry on which at least one of the positive real updates lands becomes a positive real. -/
theorem scatterAdd_isPosReal (d : ScatterDims s si su) (x : FVec Ideal s φ) (idx : IVec si w) (upd : FVec Ideal su φ)
    (i : s.Idx) (hx : x i = 0) (hu : ∀ j, IsPosReal (upd j)) (hit : ∃ j, d.resultIdx? j idx = some i) :
    IsPosReal (Host.scatterAdd d x idx upd i) := by
  rw [scatterAdd_apply, hx, zero_add]
  obtain ⟨j, hj⟩ := hit
  exact isPosReal_sum _ ⟨j, Finset.mem_filter.mpr ⟨Finset.mem_univ j, hj⟩⟩ _ fun j _ => hu j

end Cert.LibScatterAdd

end
-- ==== Proof.NodeScale.lean ====
/-
  Two facts about the index words and the node scale, for any edge list; nothing is assumed of the words.

  * The node scale is a real number at every node.  The in-degree is zero plus a finite sum of ones, so it is real;
    where it is above zero the node scale is the reciprocal square root of a positive real, which is a positive
    real, and elsewhere it is zero.
  * A destination word that reads, as a signed integer, a node number r is not negative, so wrapping leaves it
    as it is, and clamping it into the table gives r itself.
-/
import proofs.«142820_j71021579206869_2_alg».proof.Proof.Words
import proofs.«142820_j71021579206869_2_alg».proof.Proof.LibFinite
import proofs.«142820_j71021579206869_2_alg».proof.Proof.LibScatterAdd
import proofs.«142820_j71021579206869_2_alg».proof.Proof.LibGatherTable
import proofs.«142820_j71021579206869_2_alg».proof.Proof.LibColForms
import proofs.«142820_j71021579206869_2_alg».proof.Proof.LibDenseLayers
import Idealize.ShloMosaic.Lib.ValueIdx
import Idealize.ShloMosaic.Lib.Pipeline.Value
import Idealize.ShloMosaic.Lib.ValueLayout

noncomputable section

namespace Cert.NodeScale

open Idealize.ShloMosaic Idealize.ShloMosaic.ValueIdx Idealize.ShloMosaic.GatherTable
open Cert.ReferenceIdeal Cert.ReferenceIdeal.Gen Cert.Words ERealFinite

/-! ## The node scale is real -/

/-- The in-degree is a real number: zero plus a finite sum of ones. -/
theorem degree_isReal (a7 : IVec S2x640000 32) (i : S100000.Idx) : IsReal (degree a7 i) := by
  unfold degree
  refine Cert.LibScatterAdd.scatterAdd_isReal _ _ _ _ (fun i' => ?_) (fun j => ?_) i
  · rw [Cert.Layers.zeroSplat_apply]
    exact isReal_zero
  · rw [broadcastInDim_apply ![] bcast_S_S740000 _ j ix0 (fun a => a.elim0), constant_apply, Ideal.ofBits_one_f32]
    exact isReal_one

/-- The host's reciprocal square root at an index is the reciprocal square root of the entry. -/
theorem hostRsqrt_apply {s : Shape} {φ : FTy} (x : FVec Ideal s φ) (i : s.Idx) :
    Host.rsqrt x i = Ideal.rsqrt (x i) := rfl

/-- The comparison "above zero" of a real number is the bit of the real comparison. -/
theorem cmp_ogt_zero_of_pos {r : ℝ} (h : 0 < r) : Ideal.cmp .ogt (r : EReal) 0 = 1#1 := by
  have h' : (0 : EReal) < (r : EReal) := by exact_mod_cast h
  simp [Ideal.cmp, h']

theorem cmp_ogt_zero_of_not_pos {r : ℝ} (h : ¬ 0 < r) : Ideal.cmp .ogt (r : EReal) 0 = 0#1 := by
  have h' : ¬ (0 : EReal) < (r : EReal) := fun hh => h (by exact_mod_cast hh)
  simp [Ideal.cmp, h']

/-- The node scale is a real number: the reciprocal square root of a positive real, or zero. -/
theorem nodeScale_isReal (a7 : IVec S2x640000 32) (i : S100000.Idx) : IsReal (nodeScale a7 i) := by
  obtain ⟨r, hr⟩ := degree_isReal a7 i
  have hz : broadcastInDim S100000 ![] bcast_S_S100000 (constant (F := Ideal) S_ .f32 0x00000000#32) i = 0 :=
    Cert.Layers.zeroSplat_apply _ i
  unfold nodeScale
  rw [select_apply, cmpf_apply, Ideal.cmpf_def, hz, id_eq, hz, hostRsqrt_apply, hr]
  by_cases hpos : 0 < r
  · rw [cmp_ogt_zero_of_pos hpos, select_one]
    exact (IsPosReal.rsqrt ⟨r, hpos, rfl⟩).isReal
  · rw [cmp_ogt_zero_of_not_pos hpos, select_zero]
    exact isReal_zero

/-! ## A destination word that names a node, wrapped and clamped, is that node -/

/-- The column of words read at (e, 0) is word e. -/
theorem col_apply (w : IVec S740000 32) (e : Fin 740000) : col w (ix2 e (0 : Fin 1)) = w (ix1 e) :=
  Cert.LibColForms.broadcastInDim_col_apply w ![0] rfl bcast_S740000_S740000x1_0 e

/-- Wrapping at a position: the word plus N if it is negative, the word itself otherwise. -/
theorem wrapNeg_apply (w : IVec S740000 32) (j : S740000.Idx) :
    wrapNeg w j = Scalar.select (IntOp.cmpi .slt (w j) 0#32) (IntOp.addi (w j) 100000#32) (w j) := by
  unfold wrapNeg
  rw [select_apply]
  show Scalar.select
      (IntOp.cmpi .slt (w j) (broadcastInDim S740000 ![] bcast_S_S740000 (constantI S_ 32 0#32) j))
      (IntOp.addi (w j) (broadcastInDim S740000 ![] bcast_S_S740000 (constantI S_ 32 100000#32) j)) (w j) = _
  rw [broadcastInDim_apply ![] bcast_S_S740000 (constantI S_ 32 0#32) j ix0 (fun a => a.elim0),
    broadcastInDim_apply ![] bcast_S_S740000 (constantI S_ 32 100000#32) j ix0 (fun a => a.elim0),
    constantI_apply, constantI_apply]

/-- A destination word that reads r, wrapped and clamped into the table, is r. -/
theorem wrapped_dst (a7 : IVec S2x640000 32) (e : Fin 740000) (r : Fin 100000)
    (h : (idst a7 (ix2 e (0 : Fin 1))).toInt = (r.val : ℤ)) :
    clampIdx 100000 hN (idstWrapped a7 (ix2 e (0 : Fin 1))) = r := by
  have h' : (dstWords a7 (ix1 e)).toInt = (r.val : ℤ) :=
    (congrArg BitVec.toInt (col_apply (dstWords a7) e)).symm.trans h
  have hw : idstWrapped a7 (ix2 e (0 : Fin 1)) = dstWords a7 (ix1 e) := by
    show col (wrapNeg (dstWords a7)) (ix2 e (0 : Fin 1)) = _
    rw [col_apply, wrapNeg_apply]
    have hnn : ¬ ((r.val : ℤ) < 0) := by omega
    have hns : IntOp.cmpi .slt (dstWords a7 (ix1 e)) 0#32 = 0#1 := by
      simp [IntOp.cmpi, BitVec.slt, h', hnn]
    rw [hns, select_zero]
  rw [hw]
  apply Fin.ext
  show min (dstWords a7 (ix1 e)).toInt.toNat (100000 - 1) = r.val
  rw [h']
  have := r.isLt
  omega

end Cert.NodeScale

end
-- ==== Proof.FiniteArgs.lean ====
/-
  The precondition read back: every entry of every float argument is a real number.

  The precondition is, for each of the seven float arguments a, the test "every entry x of a has |x| < +∞", the seven
  tests joined by "and"; it says that the joined test is 1. A conjunction of one-bit words that is 1 has both parts 1; a
  test "all entries pass" that is 1 has every entry pass; and on the extended reals |x| = max x (−x) is below +∞ only
  when x is neither +∞ nor −∞, that is, when x is a real number. No entry of an argument is ever evaluated.
-/
import proofs.«142820_j71021579206869_2_alg».proof.Proof.Gen.Pre_finite_inputs
import proofs.«142820_j71021579206869_2_alg».proof.Proof.LibFinite
import Idealize.ShloMosaic.Lib.ReduceAll
import Idealize.ShloMosaic.Lib.ValueIdx

noncomputable section

namespace Cert.FiniteArgs

open Idealize.ShloMosaic ERealFinite Cert.Pre_finite_inputs Cert.Pre_finite_inputs.Gen

/-- The scalar shape has one index. -/
instance : Subsingleton S_.Idx := ⟨fun a b => funext fun d => d.elim0⟩

/-- An extended real whose absolute value max x (−x) compares below +∞ (the float word 0x7F800000) is a real number:
    the absolute value of either infinity is +∞, which is not below itself. -/
theorem isReal_of_abs_lt_inf (x : EReal)
    (h : Ideal.cmp .olt (max x (-x)) (Ideal.ofBits .f32 0x7F800000#32) = 1#1) : IsReal x := by
  induction x using EReal.rec with
  | bot => simp [Ideal.cmp, Ideal.ofBits, Ideal.ieee] at h
  | top => simp [Ideal.cmp, Ideal.ofBits, Ideal.ieee] at h
  | coe r => exact ⟨r, rfl⟩

/-- A conjunction of two one-bit vectors that is 1 at an index has both parts 1 there. -/
theorem and_parts {s : Shape} (x y : IVec s 1) (i : s.Idx) (h : andi x y i = 1#1) : x i = 1#1 ∧ y i = 1#1 :=
  IntOp.andi_eq_one.1 h

/-- If the test "every entry x of a has |x| < +∞" is 1 then every entry of a is a real number. -/
theorem real_of_pass {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) (i : s.Idx) : IsReal (a i) :=
  isReal_of_abs_lt_inf (a i) (Host.reduce_andi_all _ _ hr hu ValueIdx.ix0 e i)

/-- Under the precondition every entry of each of the seven float arguments is a real number. -/
theorem real_of_pre (a0 : FVec Ideal S100000x256 .f32) (a1 : FVec Ideal S256x128 .f32) (a2 : FVec Ideal S128 .f32)
    (a3 : FVec Ideal S128x64 .f32) (a4 : FVec Ideal S64 .f32) (a5 : FVec Ideal S128x64 .f32) (a6 : FVec Ideal S64 .f32)
    (a7 : IVec S2x640000 32)
    (h : Cert.Pre_finite_inputs.fn (F := Ideal) a0 a1 a2 a3 a4 a5 a6 a7 = (fun _ => 1#1)) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ValueIdx.ix0
  dsimp only [fn, fn_part1] at h0
  obtain ⟨h5, e6⟩ := and_parts _ _ _ h0
  obtain ⟨h4, e5⟩ := and_parts _ _ _ h5
  obtain ⟨h3, e4⟩ := and_parts _ _ _ h4
  obtain ⟨h2, e3⟩ := and_parts _ _ _ h3
  obtain ⟨h1, e2⟩ := and_parts _ _ _ h2
  obtain ⟨e0, e1⟩ := and_parts _ _ _ h1
  exact ⟨real_of_pass a0 _ _ _ e0, real_of_pass a1 _ _ _ e1, real_of_pass a2 _ _ _ e2, real_of_pass a3 _ _ _ e3,
    real_of_pass a4 _ _ _ e4, real_of_pass a5 _ _ _ e5, real_of_pass a6 _ _ _ e6⟩

end Cert.FiniteArgs

end
-- ==== Proof.Bridge.lean ====
/-
  The law that joins the two programs, over the extended reals with arbitrary extents; nothing here depends on a program.

  Write d for the node scale, c(e) for the node that edge e's source word names, and "the edges into r" for the edges
  whose destination word reads r.  One program weights the message of every edge by d(c(e)) · d(r) and applies the dense
  layer before passing messages; the other scales the table's rows by d, passes messages unweighted, scales the sums by
  d(r), and applies the second dense layer after passing messages.  For real entries the two agree:

  * a real factor moves into a finite sum of products of reals (`scale_out`);
  * a sum over the inner coordinate of a dense layer and a sum over edges can be taken in either order (`swap_sums`);
  * hence the encoder's result (`encoder_eq`).  The only fact used about the destination words is that a wrapped
    destination word names the node its raw word reads, whenever that is a node (`hwrap`).
  Both laws fail on the extended reals without finiteness (an infinite entry times a zero scale), which is why every
  entry is asked to be a real number.
-/
import Idealize.ShloMosaic.PureOps.Ideal
import Idealize.ShloMosaic.Lib.ValueIdx
import proofs.«142820_j71021579206869_2_alg».proof.Proof.Spec
import proofs.«142820_j71021579206869_2_alg».proof.Proof.LibSegmentSpec
import proofs.«142820_j71021579206869_2_alg».proof.Proof.LibFinite
import proofs.«142820_j71021579206869_2_alg».proof.Proof.LibERealCoe

noncomputable section

open scoped BigOperators

namespace Cert.Bridge

open Idealize.ShloMosaic Idealize.ShloMosaic.ValueIdx Idealize.ShloMosaic.GatherTable
open Cert.Layers Cert.Gcn Cert.Spec ERealFinite

/-- A real factor moves into a finite sum of products of reals. -/
theorem scale_out {ι : Type*} (S : Finset ι) (a p : ι → EReal) (q : EReal)
    (ha : ∀ e, IsReal (a e)) (hp : ∀ e, IsReal (p e)) (hq : IsReal q) :
    (0 + ∑ e ∈ S, a e * p e) * q = 0 + ∑ e ∈ S, a e * (p e * q) := by
  choose a' ha' using ha
  choose p' hp' using hp
  obtain ⟨q', rfl⟩ := hq
  obtain rfl : a = fun e => ((a' e : ℝ) : EReal) := funext ha'
  obtain rfl : p = fun e => ((p' e : ℝ) : EReal) := funext hp'
  simp only [zero_add, ← EReal.coe_mul]
  rw [← ERealCoe.coe_finset_sum, ← ERealCoe.coe_finset_sum, ← EReal.coe_mul, Finset.sum_mul]
  exact congrArg _ (Finset.sum_congr rfl fun e _ => by ring)

/-- The sum over the inner coordinate of a dense layer and the sum over a set of edges, in either order. -/
theorem swap_sums {ι κ : Type*} [Fintype κ] (S : Finset ι) (u : ι → κ → EReal) (p : ι → EReal) (t : EReal)
    (w : κ → EReal) (hu : ∀ e j, IsReal (u e j)) (hp : ∀ e, IsReal (p e)) (ht : IsReal t) (hw : ∀ j, IsReal (w j)) :
    ∑ j, ((0 + ∑ e ∈ S, u e j * p e) * t) * w j = 0 + ∑ e ∈ S, (∑ j, u e j * w j) * (p e * t) := by
  choose u' hu' using hu
  choose p' hp' using hp
  choose w' hw' using hw
  obtain ⟨t', rfl⟩ := ht
  obtain rfl : u = fun e j => ((u' e j : ℝ) : EReal) := funext fun e => funext (hu' e)
  obtain rfl : p = fun e => ((p' e : ℝ) : EReal) := funext hp'
  obtain rfl : w = fun j => ((w' j : ℝ) : EReal) := funext hw'
  simp only [zero_add]
  have hl : ∀ j, ((∑ e ∈ S, ((u' e j : ℝ) : EReal) * ((p' e : ℝ) : EReal)) * ((t' : ℝ) : EReal)) * ((w' j : ℝ) : EReal)
      = (((∑ e ∈ S, u' e j * p' e) * t' * w' j : ℝ) : EReal) := by
    intro j
    simp only [← EReal.coe_mul]
    rw [← ERealCoe.coe_finset_sum, ← EReal.coe_mul, ← EReal.coe_mul]
  have hr : ∀ e, (∑ j, ((u' e j : ℝ) : EReal) * ((w' j : ℝ) : EReal)) * (((p' e : ℝ) : EReal) * ((t' : ℝ) : EReal))
      = (((∑ j, u' e j * w' j) * (p' e * t') : ℝ) : EReal) := by
    intro e
    simp only [← EReal.coe_mul]
    rw [← ERealCoe.coe_sum, ← EReal.coe_mul]
  simp only [hl, hr]
  rw [← ERealCoe.coe_sum, ← ERealCoe.coe_finset_sum]
  refine congrArg _ ?_
  simp only [Finset.sum_mul]
  rw [Finset.sum_comm]
  refine Finset.sum_congr rfl fun e _ => Finset.sum_congr rfl fun j _ => by ring

section
variable {n E K0 K C C2 : ℕ}

/-- THE ENCODER, entry by entry: scaling the table by the node scale, passing messages unweighted, scaling again and
    applying the second dense layer last gives what weighting every edge and applying each dense layer first gives.
    `φ` places the result's columns among the columns of the joined weight matrix. -/
theorem encoder_eq (hN : 0 < n)
    (x : FVec Ideal ⟨2, ![n, K0]⟩ .f32) (W1 : FVec Ideal ⟨2, ![K0, K]⟩ .f32) (b1 : FVec Ideal ⟨1, ![K]⟩ .f32)
    (b1row : FVec Ideal ⟨2, ![1, K]⟩ .f32) (hb1 : ∀ q : Fin K, b1row (ix2 (0 : Fin 1) q) = b1 (ix1 q))
    (W : FVec Ideal ⟨2, ![K, C]⟩ .f32) (b : FVec Ideal ⟨1, ![C]⟩ .f32)
    (Wcat : FVec Ideal ⟨2, ![K, C2]⟩ .f32) (bcat : FVec Ideal ⟨2, ![1, C2]⟩ .f32) (φ : Fin C → Fin C2)
    (hW : ∀ (j : Fin K) (q : Fin C), Wcat (ix2 j (φ q)) = W (ix2 j q))
    (hb : ∀ q : Fin C, bcat (ix2 (0 : Fin 1) (φ q)) = b (ix1 q))
    (d : FVec Ideal ⟨1, ![n]⟩ .f32) (d2 : FVec Ideal ⟨2, ![n, 1]⟩ .f32)
    (hd2 : ∀ r : Fin n, d2 (ix2 r (0 : Fin 1)) = d (ix1 r))
    (ig is idn : IVec ⟨2, ![E, 1]⟩ 32)
    (hwrap : ∀ (e : Fin E) (r : Fin n), (is (ix2 e (0 : Fin 1))).toInt = (r.val : ℤ) →
      clampIdx n hN (idn (ix2 e (0 : Fin 1))) = r)
    (hx : ∀ i, IsReal (x i)) (hW1 : ∀ i, IsReal (W1 i)) (hb1r : ∀ i, IsReal (b1 i)) (hWr : ∀ i, IsReal (W i))
    (hd : ∀ i, IsReal (d i)) (r : Fin n) (q : Fin C) :
    scaledDense (segSum (M := n) hN (scaledRelu (segSum (M := n) hN (scaledProduct x W1 d2) ig is) d2 b1row) ig is)
        d2 Wcat bcat (ix2 r (φ q))
      = addBias (conv (M := n) hN (mm (biasRelu (conv (M := n) hN (mm x W1) (edgeNorm hN d ig idn) ig is) b1) W)
          (edgeNorm hN d ig idn) ig is) b (ix2 r q) := by
  have hdr : ∀ r : Fin n, IsReal (d (ix1 r)) := fun r => hd _
  have hH : ∀ (p : Fin n) (q : Fin K), IsReal (mm x W1 (ix2 p q)) := fun p q => by
    rw [mm_apply]; exact isReal_sum_univ _ fun j => (hx _).mul (hW1 _)
  have hnrm : ∀ e : Fin E, IsReal (edgeNorm hN d ig idn e) := fun e => (hdr _).mul (hdr _)
  -- the first layer: the weighted sum is the unweighted sum of the scaled table, scaled
  have hc1 : ∀ (r : Fin n) (q : Fin K), conv (M := n) hN (mm x W1) (edgeNorm hN d ig idn) ig is (ix2 r q)
      = segSum (M := n) hN (scaledProduct x W1 d2) ig is (ix2 r q) * d2 (ix2 r (0 : Fin 1)) := by
    intro r q
    have hS : ∀ e ∈ Finset.univ.filter (fun e : Fin E => (is (ix2 e (0 : Fin 1))).toInt = (r.val : ℤ)),
        mm x W1 (ix2 (clampIdx n hN (ig (ix2 e (0 : Fin 1)))) q) * edgeNorm hN d ig idn e
          = mm x W1 (ix2 (clampIdx n hN (ig (ix2 e (0 : Fin 1)))) q)
              * (d (ix1 (clampIdx n hN (ig (ix2 e (0 : Fin 1))))) * d (ix1 r)) := by
      intro e he
      rw [Finset.mem_filter] at he
      show _ * (d _ * d (ix1 (clampIdx n hN (idn (ix2 e (0 : Fin 1)))))) = _
      rw [hwrap e r he.2]
    rw [conv_apply, segSum_apply, hd2 r]
    refine ((congrArg (0 + ·) (Finset.sum_congr rfl hS)).trans
      (scale_out _ (fun e => mm x W1 (ix2 (clampIdx n hN (ig (ix2 e (0 : Fin 1)))) q))
        (fun e => d (ix1 (clampIdx n hN (ig (ix2 e (0 : Fin 1)))))) (d (ix1 r))
        (fun e => hH _ q) (fun e => hdr _) (hdr r)).symm).trans ?_
    refine congrArg (· * d (ix1 r)) (congrArg (0 + ·) (Finset.sum_congr rfl fun e _ => ?_))
    rw [scaledProduct_apply, hd2, mm_apply]
  have hc1r : ∀ (r : Fin n) (q : Fin K),
      IsReal (conv (M := n) hN (mm x W1) (edgeNorm hN d ig idn) ig is (ix2 r q)) := fun r q => by
    rw [conv_apply]
    exact isReal_zero.add (isReal_sum _ _ fun e _ => (hH _ _).mul (hnrm e))
  -- the hidden layer, and what the other program holds in its place: the hidden layer with its rows scaled
  have hh1 : ∀ (p : Fin n) (j : Fin K),
      biasRelu (conv (M := n) hN (mm x W1) (edgeNorm hN d ig idn) ig is) b1 (ix2 p j)
        = max (conv (M := n) hN (mm x W1) (edgeNorm hN d ig idn) ig is (ix2 p j) + b1 (ix1 j)) 0 := fun _ _ => rfl
  have hh1r : ∀ (p : Fin n) (j : Fin K),
      IsReal (biasRelu (conv (M := n) hN (mm x W1) (edgeNorm hN d ig idn) ig is) b1 (ix2 p j)) := fun p j => by
    rw [hh1]; exact ((hc1r p j).add (hb1r _)).max isReal_zero
  have hHs : ∀ (p : Fin n) (j : Fin K),
      scaledRelu (segSum (M := n) hN (scaledProduct x W1 d2) ig is) d2 b1row (ix2 p j)
        = biasRelu (conv (M := n) hN (mm x W1) (edgeNorm hN d ig idn) ig is) b1 (ix2 p j) * d2 (ix2 p (0 : Fin 1)) := by
    intro p j
    rw [scaledRelu_apply, ← hc1 p j, hb1 j, hh1]
  -- the second layer
  rw [scaledDense_apply, hb q]
  show _ = conv (M := n) hN (mm (biasRelu (conv (M := n) hN (mm x W1) (edgeNorm hN d ig idn) ig is) b1) W)
      (edgeNorm hN d ig idn) ig is (ix2 r q) + b (ix1 q)
  refine congrArg (· + b (ix1 q)) ?_
  rw [conv_apply]
  have hS2 : ∀ e ∈ Finset.univ.filter (fun e : Fin E => (is (ix2 e (0 : Fin 1))).toInt = (r.val : ℤ)),
      mm (biasRelu (conv (M := n) hN (mm x W1) (edgeNorm hN d ig idn) ig is) b1) W
          (ix2 (clampIdx n hN (ig (ix2 e (0 : Fin 1)))) q) * edgeNorm hN d ig idn e
        = (∑ j : Fin K, biasRelu (conv (M := n) hN (mm x W1) (edgeNorm hN d ig idn) ig is) b1
              (ix2 (clampIdx n hN (ig (ix2 e (0 : Fin 1)))) j) * W (ix2 j q))
            * (d (ix1 (clampIdx n hN (ig (ix2 e (0 : Fin 1))))) * d (ix1 r)) := by
    intro e he
    rw [Finset.mem_filter] at he
    rw [mm_apply]
    show _ * (d _ * d (ix1 (clampIdx n hN (idn (ix2 e (0 : Fin 1)))))) = _
    rw [hwrap e r he.2]
  rw [Finset.sum_congr rfl hS2]
  refine Eq.trans ?_ (swap_sums _
    (fun e j => biasRelu (conv (M := n) hN (mm x W1) (edgeNorm hN d ig idn) ig is) b1
      (ix2 (clampIdx n hN (ig (ix2 e (0 : Fin 1)))) j))
    (fun e => d (ix1 (clampIdx n hN (ig (ix2 e (0 : Fin 1)))))) (d (ix1 r)) (fun j => W (ix2 j q))
    (fun e j => hh1r _ j) (fun e => hdr _) (hdr r) (fun j => hWr _))
  refine Finset.sum_congr rfl fun j _ => ?_
  rw [hW j q, hd2 r, segSum_apply]
  refine congrArg (fun z => (z * d (ix1 r)) * W (ix2 j q)) (congrArg (0 + ·) (Finset.sum_congr rfl fun e _ => ?_))
  rw [hHs, hd2]

end

end Cert.Bridge

end
-- ==== Proof.KernelValue.lean ====
/-
  The idealized kernel program's two results are the reference's functions of the arguments.

  Its last region's result array is, entry by entry, a dense layer applied to message sums of a hidden layer whose rows
  were scaled by the node scale before and after the sums (the exit of the first region, then the fold through the
  remaining host operations and regions); the two results are the left and the right 64 columns of it.  The reference
  weights every edge by the product of the node scales at its two ends and applies each dense layer before passing
  messages.  For arguments whose entries are real numbers the two agree (the law of the module on the encoder), the left
  columns with the first weight matrix and bias, the right columns with the second.
-/
import proofs.«142820_j71021579206869_2_alg».proof.Proof.FoldEntry
import proofs.«142820_j71021579206869_2_alg».proof.Proof.FoldTail
import proofs.«142820_j71021579206869_2_alg».proof.Proof.Region0
import proofs.«142820_j71021579206869_2_alg».proof.Proof.Region1
import proofs.«142820_j71021579206869_2_alg».proof.Proof.Region2
import proofs.«142820_j71021579206869_2_alg».proof.Proof.LayoutReads
import proofs.«142820_j71021579206869_2_alg».proof.Proof.NodeScale
import proofs.«142820_j71021579206869_2_alg».proof.Proof.FiniteArgs
import proofs.«142820_j71021579206869_2_alg».proof.Proof.Bridge

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem
open Cert.Gcn Cert.Words Cert.KernelIdeal.FoldEntry Cert.KernelIdeal.FoldTail Cert.KernelIdeal.LayoutReads
open Cert.KernelIdeal.RegionValue ERealFinite

variable (m : (ℓ : Loc nD τ sig) → Buf (Elt Ideal) ℓ) (ρ : Dev nD → PrngReg) (c : Dev nD)

/-- Under the precondition the two results, as the fold through @main leaves them, are the reference's two functions of
    the arguments. -/
theorem results_eq
    (hpre : Cert.Pre_finite_inputs.fn (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) = (fun _ => 1#1)) :
    W9 m ρ c (Proc.devRef .tc main_v43)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg7))
      ∧ W9 m ρ c (Proc.devRef .tc main_v44)
        = refOut (m ((c.tc : Thread nD τ).loc main_arg0)) (m ((c.tc : Thread nD τ).loc main_arg1))
            (m ((c.tc : Thread nD τ).loc main_arg2)) (m ((c.tc : Thread nD τ).loc main_arg5))
            (m ((c.tc : Thread nD τ).loc main_arg6)) (m ((c.tc : Thread nD τ).loc main_arg7)) := by
  obtain ⟨hx, hW1, hb1, hWmu, -, hWls, -⟩ := Cert.FiniteArgs.real_of_pre _ _ _ _ _ _ _ _ hpre
  obtain ⟨r43, r44⟩ := results_of_exit0 m ρ c region1_value region2_value _ _ _ _ _ _ _ _ _
    (W4_v16 m ρ c region0_value) (W4_v15 m ρ c) (W4_v3 m ρ c) (W4_v6 m ρ c) (W4_arg2 m ρ c) (W4_arg3 m ρ c)
    (W4_arg4 m ρ c) (W4_arg5 m ρ c) (W4_arg6 m ρ c)
  constructor
  · rw [r43]
    funext i
    obtain ⟨r, q, rfl⟩ : ∃ (r : Fin 100000) (q : Fin 64), i = ix2 r q := ⟨i 0, i 1, eq_ix2 i⟩
    rw [slice_lo]
    exact Cert.Bridge.encoder_eq hN _ _ _ _ (b1row _) _ _ _ _ lo (wcat_lo _ _) (bcat_lo _ _)
      (nodeScale (edges m c)) (dcol m c) (dcol_read _) (isrc (edges m c)) (idst (edges m c)) (idstWrapped (edges m c))
      (Cert.NodeScale.wrapped_dst (edges m c)) hx hW1 hb1 hWmu (Cert.NodeScale.nodeScale_isReal (edges m c)) r q
  · rw [r44]
    funext i
    obtain ⟨r, q, rfl⟩ : ∃ (r : Fin 100000) (q : Fin 64), i = ix2 r q := ⟨i 0, i 1, eq_ix2 i⟩
    rw [slice_hi]
    exact Cert.Bridge.encoder_eq hN _ _ _ _ (b1row _) _ _ _ _ hi (wcat_hi _ _) (bcat_hi _ _)
      (nodeScale (edges m c)) (dcol m c) (dcol_read _) (isrc (edges m c)) (idst (edges m c)) (idstWrapped (edges m c))
      (Cert.NodeScale.wrapped_dst (edges m c)) hx hW1 hb1 hWls (Cert.NodeScale.nodeScale_isReal (edges m c)) r q

end Cert.KernelIdeal.KernelValue

end
-- ==== Proof.lean ====
/-
  A two-layer graph convolution encoder: from node features x, an edge list, and three dense layers, it computes two
  node-level results (a mean and a log-deviation).  With d the node scale — the reciprocal square root of the in-degree,
  self loops included, and 0 where that is not positive — the reference weights the message of every edge e into node r
  by d(source of e) · d(r), applies each dense layer to the table before passing messages, and adds the bias after.  The
  kernel program scales the table's rows by d before passing messages and the sums by d(r) after (three tiled regions
  for the dense arithmetic, host gathers and scatter-adds for the messages), passes the hidden layer's messages once for
  both results, applies the two second-layer weight matrices joined side by side after the sums, and splits the columns.

  Over the extended reals these agree whenever every float argument is a real number, which the precondition states:
  a real factor moves into a finite sum of products of reals, and the sum over a dense layer's inner coordinate and the
  sum over edges can be exchanged.  Nothing is assumed of the index words: a word that names no node is clamped when a
  table is read and dropped when a message is summed, in both programs alike, and the one place where the two read
  different words (the reference reads the node scale at the wrapped destination word, the kernel at the destination node
  itself) is covered by: a destination word that names node r, wrapped, is r.

  The kernel's run and its argument frames are the generated frame certificates; its three regions' values, the fold
  through its host operations, the reference's run and value, the node scale's realness, and the law are the modules
  imported below.  The ideal pass rewrote nothing, so `preserves` holds trivially.
-/
import proofs.«142820_j71021579206869_2_alg».proof.Defs
import proofs.«142820_j71021579206869_2_alg».proof.Proof.Gen.Kernel
import proofs.«142820_j71021579206869_2_alg».proof.Proof.Gen.Kernel.Frame
import proofs.«142820_j71021579206869_2_alg».proof.Proof.Gen.KernelIdeal
import proofs.«142820_j71021579206869_2_alg».proof.Proof.Gen.KernelIdeal.Frame
import proofs.«142820_j71021579206869_2_alg».proof.Proof.Gen.ReferenceIdeal
import proofs.«142820_j71021579206869_2_alg».proof.Proof.Gen.Pre_finite_inputs
import proofs.«142820_j71021579206869_2_alg».proof.Proof.RefRun
import proofs.«142820_j71021579206869_2_alg».proof.Proof.RefValue
import proofs.«142820_j71021579206869_2_alg».proof.Proof.KernelRun
import proofs.«142820_j71021579206869_2_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2)
    (Cert.ReferenceIdeal.ValueP.run (F := Ideal) m ρ)

/-- The idealized kernel program is the kernel program's own text read over the extended reals. -/
theorem preserves : Cert.preserves_Kernel_KernelIdeal := trivial

/-- From memories that agree on the arguments, the arguments real numbers, both programs end with the reference's two
    functions of the arguments in their result buffers. -/
theorem algebraic : Cert.algebraic_KernelIdeal_ReferenceIdeal := by
  intro m ρ m' ρ' hpre hagree
  refine ⟨fun c => Cert.Words.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)),
    fun c => Cert.Words.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.RunValue.run_results m ρ)
    obtain ⟨e43, e44⟩ := Cert.KernelIdeal.KernelValue.results_eq m ρ c (hpre c)
    exact ⟨(h c).1.trans e43, (h c).2.1.trans e44, (h c).2.2⟩
  · refine (θ_run Cert.ReferenceIdeal.defs _ _).mono
      (fun r h c => ⟨(h c).1.trans ?_, (h c).2.1.trans ?_, (h c).2.2⟩)
      (Cert.ReferenceIdeal.ValueP.run (F := Ideal) m' ρ')
    · refine (Cert.ReferenceIdeal.RefValue.res_out0_eq m' c).trans ?_
      rw [(hagree c).1, (hagree c).2.1, (hagree c).2.2.1, (hagree c).2.2.2.1, (hagree c).2.2.2.2.1,
        (hagree c).2.2.2.2.2.2.2]
    · refine (Cert.ReferenceIdeal.RefValue.res_out1_eq m' c).trans ?_
      rw [(hagree c).1, (hagree c).2.1, (hagree c).2.2.1, (hagree c).2.2.2.2.2.1, (hagree c).2.2.2.2.2.2.1,
        (hagree c).2.2.2.2.2.2.2]

/-- The certificate's claim. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
